-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S2x262144 : Shape := ⟨2, ![2, 262144]⟩
abbrev S8192x8192 : Shape := ⟨2, ![8192, 8192]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S1 .f32) (main_arg8 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg8 main_v33

def fn {F : FTy → Type} [FloatOps F] (main_arg0 : FVec F S8192x256 .f32) (main_arg1 : IVec S2x262144 32) (main_arg2 : FVec F S8192x8192 .f32) (main_arg3 : FVec F S8192x8192 .f32) (main_arg4 : FVec F S256x256 .f32) (main_arg5 : FVec F S256x256 .f32) (main_arg6 : FVec F S256 .f32) (main_arg7 : FVec F S1 .f32) (main_arg8 : FVec F S1 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg2
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg3
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_v13 main_v16
-- ==== Kernel.lean ====
abbrev S8192x256 : Shape := ⟨2, ![8192, 256]⟩
abbrev S2x262144 : Shape := ⟨2, ![2, 262144]⟩
abbrev S8192x8192 : Shape := ⟨2, ![8192, 8192]⟩
abbrev S256x256 : Shape := ⟨2, ![256, 256]⟩
abbrev S256 : Shape := ⟨1, ![256]⟩
abbrev S1 : Shape := ⟨1, ![1]⟩
abbrev S2048x256 : Shape := ⟨2, ![2048, 256]⟩
abbrev S1024x2048 : Shape := ⟨2, ![1024, 2048]⟩
abbrev S1024x256 : Shape := ⟨2, ![1024, 256]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S_ : Shape := ⟨0, ![]⟩
abbrev S270336x1 : Shape := ⟨2, ![270336, 1]⟩
abbrev S270336x256 : Shape := ⟨2, ![270336, 256]⟩
abbrev S1x256 : Shape := ⟨2, ![1, 256]⟩
abbrev S1x1 : Shape := ⟨2, ![1, 1]⟩

abbrev nBuf : Space → Nat
  | .hbm => 86
  | .vmem => 33
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S8192x8192, .f32⟩
  | .hbm, ⟨3, _⟩ => ⟨S8192x8192, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S1, .f32⟩
  | .hbm, ⟨9, _⟩ => ⟨S8192x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192, .i32⟩
  | .hbm, ⟨14, _⟩ => ⟨S1x262144, .i32⟩
  | .hbm, ⟨15, _⟩ => ⟨S262144, .i32⟩
  | .hbm, ⟨16, _⟩ => ⟨S270336, .i32⟩
  | .hbm, ⟨17, _⟩ => ⟨S1x262144, .i32⟩
  | .hbm, ⟨18, _⟩ => ⟨S262144, .i32⟩
  | .hbm, ⟨19, _⟩ => ⟨S270336, .i32⟩
  | .hbm, ⟨20, _⟩ => ⟨S_, .f32⟩
  | .hbm, ⟨21, _⟩ => ⟨S270336, .f32⟩
  | .hbm, ⟨22, _⟩ => ⟨S_, .f32⟩
  | .hbm, ⟨23, _⟩ => ⟨S8192, .f32⟩
  | .hbm, ⟨24, _⟩ => ⟨S270336x1, .i32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .i1⟩
  | .hbm, ⟨29, _⟩ => ⟨S_, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .i32⟩
  | .hbm, ⟨38, _⟩ => ⟨S270336, .i32⟩
  | .hbm, ⟨39, _⟩ => ⟨S270336, .i1⟩
  | .hbm, ⟨40, _⟩ => ⟨S_, .i32⟩
  | .hbm, ⟨41, _⟩ => ⟨S270336, .i32⟩
  | .hbm, ⟨42, _⟩ => ⟨S270336, .i32⟩
  | .hbm, ⟨43, _⟩ => ⟨S270336, .i32⟩
  | .hbm, ⟨44, _⟩ => ⟨S270336x1, .i32⟩
  | .hbm, ⟨45, _⟩ => ⟨S270336, .f32⟩
  | .hbm, ⟨46, _⟩ => ⟨S_, .i32⟩
  | .hbm, ⟨47, _⟩ => ⟨S270336, .i32⟩
  | .hbm, ⟨48, _⟩ => ⟨S270336, .i1⟩
  | .hbm, ⟨49, _⟩ => ⟨S_, .i32⟩
  | .hbm, ⟨50, _⟩ => ⟨S270336, .i32⟩
  | .hbm, ⟨51, _⟩ => ⟨S270336, .i32⟩
  | .hbm, ⟨52, _⟩ => ⟨S270336, .i32⟩
  | .hbm, ⟨53, _⟩ => ⟨S270336x1, .i32⟩
  | .hbm, ⟨54, _⟩ => ⟨S270336, .f32⟩
  | .hbm, ⟨55, _⟩ => ⟨S270336, .f32⟩
  | .hbm, ⟨56, _⟩ => ⟨S8192x256, .f32⟩
  | .hbm, ⟨57, _⟩ => ⟨S_, .i32⟩
  | .hbm, ⟨58, _⟩ => ⟨S270336, .i32⟩
  | .hbm, ⟨59, _⟩ => ⟨S270336, .i1⟩
  | .hbm, ⟨60, _⟩ => ⟨S_, .i32⟩
  | .hbm, ⟨61, _⟩ => ⟨S270336, .i32⟩
  | .hbm, ⟨62, _⟩ => ⟨S270336, .i32⟩
  | .hbm, ⟨63, _⟩ => ⟨S270336, .i32⟩
  | .hbm, ⟨64, _⟩ => ⟨S270336x1, .i32⟩
  | .hbm, ⟨65, _⟩ => ⟨S270336x256, .f32⟩
  | .hbm, ⟨66, _⟩ => ⟨S270336x1, .f32⟩
  | .hbm, ⟨67, _⟩ => ⟨S270336x256, .f32⟩
  | .hbm, ⟨68, _⟩ => ⟨S270336x256, .f32⟩
  | .hbm, ⟨69, _⟩ => ⟨S_, .f32⟩
  | .hbm, ⟨70, _⟩ => ⟨S8192x256, .f32⟩
  | .hbm, ⟨71, _⟩ => ⟨S270336x1, .i32⟩
  | .hbm, ⟨72, _⟩ => ⟨S8192x256, .f32⟩
  | .hbm, ⟨73, _⟩ => ⟨S1x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192x256, .f32⟩
  | .hbm, ⟨78, _⟩ => ⟨S8192x256, .f32⟩
  | .hbm, ⟨79, _⟩ => ⟨S1x1, .f32⟩
  | .hbm, ⟨80, _⟩ => ⟨S8192x256, .f32⟩
  | .hbm, ⟨81, _⟩ => ⟨S8192x256, .f32⟩
  | .hbm, ⟨82, _⟩ => ⟨S1x1, .f32⟩
  | .hbm, ⟨83, _⟩ => ⟨S8192x256, .f32⟩
  | .hbm, ⟨84, _⟩ => ⟨S8192x256, .f32⟩
  | .hbm, ⟨85, _⟩ => ⟨S8192x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1024x2048, .f32⟩
  | .local _ .vmem, ⟨7, _⟩ => ⟨S1024x2048, .f32⟩
  | .local _ .vmem, ⟨8, _⟩ => ⟨S2048x256, .f32⟩
  | .local _ .vmem, ⟨9, _⟩ => ⟨S2048x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x2048, .f32⟩
  | .local _ .vmem, ⟨14, _⟩ => ⟨S1024x2048, .f32⟩
  | .local _ .vmem, ⟨15, _⟩ => ⟨S2048x256, .f32⟩
  | .local _ .vmem, ⟨16, _⟩ => ⟨S2048x256, .f32⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x2048, .f32⟩
  | .local _ .vmem, ⟨21, _⟩ => ⟨S1024x2048, .f32⟩
  | .local _ .vmem, ⟨22, _⟩ => ⟨S2048x256, .f32⟩
  | .local _ .vmem, ⟨23, _⟩ => ⟨S2048x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S2048x256, .f32⟩
  | .local _ .vmem, ⟨28, _⟩ => ⟨S2048x256, .f32⟩
  | .local _ .vmem, ⟨29, _⟩ => ⟨S256x256, .f32⟩
  | .local _ .vmem, ⟨30, _⟩ => ⟨S2048x256, .f32⟩
  | .local _ .vmem, ⟨31, _⟩ => ⟨S2048x256, .f32⟩
  | .local _ .vmem, ⟨32, _⟩ => ⟨S2048x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc3_scratch0 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![8, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 1], ![false, false]⟩

def k4_cond2 (i : grid4.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S2048x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x256_0_1 : S1x1.BroadcastsInDim S8192x256 (![0, 1] : Fin 2 → Fin S8192x256.rank)
  dot_S2048x256_S256x256_S2048x256_1_0_0_1_n_n_wf : DotDims.WF S2048x256 S256x256 S2048x256 [1] [0] [0] [1] [] []
  dot_S1024x2048_S2048x256_S1024x256_1_0_0_1_n_n_wf : DotDims.WF S1024x2048 S2048x256 S1024x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S8192x256.size a
  hwx0_2 : ∀ i : grid0.Coords, EltTy.bits .f32 = 32 ∨ (Rect.block (s := S8192x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S8192x256.size a
  hwx1_1 : ∀ i : grid1.Coords, EltTy.bits .f32 = 32 ∨ (Rect.block (s := S8192x256) S2048x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x256.size a ≤ S8192x256.size a
  hwx1_2 : ∀ i : grid1.Coords, EltTy.bits .f32 = 32 ∨ (Rect.block (s := S8192x256) S1024x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x2048.size a ≤ S8192x8192.size a
  hwx3_0 : ∀ i : grid3.Coords, EltTy.bits .f32 = 32 ∨ (Rect.block (s := S8192x8192) S1024x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S8192x256.size a
  hwx3_1 : ∀ i : grid3.Coords, EltTy.bits .f32 = 32 ∨ (Rect.block (s := S8192x256) S2048x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x256.size a ≤ S8192x256.size a
  hwx3_2 : ∀ i : grid3.Coords, EltTy.bits .f32 = 32 ∨ (Rect.block (s := S8192x256) S1024x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S8192x256.size a
  hwx4_0 : ∀ i : grid4.Coords, EltTy.bits .f32 = 32 ∨ (Rect.block (s := S8192x256) S2048x256.size (cc4_transform_0 i) (hinb4_0 i)).WholeWords (EltTy.packing .f32)
  hstage4_1 : ∀ j, (stage4_1 j).IsWhole
  nbuf4_1 : grid4.bufCount reads4_1 false = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x256.size a ≤ S8192x256.size a
  hwx4_2 : ∀ i : grid4.Coords, EltTy.bits .f32 = 32 ∨ (Rect.block (s := S8192x256) S2048x256.size (cc4_transform_2 i) (hinb4_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg3) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg2) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_arg3) S1024x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v2) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S1024x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_arg0) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S256x256.size cc4_transform_1 reads4_1 false false 1 stage4_1 sem4_1
    hrank4 hreads4_1 hinb4_1 nbuf4_1 (Memref.isWhole_whole _) hwx4_1 hstage4_1

abbrev win4_2 : Pipeline.Window sig grid4 :=
  Pipeline.Window.ofSpec (Memref.whole main_v36) S2048x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S8192x256 : Shape := ⟨2, ![8192, 256]⟩
abbrev S2x262144 : Shape := ⟨2, ![2, 262144]⟩
abbrev S8192x8192 : Shape := ⟨2, ![8192, 8192]⟩
abbrev S256x256 : Shape := ⟨2, ![256, 256]⟩
abbrev S256 : Shape := ⟨1, ![256]⟩
abbrev S1 : Shape := ⟨1, ![1]⟩
abbrev S_ : Shape := ⟨0, ![]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S270336x1 : Shape := ⟨2, ![270336, 1]⟩
abbrev S270336x256 : Shape := ⟨2, ![270336, 256]⟩
abbrev S1x256 : Shape := ⟨2, ![1, 256]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S2x262144, .i32⟩
  | .hbm, ⟨2, _⟩ => ⟨S8192x8192, .f32⟩
  | .hbm, ⟨3, _⟩ => ⟨S8192x8192, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S1, .f32⟩
  | .hbm, ⟨8, _⟩ => ⟨S1, .f32⟩
  | .hbm, ⟨9, _⟩ => ⟨S8192x8192, .f32⟩
  | .hbm, ⟨10, _⟩ => ⟨S8192x8192, .f32⟩
  | .hbm, ⟨11, _⟩ => ⟨S8192x256, .f32⟩
  | .hbm, ⟨12, _⟩ => ⟨S_, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192, .i32⟩
  | .hbm, ⟨17, _⟩ => ⟨S1x262144, .i32⟩
  | .hbm, ⟨18, _⟩ => ⟨S262144, .i32⟩
  | .hbm, ⟨19, _⟩ => ⟨S270336, .i32⟩
  | .hbm, ⟨20, _⟩ => ⟨S1x262144, .i32⟩
  | .hbm, ⟨21, _⟩ => ⟨S262144, .i32⟩
  | .hbm, ⟨22, _⟩ => ⟨S270336, .i32⟩
  | .hbm, ⟨23, _⟩ => ⟨S_, .f32⟩
  | .hbm, ⟨24, _⟩ => ⟨S270336, .f32⟩
  | .hbm, ⟨25, _⟩ => ⟨S_, .f32⟩
  | .hbm, ⟨26, _⟩ => ⟨S8192, .f32⟩
  | .hbm, ⟨27, _⟩ => ⟨S270336x1, .i32⟩
  | .hbm, ⟨28, _⟩ => ⟨S8192, .f32⟩
  | .hbm, ⟨29, _⟩ => ⟨S_, .f32⟩
  | .hbm, ⟨30, _⟩ => ⟨S8192, .f32⟩
  | .hbm, ⟨31, _⟩ => ⟨S8192, .i1⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S_, .i32⟩
  | .hbm, ⟨41, _⟩ => ⟨S270336, .i32⟩
  | .hbm, ⟨42, _⟩ => ⟨S270336, .i1⟩
  | .hbm, ⟨43, _⟩ => ⟨S_, .i32⟩
  | .hbm, ⟨44, _⟩ => ⟨S270336, .i32⟩
  | .hbm, ⟨45, _⟩ => ⟨S270336, .i32⟩
  | .hbm, ⟨46, _⟩ => ⟨S270336, .i32⟩
  | .hbm, ⟨47, _⟩ => ⟨S270336x1, .i32⟩
  | .hbm, ⟨48, _⟩ => ⟨S270336, .f32⟩
  | .hbm, ⟨49, _⟩ => ⟨S_, .i32⟩
  | .hbm, ⟨50, _⟩ => ⟨S270336, .i32⟩
  | .hbm, ⟨51, _⟩ => ⟨S270336, .i1⟩
  | .hbm, ⟨52, _⟩ => ⟨S_, .i32⟩
  | .hbm, ⟨53, _⟩ => ⟨S270336, .i32⟩
  | .hbm, ⟨54, _⟩ => ⟨S270336, .i32⟩
  | .hbm, ⟨55, _⟩ => ⟨S270336, .i32⟩
  | .hbm, ⟨56, _⟩ => ⟨S270336x1, .i32⟩
  | .hbm, ⟨57, _⟩ => ⟨S270336, .f32⟩
  | .hbm, ⟨58, _⟩ => ⟨S270336, .f32⟩
  | .hbm, ⟨59, _⟩ => ⟨S8192x256, .f32⟩
  | .hbm, ⟨60, _⟩ => ⟨S_, .i32⟩
  | .hbm, ⟨61, _⟩ => ⟨S270336, .i32⟩
  | .hbm, ⟨62, _⟩ => ⟨S270336, .i1⟩
  | .hbm, ⟨63, _⟩ => ⟨S_, .i32⟩
  | .hbm, ⟨64, _⟩ => ⟨S270336, .i32⟩
  | .hbm, ⟨65, _⟩ => ⟨S270336, .i32⟩
  | .hbm, ⟨66, _⟩ => ⟨S270336, .i32⟩
  | .hbm, ⟨67, _⟩ => ⟨S270336x1, .i32⟩
  | .hbm, ⟨68, _⟩ => ⟨S270336x256, .f32⟩
  | .hbm, ⟨69, _⟩ => ⟨S270336x1, .f32⟩
  | .hbm, ⟨70, _⟩ => ⟨S270336x256, .f32⟩
  | .hbm, ⟨71, _⟩ => ⟨S270336x256, .f32⟩
  | .hbm, ⟨72, _⟩ => ⟨S_, .f32⟩
  | .hbm, ⟨73, _⟩ => ⟨S8192x256, .f32⟩
  | .hbm, ⟨74, _⟩ => ⟨S270336x1, .i32⟩
  | .hbm, ⟨75, _⟩ => ⟨S8192x256, .f32⟩
  | .hbm, ⟨76, _⟩ => ⟨S1x256, .f32⟩
  | .hbm, ⟨77, _⟩ => ⟨S8192x256, .f32⟩
  | .hbm, ⟨78, _⟩ => ⟨S8192x256, .f32⟩
  | .hbm, ⟨79, _⟩ => ⟨S_, .f32⟩
  | .hbm, ⟨80, _⟩ => ⟨S8192x256, .f32⟩
  | .hbm, ⟨81, _⟩ => ⟨S8192x256, .f32⟩
  | .hbm, ⟨82, _⟩ => ⟨S1x1, .f32⟩
  | .hbm, ⟨83, _⟩ => ⟨S8192x256, .f32⟩
  | .hbm, ⟨84, _⟩ => ⟨S8192x256, .f32⟩
  | .hbm, ⟨85, _⟩ => ⟨S1x1, .f32⟩
  | .hbm, ⟨86, _⟩ => ⟨S8192x256, .f32⟩
  | .hbm, ⟨87, _⟩ => ⟨S8192x256, .f32⟩
  | .hbm, ⟨88, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_cst : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v21 : Ref sig .tc := ⟨.hbm, 39, rfl⟩
abbrev main_c : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_5 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call2_cst : Ref sig .tc := ⟨.hbm, 79, rfl⟩
abbrev main_call2_v0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  bcast_S_S8192x256 : S_.BroadcastsInDim S8192x256 (![] : Fin 0 → Fin S8192x256.rank)
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  bcast_S_S270336 : S_.BroadcastsInDim S270336 (![] : Fin 0 → Fin S270336.rank)
  bcast_S_S8192 : S_.BroadcastsInDim S8192 (![] : Fin 0 → Fin S8192.rank)
  bcast_S270336_S270336x1_0 : S270336.BroadcastsInDim S270336x1 (![0] : Fin 1 → Fin S270336x1.rank)
  bcast_S270336x1_S270336x256_0_1 : S270336x1.BroadcastsInDim S270336x256 (![0, 1] : Fin 2 → Fin S270336x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S1_S1x1_1 : S1.BroadcastsInDim S1x1 (![1] : Fin 1 → Fin S1x1.rank)
  bcast_S1x1_S8192x256_0_1 : S1x1.BroadcastsInDim S8192x256 (![0, 1] : Fin 2 → Fin S8192x256.rank)
  dot_S8192x8192_S8192x8192_S8192x8192_1_0_0_1_n_n_wf : DotDims.WF S8192x8192 S8192x8192 S8192x8192 [1] [0] [0] [1] [] []
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []
  scatter_S8192_S270336x1_S270336_n_0_0_1_wf : ScatterDims.WF S8192 S270336x1 S270336 [] [0] [0] 1
  gather_S8192_S270336x1_S270336_n_0_n_n_0_1_1_wf : GatherDims.WF S8192 S270336x1 S270336 [] [0] [] [0] [] 1 ![1]
  gather_S8192x256_S270336x1_S270336x256_1_0_n_n_0_1_1256_wf : GatherDims.WF S8192x256 S270336x1 S270336x256 [1] [0] [] [0] [] 1 ![1, 256]
  scatter_S8192x256_S270336x1_S270336x256_1_0_0_1_wf : ScatterDims.WF S8192x256 S270336x1 S270336x256 [1] [0] [0] 1

variable [Facts₀]

def dot_S8192x8192_S8192x8192_S8192x8192_1_0_0_1_n_n : DotDims S8192x8192 S8192x8192 S8192x8192 where
  lhsContracting := [1]
  rhsContracting := [0]
  lhsNonContracting := [0]
  rhsNonContracting := [1]
  lhsBatch := []
  rhsBatch := []
  wf := dot_S8192x8192_S8192x8192_S8192x8192_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def scatter_S8192_S270336x1_S270336_n_0_0_1 : ScatterDims S8192 S270336x1 S270336 where
  updateWindowDims := []
  insertedWindowDims := [0]
  scatterDimsToOperandDims := [0]
  indexVectorDim := 1
  wf := scatter_S8192_S270336x1_S270336_n_0_0_1_wf
def gather_S8192_S270336x1_S270336_n_0_n_n_0_1_1 : GatherDims S8192 S270336x1 S270336 where
  offsetDims := []
  collapsedSliceDims := [0]
  operandBatchingDims := []
  startIndicesBatchingDims := []
  startIndexMap := [0]
  indexVectorDim := 1
  sliceSizes := ![1]
  wf := gather_S8192_S270336x1_S270336_n_0_n_n_0_1_1_wf
def gather_S8192x256_S270336x1_S270336x256_1_0_n_n_0_1_1256 : GatherDims S8192x256 S270336x1 S270336x256 where
  offsetDims := [1]
  collapsedSliceDims := [0]
  operandBatchingDims := []
  startIndicesBatchingDims := []
  startIndexMap := [0]
  indexVectorDim := 1
  sliceSizes := ![1, 256]
  wf := gather_S8192x256_S270336x1_S270336x256_1_0_n_n_0_1_1256_wf
def scatter_S8192x256_S270336x1_S270336x256_1_0_0_1 : ScatterDims S8192x256 S270336x1 S270336x256 where
  updateWindowDims := [1]
  insertedWindowDims := [0]
  scatterDimsToOperandDims := [0]
  indexVectorDim := 1
  wf := scatter_S8192x256_S270336x1_S270336x256_1_0_0_1_wf

class Facts : Prop extends Facts₀ where

variable [Facts]
-- ==== Proof.BR0Runs.lean ====
/-
  Region 0 multiplies a row block of its left operand by its whole right operand in ONE step along the contracted
  axis: every point is both the first and the last step of its row block, so at every point the accumulator is
  cleared, the product of the two blocks is added, and the result is stored to the output block. This module
  says so (both conditions hold at every grid point; no window is ever idle) and runs the body for that one case.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block": at every point. -/
abbrev condA (i : grid0.Coords) : Prop := (Scalar.cmpi .ne (Scalar.extui (Scalar.cmpi .eq (BitVec.ofNat 32 (i 1).val) 0#32)) 0#32) = 1#1
theorem hcondA : ∀ t : Fin cfg0.N, condA (grid0.coords t) :=
  (by decide +kernel : ∀ t : Fin grid0.N, condA (grid0.coords t))
/-- "this is the last step of a row block": at every point. -/
abbrev condL (i : grid0.Coords) : Prop := k0_cond2 i = 1#1
theorem hcondL : ∀ t : Fin cfg0.N, condL (grid0.coords t) :=
  (by decide +kernel : ∀ t : Fin grid0.N, condL (grid0.coords t))

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

abbrev ms_0 (t : Fin cfg0.N) : Memref sig .tc .vmem S2048x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x256 .f32 := win0_2.stage (cfg0.slots t 2)
abbrev hs_2 (t : Fin cfg0.N) : (ms_2 t).IsWhole := hstage0_2 ((cfg0.slots t 2).cast nbuf0_2)
abbrev acc : Memref sig .tc .vmem S2048x256 .f32 := Memref.whole cc0_scratch0
abbrev accV : View sig .tc .vmem S2048x256 .f32 := (acc).view
abbrev outV : View sig .tc .vmem S2048x256 .f32 := (Memref.whole cc0_stg2_0 : Memref sig .tc .vmem S2048x256 .f32).view

set_option maxHeartbeats 4000000 in
/-- The one case: from the two input blocks, the output block and the accumulator at anything, the body ends with
    both holding the pieces it stored. -/
noncomputable def runD (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole)
    (hA : condA i) (hL : condL i) (x0 : Vec F S2048x256 .f32) (x1 : Vec F S256x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R0

end
-- ==== Proof.BR0Body.lean ====
/-
  Region 0, the proof data and the body obligation, at any contents V of the core's buffers at the region's entry.
  Every point clears the accumulator, adds the product of its two blocks and stores the result to the output
  block, so nothing is carried from one point to the next: between points the invariant holds the accumulator at
  some contents, beside the scoped buffers the region does not use and the generator register.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import proofs.«126198_j83554293777022_1_alg».proof.Proof.BR0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the point leaves in the accumulator and in the output block, from its two blocks. -/
def sD (c : Dev nD) (t : Fin cfg0.N) : Vec F S2048x256 .f32 :=
  accV.read (Elt F) (accV.writes (Elt F) accV.junk (runD c (grid0.coords t) (ms_0 t) (hs_0 t) (ms_1 t) (hs_1 t) (ms_2 t) (hs_2 t) acc (Memref.isWhole_whole _) (hcondA t) (hcondL t) (iblk V c 0 t) (iblk V c 1 t)).2.1)
theorem coverDs (c : Dev nD) (t : Fin cfg0.N) (y : S2048x256.Idx) :
    ∃ pc ∈ (runD c (grid0.coords t) (ms_0 t) (hs_0 t) (ms_1 t) (hs_1 t) (ms_2 t) (hs_2 t) acc (Memref.isWhole_whole _) (hcondA t) (hcondL t) (iblk V c 0 t) (iblk V c 1 t)).2.1, y ∈ pc.1.set :=
  View.cover_of_tiledL _ S2048x256.size (by sl_kernel_rfl) y
def oD (c : Dev nD) (t : Fin cfg0.N) : Vec F S2048x256 .f32 :=
  outV.read (Elt F) (outV.writes (Elt F) outV.junk (runD c (grid0.coords t) (ms_0 t) (hs_0 t) (ms_1 t) (hs_1 t) (ms_2 t) (hs_2 t) acc (Memref.isWhole_whole _) (hcondA t) (hcondL t) (iblk V c 0 t) (iblk V c 1 t)).1)
theorem coverDo (c : Dev nD) (t : Fin cfg0.N) (y : S2048x256.Idx) :
    ∃ pc ∈ (runD c (grid0.coords t) (ms_0 t) (hs_0 t) (ms_1 t) (hs_1 t) (ms_2 t) (hs_2 t) acc (Memref.isWhole_whole _) (hcondA t) (hcondL t) (iblk V c 0 t) (iblk V c 1 t)).1, y ∈ pc.1.set :=
  View.cover_of_tiledL _ S2048x256.size (by sl_kernel_rfl) y

/-- The scoped buffers the region does not use. -/
abbrev rest (c : Dev nD) : sProp 𝕄 := Pipeline.scopedRestBut (Ix := Unit) (Name := ℕ) (U := UR sig nD τ) (Lvl := ℕ) (Val := Elt F) spec0 c [cc0_scratch0]

/-- Between points: the accumulator at some contents, the unused scoped buffers, the generator register. -/
def Phi (c : Dev nD) : sProp 𝕄 := iprop((∃ d, owns (c : Thread nD τ) acc fullShare d) ∗ rest c ∗ (∃ r, prngReg c r))

/-- The proof data: the arrays as the region finds them; the inputs' buffers at their blocks; the output's at what
    the point stores; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => oD V c t
  Φ _ := Phi c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = oD V c t := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the one case's run; the invariant and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  unfold Phi oD
  iintro ⟨⟨HS, Hr⟩, Ho, ⟨%d0, H0⟩, ⟨%d1, H1⟩, ⟨%d2, H2⟩⟩
  iapply ((runD c (grid0.coords t) _ _ _ _ _ _ _ _ (hcondA t) (hcondL t) (iblk V c 0 t) (iblk V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hr]
  · isplitl [HS]
    · iexists (sD V c t); unfold owns; iexists _; isplitr
      swap; · iexact HS
      ipureintro; exact View.read_writes_of_cover _ _ _ _ _ (coverDs V c t)
    iexact Hr
  isplitl [Ho]; · iexact Ho
  isplitl [H0]; · iexact H0
  isplitl [H1]; · iexact H1
  unfold owns; iexists _; isplitr
  swap; · iexact H2
  ipureintro; exact View.read_writes_of_cover _ _ _ _ _ (coverDo V c t)

/-- The library's body obligation, at every point. -/
theorem body_obligation (c : Dev nD) : BodyObligation (dat (F := F) V c) (defs₀ (F := F)) Variants.none () Set.univ := fun t => by
  rw [bigSep_W0, bigSep_W0]
  exact sound_body V c t

/-- The generator register and the scoped buffers the windows do not stage make the invariant: the accumulator is
    one of those buffers, whole, at some contents. -/
theorem Phi_in (c : Dev nD) :
    (iprop((∃ r, prngReg c r) ∗ Pipeline.scopedRest (Ix := Unit) (Name := ℕ) (U := UR sig nD τ) (Lvl := ℕ) (Val := Elt F) spec0 c) : sProp 𝕄) ⊢ (dat V c).Φ 0 := by
  rw [show (dat V c).Φ 0 = Phi c from rfl, scopedRest0_split]
  unfold Phi
  simp only [acc, owns_whole]
  iintro ⟨Hp, Hs, Hr⟩
  isplitl [Hs]; · iexact Hs
  isplitl [Hr]; · iexact Hr
  iexact Hp

/-- And the invariant gives them back. -/
theorem Phi_out (c : Dev nD) :
    (dat V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  rw [show (dat V c).Φ (Fin.last cfg0.N) = Phi c from rfl, scopedRest0_split]
  unfold Phi
  simp only [acc, owns_whole]
  iintro ⟨Hs, Hr, Hp⟩
  isplitl [Hp]; · iexact Hp
  isplitl [Hs]; · iexact Hs
  iexact Hr

end

end Cert.Kernel.R0

end
-- ==== Proof.BR1Runs.lean ====
/-
  Region 1 multiplies a row block of its left operand by its right operand in four steps along the contracted
  axis: at step 0 of a row block the accumulator is cleared, at every step the product of the step's two blocks is
  added to it, at step 3 the accumulator is copied to the output block. This module decides at which grid points
  each of the two conditions holds (the grid is row-block-major: point t is row block t / 4, step t % 4), says where
  the output window is idle, and runs the body once for each of the three combinations the grid meets.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block", as the body computes it from the grid coordinates. -/
abbrev condA (i : grid1.Coords) : Prop := (Scalar.cmpi .ne (Scalar.extui (Scalar.cmpi .eq (BitVec.ofNat 32 (i 1).val) 0#32)) 0#32) = 1#1
theorem hcondA : ∀ t : Fin cfg1.N, condA (grid1.coords t) ↔ t.val % 4 = 0 :=
  (by decide +kernel : ∀ t : Fin grid1.N, condA (grid1.coords t) ↔ t.val % 4 = 0)

/-- "this is the last step of a row block". -/
abbrev condL (i : grid1.Coords) : Prop := k1_cond2 i = 1#1
theorem hcondL : ∀ t : Fin cfg1.N, condL (grid1.coords t) ↔ t.val % 4 = 3 :=
  (by decide +kernel : ∀ t : Fin grid1.N, condL (grid1.coords t) ↔ t.val % 4 = 3)

/-- The two input windows are read at every point. -/
theorem live_0 : ∀ t : Fin cfg1.N, cfg1.idle 0 (grid1.coords t) = false := by decide +kernel
theorem live_1 : ∀ t : Fin cfg1.N, cfg1.idle 1 (grid1.coords t) = false := by decide +kernel
/-- Before the last step nothing is stored into the output block and it is not written back. -/
theorem idle_out : ∀ t : Fin cfg1.N, ¬condL (grid1.coords t) → cfg1.idle 2 (grid1.coords t) = true := by decide +kernel
theorem noflush_out : ∀ t : Fin cfg1.N, ¬condL (grid1.coords t) → (cfg1.win 2).flush t = false := by decide +kernel
/-- At the last step the output block is stored. -/
theorem live_out : ∀ t : Fin cfg1.N, condL (grid1.coords t) → cfg1.idle 2 (grid1.coords t) = false := by decide +kernel

/-- The staging memrefs the body is called with at point t, and the accumulator. -/
abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x256 .f32 := win1_2.stage (cfg1.slots t 2)
abbrev hs_2 (t : Fin cfg1.N) : (ms_2 t).IsWhole := hstage1_2 ((cfg1.slots t 2).cast nbuf1_2)
abbrev acc : Memref sig .tc .vmem S1024x256 .f32 := Memref.whole cc1_scratch0
abbrev accV : View sig .tc .vmem S1024x256 .f32 := (acc).view
abbrev outV : View sig .tc .vmem S1024x256 .f32 := (Memref.whole cc1_stg2_0 : Memref sig .tc .vmem S1024x256 .f32).view

set_option maxHeartbeats 4000000 in
/-- Step 0 of a row block, not the last: from the two input blocks, the output block at anything handed back
    untouched, and the accumulator at anything, the body ends with the accumulator holding the pieces it stored. -/
noncomputable def runA (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : condA i) (hL : ¬condL i) (x0 : Vec F S1024x2048 .f32) (x1 : Vec F S2048x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xo E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle step: the accumulator enters at what the step before left in it. -/
noncomputable def runB (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : ¬condL i) (x0 : Vec F S1024x2048 .f32) (x1 : Vec F S2048x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xo E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last step: the accumulator enters at what the step before left; the output block (at anything) ends
    holding the pieces stored into it. -/
noncomputable def runC (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : condL i) (x0 : Vec F S1024x2048 .f32) (x1 : Vec F S2048x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R1

end
-- ==== Proof.BR1Body.lean ====
/-
  Region 1, the proof data and the body obligation, at any contents V of the core's buffers at the region's entry.

  The accumulator after point t is defined by recursion on the point: at step 0 of a row block it is what the
  clearing case leaves from the point's two input blocks alone; at a later step it is what the adding case leaves
  from the two blocks and the accumulator of the point before. The output block after the last step of a row block
  is what that case stores from the accumulator. Between points the invariant holds the accumulator at exactly
  this value, beside the scoped buffers the region does not use and the generator register.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import proofs.«126198_j83554293777022_1_alg».proof.Proof.BR1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The clearing case's accumulator, from the point's two blocks. -/
def sA (c : Dev nD) (t : Fin cfg1.N) (hA : condA (grid1.coords t)) (hL : ¬condL (grid1.coords t)) : Vec F S1024x256 .f32 :=
  accV.read (Elt F) (accV.writes (Elt F) accV.junk (runA c (grid1.coords t) (ms_0 t) (hs_0 t) (ms_1 t) (hs_1 t) (ms_2 t) (hs_2 t) acc (Memref.isWhole_whole _) hA hL (iblk V c 0 t) (iblk V c 1 t)).1)
theorem coverA (c : Dev nD) (t : Fin cfg1.N) (hA : condA (grid1.coords t)) (hL : ¬condL (grid1.coords t)) (y : S1024x256.Idx) :
    ∃ pc ∈ (runA c (grid1.coords t) (ms_0 t) (hs_0 t) (ms_1 t) (hs_1 t) (ms_2 t) (hs_2 t) acc (Memref.isWhole_whole _) hA hL (iblk V c 0 t) (iblk V c 1 t)).1, y ∈ pc.1.set :=
  View.cover_of_tiledL _ S1024x256.size (by sl_kernel_rfl) y

/-- The adding case's accumulator, from the two blocks and the accumulator before. -/
def sB (c : Dev nD) (t : Fin cfg1.N) (hA : ¬condA (grid1.coords t)) (hL : ¬condL (grid1.coords t)) (xs : Vec F S1024x256 .f32) : Vec F S1024x256 .f32 :=
  accV.read (Elt F) (accV.writes (Elt F) accV.junk (runB c (grid1.coords t) (ms_0 t) (hs_0 t) (ms_1 t) (hs_1 t) (ms_2 t) (hs_2 t) acc (Memref.isWhole_whole _) hA hL (iblk V c 0 t) (iblk V c 1 t) xs).1)
theorem coverB (c : Dev nD) (t : Fin cfg1.N) (hA : ¬condA (grid1.coords t)) (hL : ¬condL (grid1.coords t)) (xs : Vec F S1024x256 .f32) (y : S1024x256.Idx) :
    ∃ pc ∈ (runB c (grid1.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-- The last step's accumulator and output block. -/
def sC (c : Dev nD) (t : Fin cfg1.N) (hA : ¬condA (grid1.coords t)) (hL : condL (grid1.coords t)) (xs : Vec F S1024x256 .f32) : Vec F S1024x256 .f32 :=
  accV.read (Elt F) (accV.writes (Elt F) accV.junk (runC c (grid1.coords t) (ms_0 t) (hs_0 t) (ms_1 t) (hs_1 t) (ms_2 t) (hs_2 t) acc (Memref.isWhole_whole _) hA hL (iblk V c 0 t) (iblk V c 1 t) xs).2.1)
theorem coverCs (c : Dev nD) (t : Fin cfg1.N) (hA : ¬condA (grid1.coords t)) (hL : condL (grid1.coords t)) (xs : Vec F S1024x256 .f32) (y : S1024x256.Idx) :
    ∃ pc ∈ (runC c (grid1.coords t) (ms_0 t) (hs_0 t) (ms_1 t) (hs_1 t) (ms_2 t) (hs_2 t) acc (Memref.isWhole_whole _) hA hL (iblk V c 0 t) (iblk V c 1 t) xs).2.1, y ∈ pc.1.set :=
  View.cover_of_tiledL _ S1024x256.size (by sl_kernel_rfl) y
def oC (c : Dev nD) (t : Fin cfg1.N) (hA : ¬condA (grid1.coords t)) (hL : condL (grid1.coords t)) (xs : Vec F S1024x256 .f32) : Vec F S1024x256 .f32 :=
  outV.read (Elt F) (outV.writes (Elt F) outV.junk (runC c (grid1.coords t) (ms_0 t) (hs_0 t) (ms_1 t) (hs_1 t) (ms_2 t) (hs_2 t) acc (Memref.isWhole_whole _) hA hL (iblk V c 0 t) (iblk V c 1 t) xs).1)
theorem coverCo (c : Dev nD) (t : Fin cfg1.N) (hA : ¬condA (grid1.coords t)) (hL : condL (grid1.coords t)) (xs : Vec F S1024x256 .f32) (y : S1024x256.Idx) :
    ∃ pc ∈ (runC c (grid1.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-! ## The accumulation -/

/-- One point's effect on the accumulator, given the accumulator before it (ignored at step 0). -/
def stepAcc (c : Dev nD) (t : Fin cfg1.N) (prev : Vec F S1024x256 .f32) : Vec F S1024x256 .f32 :=
  if hA : condA (grid1.coords t) then (if hL : condL (grid1.coords t) then prev else sA V c t hA hL)
  else if hL : condL (grid1.coords t) then sC V c t hA hL prev else sB V c t hA hL prev
/-- What the last step stores into the output block (elsewhere a value nothing consults). -/
def stepOut (c : Dev nD) (t : Fin cfg1.N) (prev : Vec F S1024x256 .f32) : Vec F S1024x256 .f32 :=
  if hA : condA (grid1.coords t) then prev
  else if hL : condL (grid1.coords t) then oC V c t hA hL prev else prev

/-- The accumulator after the point at position n. -/
def accAt (c : Dev nD) : (n : ℕ) → n < cfg1.N → Vec F S1024x256 .f32
  | 0, hn => stepAcc V c ⟨0, hn⟩ (k1_pay1 (F := F))
  | n + 1, hn => stepAcc V c ⟨n + 1, hn⟩ (accAt c n (Nat.lt_of_succ_lt hn))
/-- The accumulator before the point at position n (anything at the first point). -/
def accBefore (c : Dev nD) : (n : ℕ) → n < cfg1.N → Vec F S1024x256 .f32
  | 0, _ => k1_pay1 (F := F)
  | n + 1, hn => accAt V c n (Nat.lt_of_succ_lt hn)
theorem accAt_eq (c : Dev nD) (t : Fin cfg1.N) : accAt V c t.val t.isLt = stepAcc V c t (accBefore V c t.val t.isLt) := by
  obtain ⟨n, hn⟩ := t
  cases n with
  | zero => rfl
  | succ n => rfl
theorem accBefore_pos (c : Dev nD) (n : ℕ) (hn : n < cfg1.N) (hz : n ≠ 0) :
    accBefore V c n hn = accAt V c (n - 1) (by omega) := by
  cases n with
  | zero => exact absurd rfl hz
  | succ n => rfl

/-! ## The invariant and the proof data -/

/-- The scoped buffers the region does not use. -/
abbrev rest (c : Dev nD) : sProp 𝕄 := Pipeline.scopedRestBut (Ix := Unit) (Name := ℕ) (U := UR sig nD τ) (Lvl := ℕ) (Val := Elt F) spec1 c [cc1_scratch0]

/-- Before position n: the accumulator at anything before the first point, then at what the point before left. -/
def Phi (c : Dev nD) : (n : ℕ) → n ≤ cfg1.N → sProp 𝕄
  | 0, _ => iprop((∃ d, owns (c : Thread nD τ) acc fullShare d) ∗ rest c ∗ (∃ r, prngReg c r))
  | n + 1, hn => iprop(owns (c : Thread nD τ) acc fullShare (accAt V c n hn) ∗ rest c ∗ (∃ r, prngReg c r))
theorem Phi_zero (c : Dev nD) (n : ℕ) (h : n ≤ cfg1.N) (hz : n = 0) :
    Phi V c n h = iprop((∃ d, owns (c : Thread nD τ) acc fullShare d) ∗ rest c ∗ (∃ r, prngReg c r)) := by
  subst hz; rfl
theorem Phi_succ (c : Dev nD) (n : ℕ) (hn : n < cfg1.N) :
    Phi V c (n + 1) hn = iprop(owns (c : Thread nD τ) acc fullShare (accAt V c n hn) ∗ rest c ∗ (∃ r, prngReg c r)) := rfl
theorem Phi_pos (c : Dev nD) (n : ℕ) (h : n ≤ cfg1.N) (hz : n ≠ 0) :
    Phi V c n h = iprop(owns (c : Thread nD τ) acc fullShare (accAt V c (n - 1) (by omega)) ∗ rest c ∗ (∃ r, prngReg c r)) := by
  cases n with
  | zero => exact absurd rfl hz
  | succ n => rfl

/-- The proof data: the arrays as the region finds them; the inputs' buffers at their blocks; the output's at what
    the last step stores; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => stepOut V c t (accBefore V c t.val t.isLt)
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = stepOut V c t (accBefore V c t.val t.isLt) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The closed forms say which case the point is in; the invariant hands the body the
    accumulator (at anything for the clearing case, at what the point before left otherwise) and takes it back at
    this point's value; before the last step the output block goes back as it came; the core owes nothing. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [accAt_eq V c t]
  by_cases hA : condA (grid1.coords t)
  · by_cases hL : condL (grid1.coords t)
    · exfalso; have h1 := (hcondA t).mp hA; have h2 := (hcondL t).mp hL; omega
    · rw [Dat.leavesExact_idle (dat V c) 2 t (idle_out t hL) (noflush_out t hL)]
      rw [show stepAcc V c t (accBefore V c t.val t.isLt) = sA V c t hA hL from by unfold stepAcc; rw [dif_pos hA, dif_neg hL]]
      unfold sA
      have hin : (dat V c).Φ t.castSucc ⊢ (iprop((∃ d, owns (c : Thread nD τ) acc fullShare d) ∗ rest c ∗ (∃ r, prngReg c r)) : sProp 𝕄) := by
        rw [Phi_castSucc V c t]
        by_cases hz : t.val = 0
        · rw [Phi_zero V c _ _ hz]
        · rw [Phi_pos V c _ _ hz]
          iintro ⟨HS, Hr⟩
          isplitl [HS]; · iexists _; iexact HS
          iexact Hr
      iintro ⟨HΦ, Ho, ⟨%d0, H0⟩, ⟨%d1, H1⟩, ⟨%d2, H2⟩⟩
      ihave HΦ' := hin $$ HΦ
      icases HΦ' with ⟨HS, Hr⟩
      iapply ((runA c (grid1.coords t) _ _ _ _ _ _ _ _ hA hL (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverA V c t hA hL)
        iexact Hr
      isplitl [Ho]; · iexact Ho
      isplitl [H0]; · iexact H0
      isplitl [H1]; · iexact H1
      iexists _; iexact H2
  · have hz : t.val ≠ 0 := fun h => hA ((hcondA t).mpr (by rw [h]))
    rw [Phi_castSucc V c t, Phi_pos V c _ _ hz, accBefore_pos V c _ _ hz]
    by_cases hL : condL (grid1.coords t)
    · rw [show (dat V c).leavesExact 2 t = owns (c : Thread nD τ) (ms_2 t) fullShare ((dat V c).after 2 t) from by
        unfold Dat.leavesExact; rw [live_out t hL], after_2]
      rw [accBefore_pos V c _ _ hz]
      rw [show stepAcc V c t (accAt V c (t.val - 1) (by omega)) = sC V c t hA hL (accAt V c (t.val - 1) (by omega)) from by unfold stepAcc; rw [dif_neg hA, dif_pos hL]]
      rw [show stepOut V c t (accAt V c (t.val - 1) (by omega)) = oC V c t hA hL (accAt V c (t.val - 1) (by omega)) from by unfold stepOut; rw [dif_neg hA, dif_pos hL]]
      unfold sC oC
      iintro ⟨⟨HS, Hr⟩, Ho, ⟨%d0, H0⟩, ⟨%d1, H1⟩, ⟨%d2, H2⟩⟩
      iapply ((runC c (grid1.coords t) _ _ _ _ _ _ _ _ hA hL (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverCs V c t hA hL _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverCo V c t hA hL _)
    · rw [Dat.leavesExact_idle (dat V c) 2 t (idle_out t hL) (noflush_out t hL)]
      rw [show stepAcc V c t (accAt V c (t.val - 1) (by omega)) = sB V c t hA hL (accAt V c (t.val - 1) (by omega)) from by unfold stepAcc; rw [dif_neg hA, dif_neg hL]]
      unfold sB
      iintro ⟨⟨HS, Hr⟩, Ho, ⟨%d0, H0⟩, ⟨%d1, H1⟩, ⟨%d2, H2⟩⟩
      iapply ((runB c (grid1.coords t) _ _ _ _ _ _ _ _ hA hL (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverB V c t hA hL _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- The generator register and the scoped buffers the windows do not stage make the invariant before the first
    point: the accumulator is one of those buffers, whole, at some contents. -/
theorem Phi_in (c : Dev nD) :
    (iprop((∃ r, prngReg c r) ∗ Pipeline.scopedRest (Ix := Unit) (Name := ℕ) (U := UR sig nD τ) (Lvl := ℕ) (Val := Elt F) spec1 c) : sProp 𝕄) ⊢ (dat V c).Φ 0 := by
  rw [show (dat V c).Φ 0 = Phi V c 0 (Nat.zero_le _) from rfl, Phi_zero V c 0 _ rfl, scopedRest1_split]
  simp only [acc, owns_whole]
  iintro ⟨Hp, Hs, Hr⟩
  isplitl [Hs]; · iexact Hs
  isplitl [Hr]; · iexact Hr
  iexact Hp

/-- After the last point the invariant gives them back, the accumulator's value forgotten. -/
theorem Phi_out (c : Dev nD) :
    (dat V c).Φ (Fin.last cfg1.N) ⊢ (iprop((∃ r, prngReg c r) ∗ Pipeline.scopedRest (Ix := Unit) (Name := ℕ) (U := UR sig nD τ) (Lvl := ℕ) (Val := Elt F) spec1 c) : sProp 𝕄) := by
  rw [show (dat V c).Φ (Fin.last cfg1.N) = Phi V c cfg1.N (Nat.le_refl _) from rfl,
    Phi_pos V c _ _ (by have : cfg1.N = 32 := N_1; omega), scopedRest1_split]
  simp only [acc, owns_whole]
  iintro ⟨Hs, Hr, Hp⟩
  isplitl [Hp]; · iexact Hp
  isplitl [Hs]; · iexists _; iexact Hs
  iexact Hr

end

end Cert.Kernel.R1

end
-- ==== Proof.BR2Runs.lean ====
/-
  Region 2 multiplies a row block of its left operand by its right operand in four steps along the contracted
  axis: at step 0 of a row block the accumulator is cleared, at every step the product of the step's two blocks is
  added to it, at step 3 the accumulator is copied to the output block. This module decides at which grid points
  each of the two conditions holds (the grid is row-block-major: point t is row block t / 4, step t % 4), says where
  the output window is idle, and runs the body once for each of the three combinations the grid meets.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block", as the body computes it from the grid coordinates. -/
abbrev condA (i : grid2.Coords) : Prop := (Scalar.cmpi .ne (Scalar.extui (Scalar.cmpi .eq (BitVec.ofNat 32 (i 1).val) 0#32)) 0#32) = 1#1
theorem hcondA : ∀ t : Fin cfg2.N, condA (grid2.coords t) ↔ t.val % 4 = 0 :=
  (by decide +kernel : ∀ t : Fin grid2.N, condA (grid2.coords t) ↔ t.val % 4 = 0)

/-- "this is the last step of a row block". -/
abbrev condL (i : grid2.Coords) : Prop := k2_cond2 i = 1#1
theorem hcondL : ∀ t : Fin cfg2.N, condL (grid2.coords t) ↔ t.val % 4 = 3 :=
  (by decide +kernel : ∀ t : Fin grid2.N, condL (grid2.coords t) ↔ t.val % 4 = 3)

/-- The two input windows are read at every point. -/
theorem live_0 : ∀ t : Fin cfg2.N, cfg2.idle 0 (grid2.coords t) = false := by decide +kernel
theorem live_1 : ∀ t : Fin cfg2.N, cfg2.idle 1 (grid2.coords t) = false := by decide +kernel
/-- Before the last step nothing is stored into the output block and it is not written back. -/
theorem idle_out : ∀ t : Fin cfg2.N, ¬condL (grid2.coords t) → cfg2.idle 2 (grid2.coords t) = true := by decide +kernel
theorem noflush_out : ∀ t : Fin cfg2.N, ¬condL (grid2.coords t) → (cfg2.win 2).flush t = false := by decide +kernel
/-- At the last step the output block is stored. -/
theorem live_out : ∀ t : Fin cfg2.N, condL (grid2.coords t) → cfg2.idle 2 (grid2.coords t) = false := by decide +kernel

/-- The staging memrefs the body is called with at point t, and the accumulator. -/
abbrev ms_0 (t : Fin cfg2.N) : Memref sig .tc .vmem S1024x2048 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x256 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x256 .f32 := win2_2.stage (cfg2.slots t 2)
abbrev hs_2 (t : Fin cfg2.N) : (ms_2 t).IsWhole := hstage2_2 ((cfg2.slots t 2).cast nbuf2_2)
abbrev acc : Memref sig .tc .vmem S1024x256 .f32 := Memref.whole cc2_scratch0
abbrev accV : View sig .tc .vmem S1024x256 .f32 := (acc).view
abbrev outV : View sig .tc .vmem S1024x256 .f32 := (Memref.whole cc2_stg2_0 : Memref sig .tc .vmem S1024x256 .f32).view

set_option maxHeartbeats 4000000 in
/-- Step 0 of a row block, not the last: from the two input blocks, the output block at anything handed back
    untouched, and the accumulator at anything, the body ends with the accumulator holding the pieces it stored. -/
noncomputable def runA (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : condA i) (hL : ¬condL i) (x0 : Vec F S1024x2048 .f32) (x1 : Vec F S2048x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle step: the accumulator enters at what the step before left in it. -/
noncomputable def runB (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : ¬condL i) (x0 : Vec F S1024x2048 .f32) (x1 : Vec F S2048x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last step: the accumulator enters at what the step before left; the output block (at anything) ends
    holding the pieces stored into it. -/
noncomputable def runC (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : condL i) (x0 : Vec F S1024x2048 .f32) (x1 : Vec F S2048x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R2

end
-- ==== Proof.BR2Body.lean ====
/-
  Region 2, the proof data and the body obligation, at any contents V of the core's buffers at the region's entry.

  The accumulator after point t is defined by recursion on the point: at step 0 of a row block it is what the
  clearing case leaves from the point's two input blocks alone; at a later step it is what the adding case leaves
  from the two blocks and the accumulator of the point before. The output block after the last step of a row block
  is what that case stores from the accumulator. Between points the invariant holds the accumulator at exactly
  this value, beside the scoped buffers the region does not use and the generator register.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import proofs.«126198_j83554293777022_1_alg».proof.Proof.BR2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The clearing case's accumulator, from the point's two blocks. -/
def sA (c : Dev nD) (t : Fin cfg2.N) (hA : condA (grid2.coords t)) (hL : ¬condL (grid2.coords t)) : Vec F S1024x256 .f32 :=
  accV.read (Elt F) (accV.writes (Elt F) accV.junk (runA c (grid2.coords t) (ms_0 t) (hs_0 t) (ms_1 t) (hs_1 t) (ms_2 t) (hs_2 t) acc (Memref.isWhole_whole _) hA hL (iblk V c 0 t) (iblk V c 1 t)).1)
theorem coverA (c : Dev nD) (t : Fin cfg2.N) (hA : condA (grid2.coords t)) (hL : ¬condL (grid2.coords t)) (y : S1024x256.Idx) :
    ∃ pc ∈ (runA c (grid2.coords t) (ms_0 t) (hs_0 t) (ms_1 t) (hs_1 t) (ms_2 t) (hs_2 t) acc (Memref.isWhole_whole _) hA hL (iblk V c 0 t) (iblk V c 1 t)).1, y ∈ pc.1.set :=
  View.cover_of_tiledL _ S1024x256.size (by sl_kernel_rfl) y

/-- The adding case's accumulator, from the two blocks and the accumulator before. -/
def sB (c : Dev nD) (t : Fin cfg2.N) (hA : ¬condA (grid2.coords t)) (hL : ¬condL (grid2.coords t)) (xs : Vec F S1024x256 .f32) : Vec F S1024x256 .f32 :=
  accV.read (Elt F) (accV.writes (Elt F) accV.junk (runB c (grid2.coords t) (ms_0 t) (hs_0 t) (ms_1 t) (hs_1 t) (ms_2 t) (hs_2 t) acc (Memref.isWhole_whole _) hA hL (iblk V c 0 t) (iblk V c 1 t) xs).1)
theorem coverB (c : Dev nD) (t : Fin cfg2.N) (hA : ¬condA (grid2.coords t)) (hL : ¬condL (grid2.coords t)) (xs : Vec F S1024x256 .f32) (y : S1024x256.Idx) :
    ∃ pc ∈ (runB c (grid2.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-- The last step's accumulator and output block. -/
def sC (c : Dev nD) (t : Fin cfg2.N) (hA : ¬condA (grid2.coords t)) (hL : condL (grid2.coords t)) (xs : Vec F S1024x256 .f32) : Vec F S1024x256 .f32 :=
  accV.read (Elt F) (accV.writes (Elt F) accV.junk (runC c (grid2.coords t) (ms_0 t) (hs_0 t) (ms_1 t) (hs_1 t) (ms_2 t) (hs_2 t) acc (Memref.isWhole_whole _) hA hL (iblk V c 0 t) (iblk V c 1 t) xs).2.1)
theorem coverCs (c : Dev nD) (t : Fin cfg2.N) (hA : ¬condA (grid2.coords t)) (hL : condL (grid2.coords t)) (xs : Vec F S1024x256 .f32) (y : S1024x256.Idx) :
    ∃ pc ∈ (runC c (grid2.coords t) (ms_0 t) (hs_0 t) (ms_1 t) (hs_1 t) (ms_2 t) (hs_2 t) acc (Memref.isWhole_whole _) hA hL (iblk V c 0 t) (iblk V c 1 t) xs).2.1, y ∈ pc.1.set :=
  View.cover_of_tiledL _ S1024x256.size (by sl_kernel_rfl) y
def oC (c : Dev nD) (t : Fin cfg2.N) (hA : ¬condA (grid2.coords t)) (hL : condL (grid2.coords t)) (xs : Vec F S1024x256 .f32) : Vec F S1024x256 .f32 :=
  outV.read (Elt F) (outV.writes (Elt F) outV.junk (runC c (grid2.coords t) (ms_0 t) (hs_0 t) (ms_1 t) (hs_1 t) (ms_2 t) (hs_2 t) acc (Memref.isWhole_whole _) hA hL (iblk V c 0 t) (iblk V c 1 t) xs).1)
theorem coverCo (c : Dev nD) (t : Fin cfg2.N) (hA : ¬condA (grid2.coords t)) (hL : condL (grid2.coords t)) (xs : Vec F S1024x256 .f32) (y : S1024x256.Idx) :
    ∃ pc ∈ (runC c (grid2.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-! ## The accumulation -/

/-- One point's effect on the accumulator, given the accumulator before it (ignored at step 0). -/
def stepAcc (c : Dev nD) (t : Fin cfg2.N) (prev : Vec F S1024x256 .f32) : Vec F S1024x256 .f32 :=
  if hA : condA (grid2.coords t) then (if hL : condL (grid2.coords t) then prev else sA V c t hA hL)
  else if hL : condL (grid2.coords t) then sC V c t hA hL prev else sB V c t hA hL prev
/-- What the last step stores into the output block (elsewhere a value nothing consults). -/
def stepOut (c : Dev nD) (t : Fin cfg2.N) (prev : Vec F S1024x256 .f32) : Vec F S1024x256 .f32 :=
  if hA : condA (grid2.coords t) then prev
  else if hL : condL (grid2.coords t) then oC V c t hA hL prev else prev

/-- The accumulator after the point at position n. -/
def accAt (c : Dev nD) : (n : ℕ) → n < cfg2.N → Vec F S1024x256 .f32
  | 0, hn => stepAcc V c ⟨0, hn⟩ (k2_pay1 (F := F))
  | n + 1, hn => stepAcc V c ⟨n + 1, hn⟩ (accAt c n (Nat.lt_of_succ_lt hn))
/-- The accumulator before the point at position n (anything at the first point). -/
def accBefore (c : Dev nD) : (n : ℕ) → n < cfg2.N → Vec F S1024x256 .f32
  | 0, _ => k2_pay1 (F := F)
  | n + 1, hn => accAt V c n (Nat.lt_of_succ_lt hn)
theorem accAt_eq (c : Dev nD) (t : Fin cfg2.N) : accAt V c t.val t.isLt = stepAcc V c t (accBefore V c t.val t.isLt) := by
  obtain ⟨n, hn⟩ := t
  cases n with
  | zero => rfl
  | succ n => rfl
theorem accBefore_pos (c : Dev nD) (n : ℕ) (hn : n < cfg2.N) (hz : n ≠ 0) :
    accBefore V c n hn = accAt V c (n - 1) (by omega) := by
  cases n with
  | zero => exact absurd rfl hz
  | succ n => rfl

/-! ## The invariant and the proof data -/

/-- The scoped buffers the region does not use. -/
abbrev rest (c : Dev nD) : sProp 𝕄 := Pipeline.scopedRestBut (Ix := Unit) (Name := ℕ) (U := UR sig nD τ) (Lvl := ℕ) (Val := Elt F) spec2 c [cc2_scratch0]

/-- Before position n: the accumulator at anything before the first point, then at what the point before left. -/
def Phi (c : Dev nD) : (n : ℕ) → n ≤ cfg2.N → sProp 𝕄
  | 0, _ => iprop((∃ d, owns (c : Thread nD τ) acc fullShare d) ∗ rest c ∗ (∃ r, prngReg c r))
  | n + 1, hn => iprop(owns (c : Thread nD τ) acc fullShare (accAt V c n hn) ∗ rest c ∗ (∃ r, prngReg c r))
theorem Phi_zero (c : Dev nD) (n : ℕ) (h : n ≤ cfg2.N) (hz : n = 0) :
    Phi V c n h = iprop((∃ d, owns (c : Thread nD τ) acc fullShare d) ∗ rest c ∗ (∃ r, prngReg c r)) := by
  subst hz; rfl
theorem Phi_succ (c : Dev nD) (n : ℕ) (hn : n < cfg2.N) :
    Phi V c (n + 1) hn = iprop(owns (c : Thread nD τ) acc fullShare (accAt V c n hn) ∗ rest c ∗ (∃ r, prngReg c r)) := rfl
theorem Phi_pos (c : Dev nD) (n : ℕ) (h : n ≤ cfg2.N) (hz : n ≠ 0) :
    Phi V c n h = iprop(owns (c : Thread nD τ) acc fullShare (accAt V c (n - 1) (by omega)) ∗ rest c ∗ (∃ r, prngReg c r)) := by
  cases n with
  | zero => exact absurd rfl hz
  | succ n => rfl

/-- The proof data: the arrays as the region finds them; the inputs' buffers at their blocks; the output's at what
    the last step stores; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => stepOut V c t (accBefore V c t.val t.isLt)
  Φ t := Phi V c t.val (Nat.le_of_lt_succ t.isLt)
  q _ := fullShare
  owed _ := 0

theorem A_eq (c : Dev nD) (w : Fin cfg2.W) : (dat V c).A w = V c (Pipeline.arrRef spec2 w) := by dsimp only [dat]
theorem Phi_castSucc (c : Dev nD) (t : Fin cfg2.N) : (dat V c).Φ t.castSucc = Phi V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = stepOut V c t (accBefore V c t.val t.isLt) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The closed forms say which case the point is in; the invariant hands the body the
    accumulator (at anything for the clearing case, at what the point before left otherwise) and takes it back at
    this point's value; before the last step the output block goes back as it came; the core owes nothing. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [accAt_eq V c t]
  by_cases hA : condA (grid2.coords t)
  · by_cases hL : condL (grid2.coords t)
    · exfalso; have h1 := (hcondA t).mp hA; have h2 := (hcondL t).mp hL; omega
    · rw [Dat.leavesExact_idle (dat V c) 2 t (idle_out t hL) (noflush_out t hL)]
      rw [show stepAcc V c t (accBefore V c t.val t.isLt) = sA V c t hA hL from by unfold stepAcc; rw [dif_pos hA, dif_neg hL]]
      unfold sA
      have hin : (dat V c).Φ t.castSucc ⊢ (iprop((∃ d, owns (c : Thread nD τ) acc fullShare d) ∗ rest c ∗ (∃ r, prngReg c r)) : sProp 𝕄) := by
        rw [Phi_castSucc V c t]
        by_cases hz : t.val = 0
        · rw [Phi_zero V c _ _ hz]
        · rw [Phi_pos V c _ _ hz]
          iintro ⟨HS, Hr⟩
          isplitl [HS]; · iexists _; iexact HS
          iexact Hr
      iintro ⟨HΦ, Ho, ⟨%d0, H0⟩, ⟨%d1, H1⟩, ⟨%d2, H2⟩⟩
      ihave HΦ' := hin $$ HΦ
      icases HΦ' with ⟨HS, Hr⟩
      iapply ((runA c (grid2.coords t) _ _ _ _ _ _ _ _ hA hL (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverA V c t hA hL)
        iexact Hr
      isplitl [Ho]; · iexact Ho
      isplitl [H0]; · iexact H0
      isplitl [H1]; · iexact H1
      iexists _; iexact H2
  · have hz : t.val ≠ 0 := fun h => hA ((hcondA t).mpr (by rw [h]))
    rw [Phi_castSucc V c t, Phi_pos V c _ _ hz, accBefore_pos V c _ _ hz]
    by_cases hL : condL (grid2.coords t)
    · rw [show (dat V c).leavesExact 2 t = owns (c : Thread nD τ) (ms_2 t) fullShare ((dat V c).after 2 t) from by
        unfold Dat.leavesExact; rw [live_out t hL], after_2]
      rw [accBefore_pos V c _ _ hz]
      rw [show stepAcc V c t (accAt V c (t.val - 1) (by omega)) = sC V c t hA hL (accAt V c (t.val - 1) (by omega)) from by unfold stepAcc; rw [dif_neg hA, dif_pos hL]]
      rw [show stepOut V c t (accAt V c (t.val - 1) (by omega)) = oC V c t hA hL (accAt V c (t.val - 1) (by omega)) from by unfold stepOut; rw [dif_neg hA, dif_pos hL]]
      unfold sC oC
      iintro ⟨⟨HS, Hr⟩, Ho, ⟨%d0, H0⟩, ⟨%d1, H1⟩, ⟨%d2, H2⟩⟩
      iapply ((runC c (grid2.coords t) _ _ _ _ _ _ _ _ hA hL (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverCs V c t hA hL _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverCo V c t hA hL _)
    · rw [Dat.leavesExact_idle (dat V c) 2 t (idle_out t hL) (noflush_out t hL)]
      rw [show stepAcc V c t (accAt V c (t.val - 1) (by omega)) = sB V c t hA hL (accAt V c (t.val - 1) (by omega)) from by unfold stepAcc; rw [dif_neg hA, dif_neg hL]]
      unfold sB
      iintro ⟨⟨HS, Hr⟩, Ho, ⟨%d0, H0⟩, ⟨%d1, H1⟩, ⟨%d2, H2⟩⟩
      iapply ((runB c (grid2.coords t) _ _ _ _ _ _ _ _ hA hL (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverB V c t hA hL _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-- The generator register and the scoped buffers the windows do not stage make the invariant before the first
    point: the accumulator is one of those buffers, whole, at some contents. -/
theorem Phi_in (c : Dev nD) :
    (iprop((∃ r, prngReg c r) ∗ Pipeline.scopedRest (Ix := Unit) (Name := ℕ) (U := UR sig nD τ) (Lvl := ℕ) (Val := Elt F) spec2 c) : sProp 𝕄) ⊢ (dat V c).Φ 0 := by
  rw [show (dat V c).Φ 0 = Phi V c 0 (Nat.zero_le _) from rfl, Phi_zero V c 0 _ rfl, scopedRest2_split]
  simp only [acc, owns_whole]
  iintro ⟨Hp, Hs, Hr⟩
  isplitl [Hs]; · iexact Hs
  isplitl [Hr]; · iexact Hr
  iexact Hp

/-- After the last point the invariant gives them back, the accumulator's value forgotten. -/
theorem Phi_out (c : Dev nD) :
    (dat V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  rw [show (dat V c).Φ (Fin.last cfg2.N) = Phi V c cfg2.N (Nat.le_refl _) from rfl,
    Phi_pos V c _ _ (by have : cfg2.N = 32 := N_2; omega), scopedRest2_split]
  simp only [acc, owns_whole]
  iintro ⟨Hs, Hr, Hp⟩
  isplitl [Hp]; · iexact Hp
  isplitl [Hs]; · iexists _; iexact Hs
  iexact Hr

end

end Cert.Kernel.R2

end
-- ==== Proof.BR3Runs.lean ====
/-
  Region 3 multiplies a row block of its left operand by its right operand in four steps along the contracted
  axis: at step 0 of a row block the accumulator is cleared, at every step the product of the step's two blocks is
  added to it, at step 3 the accumulator is copied to the output block. This module decides at which grid points
  each of the two conditions holds (the grid is row-block-major: point t is row block t / 4, step t % 4), says where
  the output window is idle, and runs the body once for each of the three combinations the grid meets.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block", as the body computes it from the grid coordinates. -/
abbrev condA (i : grid3.Coords) : Prop := (Scalar.cmpi .ne (Scalar.extui (Scalar.cmpi .eq (BitVec.ofNat 32 (i 1).val) 0#32)) 0#32) = 1#1
theorem hcondA : ∀ t : Fin cfg3.N, condA (grid3.coords t) ↔ t.val % 4 = 0 :=
  (by decide +kernel : ∀ t : Fin grid3.N, condA (grid3.coords t) ↔ t.val % 4 = 0)

/-- "this is the last step of a row block". -/
abbrev condL (i : grid3.Coords) : Prop := k3_cond2 i = 1#1
theorem hcondL : ∀ t : Fin cfg3.N, condL (grid3.coords t) ↔ t.val % 4 = 3 :=
  (by decide +kernel : ∀ t : Fin grid3.N, condL (grid3.coords t) ↔ t.val % 4 = 3)

/-- The two input windows are read at every point. -/
theorem live_0 : ∀ t : Fin cfg3.N, cfg3.idle 0 (grid3.coords t) = false := by decide +kernel
theorem live_1 : ∀ t : Fin cfg3.N, cfg3.idle 1 (grid3.coords t) = false := by decide +kernel
/-- Before the last step nothing is stored into the output block and it is not written back. -/
theorem idle_out : ∀ t : Fin cfg3.N, ¬condL (grid3.coords t) → cfg3.idle 2 (grid3.coords t) = true := by decide +kernel
theorem noflush_out : ∀ t : Fin cfg3.N, ¬condL (grid3.coords t) → (cfg3.win 2).flush t = false := by decide +kernel
/-- At the last step the output block is stored. -/
theorem live_out : ∀ t : Fin cfg3.N, condL (grid3.coords t) → cfg3.idle 2 (grid3.coords t) = false := by decide +kernel

/-- The staging memrefs the body is called with at point t, and the accumulator. -/
abbrev ms_0 (t : Fin cfg3.N) : Memref sig .tc .vmem S1024x2048 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x256 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1024x256 .f32 := win3_2.stage (cfg3.slots t 2)
abbrev hs_2 (t : Fin cfg3.N) : (ms_2 t).IsWhole := hstage3_2 ((cfg3.slots t 2).cast nbuf3_2)
abbrev acc : Memref sig .tc .vmem S1024x256 .f32 := Memref.whole cc3_scratch0
abbrev accV : View sig .tc .vmem S1024x256 .f32 := (acc).view
abbrev outV : View sig .tc .vmem S1024x256 .f32 := (Memref.whole cc3_stg2_0 : Memref sig .tc .vmem S1024x256 .f32).view

set_option maxHeartbeats 4000000 in
/-- Step 0 of a row block, not the last: from the two input blocks, the output block at anything handed back
    untouched, and the accumulator at anything, the body ends with the accumulator holding the pieces it stored. -/
noncomputable def runA (c : Dev nD) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : condA i) (hL : ¬condL i) (x0 : Vec F S1024x2048 .f32) (x1 : Vec F S2048x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, fun xo E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle step: the accumulator enters at what the step before left in it. -/
noncomputable def runB (c : Dev nD) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : ¬condL i) (x0 : Vec F S1024x2048 .f32) (x1 : Vec F S2048x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, fun xo E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last step: the accumulator enters at what the step before left; the output block (at anything) ends
    holding the pieces stored into it. -/
noncomputable def runC (c : Dev nD) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : condL i) (x0 : Vec F S1024x2048 .f32) (x1 : Vec F S2048x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R3

end
-- ==== Proof.BR3Body.lean ====
/-
  Region 3, the proof data and the body obligation, at any contents V of the core's buffers at the region's entry.

  The accumulator after point t is defined by recursion on the point: at step 0 of a row block it is what the
  clearing case leaves from the point's two input blocks alone; at a later step it is what the adding case leaves
  from the two blocks and the accumulator of the point before. The output block after the last step of a row block
  is what that case stores from the accumulator. Between points the invariant holds the accumulator at exactly
  this value, beside the scoped buffers the region does not use and the generator register.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import proofs.«126198_j83554293777022_1_alg».proof.Proof.BR3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The clearing case's accumulator, from the point's two blocks. -/
def sA (c : Dev nD) (t : Fin cfg3.N) (hA : condA (grid3.coords t)) (hL : ¬condL (grid3.coords t)) : Vec F S1024x256 .f32 :=
  accV.read (Elt F) (accV.writes (Elt F) accV.junk (runA c (grid3.coords t) (ms_0 t) (hs_0 t) (ms_1 t) (hs_1 t) (ms_2 t) (hs_2 t) acc (Memref.isWhole_whole _) hA hL (iblk V c 0 t) (iblk V c 1 t)).1)
theorem coverA (c : Dev nD) (t : Fin cfg3.N) (hA : condA (grid3.coords t)) (hL : ¬condL (grid3.coords t)) (y : S1024x256.Idx) :
    ∃ pc ∈ (runA c (grid3.coords t) (ms_0 t) (hs_0 t) (ms_1 t) (hs_1 t) (ms_2 t) (hs_2 t) acc (Memref.isWhole_whole _) hA hL (iblk V c 0 t) (iblk V c 1 t)).1, y ∈ pc.1.set :=
  View.cover_of_tiledL _ S1024x256.size (by sl_kernel_rfl) y

/-- The adding case's accumulator, from the two blocks and the accumulator before. -/
def sB (c : Dev nD) (t : Fin cfg3.N) (hA : ¬condA (grid3.coords t)) (hL : ¬condL (grid3.coords t)) (xs : Vec F S1024x256 .f32) : Vec F S1024x256 .f32 :=
  accV.read (Elt F) (accV.writes (Elt F) accV.junk (runB c (grid3.coords t) (ms_0 t) (hs_0 t) (ms_1 t) (hs_1 t) (ms_2 t) (hs_2 t) acc (Memref.isWhole_whole _) hA hL (iblk V c 0 t) (iblk V c 1 t) xs).1)
theorem coverB (c : Dev nD) (t : Fin cfg3.N) (hA : ¬condA (grid3.coords t)) (hL : ¬condL (grid3.coords t)) (xs : Vec F S1024x256 .f32) (y : S1024x256.Idx) :
    ∃ pc ∈ (runB c (grid3.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-- The last step's accumulator and output block. -/
def sC (c : Dev nD) (t : Fin cfg3.N) (hA : ¬condA (grid3.coords t)) (hL : condL (grid3.coords t)) (xs : Vec F S1024x256 .f32) : Vec F S1024x256 .f32 :=
  accV.read (Elt F) (accV.writes (Elt F) accV.junk (runC c (grid3.coords t) (ms_0 t) (hs_0 t) (ms_1 t) (hs_1 t) (ms_2 t) (hs_2 t) acc (Memref.isWhole_whole _) hA hL (iblk V c 0 t) (iblk V c 1 t) xs).2.1)
theorem coverCs (c : Dev nD) (t : Fin cfg3.N) (hA : ¬condA (grid3.coords t)) (hL : condL (grid3.coords t)) (xs : Vec F S1024x256 .f32) (y : S1024x256.Idx) :
    ∃ pc ∈ (runC c (grid3.coords t) (ms_0 t) (hs_0 t) (ms_1 t) (hs_1 t) (ms_2 t) (hs_2 t) acc (Memref.isWhole_whole _) hA hL (iblk V c 0 t) (iblk V c 1 t) xs).2.1, y ∈ pc.1.set :=
  View.cover_of_tiledL _ S1024x256.size (by sl_kernel_rfl) y
def oC (c : Dev nD) (t : Fin cfg3.N) (hA : ¬condA (grid3.coords t)) (hL : condL (grid3.coords t)) (xs : Vec F S1024x256 .f32) : Vec F S1024x256 .f32 :=
  outV.read (Elt F) (outV.writes (Elt F) outV.junk (runC c (grid3.coords t) (ms_0 t) (hs_0 t) (ms_1 t) (hs_1 t) (ms_2 t) (hs_2 t) acc (Memref.isWhole_whole _) hA hL (iblk V c 0 t) (iblk V c 1 t) xs).1)
theorem coverCo (c : Dev nD) (t : Fin cfg3.N) (hA : ¬condA (grid3.coords t)) (hL : condL (grid3.coords t)) (xs : Vec F S1024x256 .f32) (y : S1024x256.Idx) :
    ∃ pc ∈ (runC c (grid3.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-! ## The accumulation -/

/-- One point's effect on the accumulator, given the accumulator before it (ignored at step 0). -/
def stepAcc (c : Dev nD) (t : Fin cfg3.N) (prev : Vec F S1024x256 .f32) : Vec F S1024x256 .f32 :=
  if hA : condA (grid3.coords t) then (if hL : condL (grid3.coords t) then prev else sA V c t hA hL)
  else if hL : condL (grid3.coords t) then sC V c t hA hL prev else sB V c t hA hL prev
/-- What the last step stores into the output block (elsewhere a value nothing consults). -/
def stepOut (c : Dev nD) (t : Fin cfg3.N) (prev : Vec F S1024x256 .f32) : Vec F S1024x256 .f32 :=
  if hA : condA (grid3.coords t) then prev
  else if hL : condL (grid3.coords t) then oC V c t hA hL prev else prev

/-- The accumulator after the point at position n. -/
def accAt (c : Dev nD) : (n : ℕ) → n < cfg3.N → Vec F S1024x256 .f32
  | 0, hn => stepAcc V c ⟨0, hn⟩ (k3_pay1 (F := F))
  | n + 1, hn => stepAcc V c ⟨n + 1, hn⟩ (accAt c n (Nat.lt_of_succ_lt hn))
/-- The accumulator before the point at position n (anything at the first point). -/
def accBefore (c : Dev nD) : (n : ℕ) → n < cfg3.N → Vec F S1024x256 .f32
  | 0, _ => k3_pay1 (F := F)
  | n + 1, hn => accAt V c n (Nat.lt_of_succ_lt hn)
theorem accAt_eq (c : Dev nD) (t : Fin cfg3.N) : accAt V c t.val t.isLt = stepAcc V c t (accBefore V c t.val t.isLt) := by
  obtain ⟨n, hn⟩ := t
  cases n with
  | zero => rfl
  | succ n => rfl
theorem accBefore_pos (c : Dev nD) (n : ℕ) (hn : n < cfg3.N) (hz : n ≠ 0) :
    accBefore V c n hn = accAt V c (n - 1) (by omega) := by
  cases n with
  | zero => exact absurd rfl hz
  | succ n => rfl

/-! ## The invariant and the proof data -/

/-- The scoped buffers the region does not use. -/
abbrev rest (c : Dev nD) : sProp 𝕄 := Pipeline.scopedRestBut (Ix := Unit) (Name := ℕ) (U := UR sig nD τ) (Lvl := ℕ) (Val := Elt F) spec3 c [cc3_scratch0]

/-- Before position n: the accumulator at anything before the first point, then at what the point before left. -/
def Phi (c : Dev nD) : (n : ℕ) → n ≤ cfg3.N → sProp 𝕄
  | 0, _ => iprop((∃ d, owns (c : Thread nD τ) acc fullShare d) ∗ rest c ∗ (∃ r, prngReg c r))
  | n + 1, hn => iprop(owns (c : Thread nD τ) acc fullShare (accAt V c n hn) ∗ rest c ∗ (∃ r, prngReg c r))
theorem Phi_zero (c : Dev nD) (n : ℕ) (h : n ≤ cfg3.N) (hz : n = 0) :
    Phi V c n h = iprop((∃ d, owns (c : Thread nD τ) acc fullShare d) ∗ rest c ∗ (∃ r, prngReg c r)) := by
  subst hz; rfl
theorem Phi_succ (c : Dev nD) (n : ℕ) (hn : n < cfg3.N) :
    Phi V c (n + 1) hn = iprop(owns (c : Thread nD τ) acc fullShare (accAt V c n hn) ∗ rest c ∗ (∃ r, prngReg c r)) := rfl
theorem Phi_pos (c : Dev nD) (n : ℕ) (h : n ≤ cfg3.N) (hz : n ≠ 0) :
    Phi V c n h = iprop(owns (c : Thread nD τ) acc fullShare (accAt V c (n - 1) (by omega)) ∗ rest c ∗ (∃ r, prngReg c r)) := by
  cases n with
  | zero => exact absurd rfl hz
  | succ n => rfl

/-- The proof data: the arrays as the region finds them; the inputs' buffers at their blocks; the output's at what
    the last step stores; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => stepOut V c t (accBefore V c t.val t.isLt)
  Φ t := Phi V c t.val (Nat.le_of_lt_succ t.isLt)
  q _ := fullShare
  owed _ := 0

theorem A_eq (c : Dev nD) (w : Fin cfg3.W) : (dat V c).A w = V c (Pipeline.arrRef spec3 w) := by dsimp only [dat]
theorem Phi_castSucc (c : Dev nD) (t : Fin cfg3.N) : (dat V c).Φ t.castSucc = Phi V c t.val (Nat.le_of_lt t.isLt) := by
  dsimp only [dat]; simp only [Fin.coe_castSucc]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = stepOut V c t (accBefore V c t.val t.isLt) := by dsimp only [dat]
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The closed forms say which case the point is in; the invariant hands the body the
    accumulator (at anything for the clearing case, at what the point before left otherwise) and takes it back at
    this point's value; before the last step the output block goes back as it came; the core owes nothing. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [accAt_eq V c t]
  by_cases hA : condA (grid3.coords t)
  · by_cases hL : condL (grid3.coords t)
    · exfalso; have h1 := (hcondA t).mp hA; have h2 := (hcondL t).mp hL; omega
    · rw [Dat.leavesExact_idle (dat V c) 2 t (idle_out t hL) (noflush_out t hL)]
      rw [show stepAcc V c t (accBefore V c t.val t.isLt) = sA V c t hA hL from by unfold stepAcc; rw [dif_pos hA, dif_neg hL]]
      unfold sA
      have hin : (dat V c).Φ t.castSucc ⊢ (iprop((∃ d, owns (c : Thread nD τ) acc fullShare d) ∗ rest c ∗ (∃ r, prngReg c r)) : sProp 𝕄) := by
        rw [Phi_castSucc V c t]
        by_cases hz : t.val = 0
        · rw [Phi_zero V c _ _ hz]
        · rw [Phi_pos V c _ _ hz]
          iintro ⟨HS, Hr⟩
          isplitl [HS]; · iexists _; iexact HS
          iexact Hr
      iintro ⟨HΦ, Ho, ⟨%d0, H0⟩, ⟨%d1, H1⟩, ⟨%d2, H2⟩⟩
      ihave HΦ' := hin $$ HΦ
      icases HΦ' with ⟨HS, Hr⟩
      iapply ((runA c (grid3.coords t) _ _ _ _ _ _ _ _ hA hL (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverA V c t hA hL)
        iexact Hr
      isplitl [Ho]; · iexact Ho
      isplitl [H0]; · iexact H0
      isplitl [H1]; · iexact H1
      iexists _; iexact H2
  · have hz : t.val ≠ 0 := fun h => hA ((hcondA t).mpr (by rw [h]))
    rw [Phi_castSucc V c t, Phi_pos V c _ _ hz, accBefore_pos V c _ _ hz]
    by_cases hL : condL (grid3.coords t)
    · rw [show (dat V c).leavesExact 2 t = owns (c : Thread nD τ) (ms_2 t) fullShare ((dat V c).after 2 t) from by
        unfold Dat.leavesExact; rw [live_out t hL], after_2]
      rw [accBefore_pos V c _ _ hz]
      rw [show stepAcc V c t (accAt V c (t.val - 1) (by omega)) = sC V c t hA hL (accAt V c (t.val - 1) (by omega)) from by unfold stepAcc; rw [dif_neg hA, dif_pos hL]]
      rw [show stepOut V c t (accAt V c (t.val - 1) (by omega)) = oC V c t hA hL (accAt V c (t.val - 1) (by omega)) from by unfold stepOut; rw [dif_neg hA, dif_pos hL]]
      unfold sC oC
      iintro ⟨⟨HS, Hr⟩, Ho, ⟨%d0, H0⟩, ⟨%d1, H1⟩, ⟨%d2, H2⟩⟩
      iapply ((runC c (grid3.coords t) _ _ _ _ _ _ _ _ hA hL (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverCs V c t hA hL _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverCo V c t hA hL _)
    · rw [Dat.leavesExact_idle (dat V c) 2 t (idle_out t hL) (noflush_out t hL)]
      rw [show stepAcc V c t (accAt V c (t.val - 1) (by omega)) = sB V c t hA hL (accAt V c (t.val - 1) (by omega)) from by unfold stepAcc; rw [dif_neg hA, dif_neg hL]]
      unfold sB
      iintro ⟨⟨HS, Hr⟩, Ho, ⟨%d0, H0⟩, ⟨%d1, H1⟩, ⟨%d2, H2⟩⟩
      iapply ((runB c (grid3.coords t) _ _ _ _ _ _ _ _ hA hL (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverB V c t hA hL _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W3, bigSep_W3]
  exact sound_body V c t

/-- The generator register and the scoped buffers the windows do not stage make the invariant before the first
    point: the accumulator is one of those buffers, whole, at some contents. -/
theorem Phi_in (c : Dev nD) :
    (iprop((∃ r, prngReg c r) ∗ Pipeline.scopedRest (Ix := Unit) (Name := ℕ) (U := UR sig nD τ) (Lvl := ℕ) (Val := Elt F) spec3 c) : sProp 𝕄) ⊢ (dat V c).Φ 0 := by
  rw [show (dat V c).Φ 0 = Phi V c 0 (Nat.zero_le _) from rfl, Phi_zero V c 0 _ rfl, scopedRest3_split]
  simp only [acc, owns_whole]
  iintro ⟨Hp, Hs, Hr⟩
  isplitl [Hs]; · iexact Hs
  isplitl [Hr]; · iexact Hr
  iexact Hp

/-- After the last point the invariant gives them back, the accumulator's value forgotten. -/
theorem Phi_out (c : Dev nD) :
    (dat V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  rw [show (dat V c).Φ (Fin.last cfg3.N) = Phi V c cfg3.N (Nat.le_refl _) from rfl,
    Phi_pos V c _ _ (by have : cfg3.N = 32 := N_3; omega), scopedRest3_split]
  simp only [acc, owns_whole]
  iintro ⟨Hs, Hr, Hp⟩
  isplitl [Hp]; · iexact Hp
  isplitl [Hs]; · iexists _; iexact Hs
  iexact Hr

end

end Cert.Kernel.R3

end
-- ==== Proof.BR4Runs.lean ====
/-
  Region 4 multiplies a row block of its left operand by its whole right operand in ONE step along the contracted
  axis: every point is both the first and the last step of its row block, so at every point the accumulator is
  cleared, the product of the two blocks is added, and the result is stored to the output block. This module
  says so (both conditions hold at every grid point; no window is ever idle) and runs the body for that one case.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block": at every point. -/
abbrev condA (i : grid4.Coords) : Prop := (Scalar.cmpi .ne (Scalar.extui (Scalar.cmpi .eq (BitVec.ofNat 32 (i 1).val) 0#32)) 0#32) = 1#1
theorem hcondA : ∀ t : Fin cfg4.N, condA (grid4.coords t) :=
  (by decide +kernel : ∀ t : Fin grid4.N, condA (grid4.coords t))
/-- "this is the last step of a row block": at every point. -/
abbrev condL (i : grid4.Coords) : Prop := k4_cond2 i = 1#1
theorem hcondL : ∀ t : Fin cfg4.N, condL (grid4.coords t) :=
  (by decide +kernel : ∀ t : Fin grid4.N, condL (grid4.coords t))

theorem live_0 : ∀ t : Fin cfg4.N, cfg4.idle 0 (grid4.coords t) = false := by decide +kernel
theorem live_1 : ∀ t : Fin cfg4.N, cfg4.idle 1 (grid4.coords t) = false := by decide +kernel
theorem live_2 : ∀ t : Fin cfg4.N, cfg4.idle 2 (grid4.coords t) = false := by decide +kernel

abbrev ms_0 (t : Fin cfg4.N) : Memref sig .tc .vmem S2048x256 .f32 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S256x256 .f32 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S2048x256 .f32 := win4_2.stage (cfg4.slots t 2)
abbrev hs_2 (t : Fin cfg4.N) : (ms_2 t).IsWhole := hstage4_2 ((cfg4.slots t 2).cast nbuf4_2)
abbrev acc : Memref sig .tc .vmem S2048x256 .f32 := Memref.whole cc4_scratch0
abbrev accV : View sig .tc .vmem S2048x256 .f32 := (acc).view
abbrev outV : View sig .tc .vmem S2048x256 .f32 := (Memref.whole cc4_stg2_0 : Memref sig .tc .vmem S2048x256 .f32).view

set_option maxHeartbeats 4000000 in
/-- The one case: from the two input blocks, the output block and the accumulator at anything, the body ends with
    both holding the pieces it stored. -/
noncomputable def runD (c : Dev nD) (i : grid4.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole)
    (hA : condA i) (hL : condL i) (x0 : Vec F S2048x256 .f32) (x1 : Vec F S256x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc4__matmul_kernel i arg2 harg2 arg3 harg3 arg4 harg4 arg5 harg5) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.R4

end
-- ==== Proof.BR4Body.lean ====
/-
  Region 4, the proof data and the body obligation, at any contents V of the core's buffers at the region's entry.
  Every point clears the accumulator, adds the product of its two blocks and stores the result to the output
  block, so nothing is carried from one point to the next: between points the invariant holds the accumulator at
  some contents, beside the scoped buffers the region does not use and the generator register.
-/
import proofs.«126198_j83554293777022_1_alg».proof.Proof.Gen.Kernel.Launch
import proofs.«126198_j83554293777022_1_alg».proof.Proof.Gen.Kernel.Skeleton
import proofs.«126198_j83554293777022_1_alg».proof.Proof.Gen.Kernel.Points
import proofs.«126198_j83554293777022_1_alg».proof.Proof.BR4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the point leaves in the accumulator and in the output block, from its two blocks. -/
def sD (c : Dev nD) (t : Fin cfg4.N) : Vec F S2048x256 .f32 :=
  accV.read (Elt F) (accV.writes (Elt F) accV.junk (runD c (grid4.coords t) (ms_0 t) (hs_0 t) (ms_1 t) (hs_1 t) (ms_2 t) (hs_2 t) acc (Memref.isWhole_whole _) (hcondA t) (hcondL t) (iblk V c 0 t) (iblk V c 1 t)).2.1)
theorem coverDs (c : Dev nD) (t : Fin cfg4.N) (y : S2048x256.Idx) :
    ∃ pc ∈ (runD c (grid4.coords t) (ms_0 t) (hs_0 t) (ms_1 t) (hs_1 t) (ms_2 t) (hs_2 t) acc (Memref.isWhole_whole _) (hcondA t) (hcondL t) (iblk V c 0 t) (iblk V c 1 t)).2.1, y ∈ pc.1.set :=
  View.cover_of_tiledL _ S2048x256.size (by sl_kernel_rfl) y
def oD (c : Dev nD) (t : Fin cfg4.N) : Vec F S2048x256 .f32 :=
  outV.read (Elt F) (outV.writes (Elt F) outV.junk (runD c (grid4.coords t) (ms_0 t) (hs_0 t) (ms_1 t) (hs_1 t) (ms_2 t) (hs_2 t) acc (Memref.isWhole_whole _) (hcondA t) (hcondL t) (iblk V c 0 t) (iblk V c 1 t)).1)
theorem coverDo (c : Dev nD) (t : Fin cfg4.N) (y : S2048x256.Idx) :
    ∃ pc ∈ (runD c (grid4.coords t) (ms_0 t) (hs_0 t) (ms_1 t) (hs_1 t) (ms_2 t) (hs_2 t) acc (Memref.isWhole_whole _) (hcondA t) (hcondL t) (iblk V c 0 t) (iblk V c 1 t)).1, y ∈ pc.1.set :=
  View.cover_of_tiledL _ S2048x256.size (by sl_kernel_rfl) y

/-- The scoped buffers the region does not use. -/
abbrev rest (c : Dev nD) : sProp 𝕄 := Pipeline.scopedRestBut (Ix := Unit) (Name := ℕ) (U := UR sig nD τ) (Lvl := ℕ) (Val := Elt F) spec4 c [cc4_scratch0]

/-- Between points: the accumulator at some contents, the unused scoped buffers, the generator register. -/
def Phi (c : Dev nD) : sProp 𝕄 := iprop((∃ d, owns (c : Thread nD τ) acc fullShare d) ∗ rest c ∗ (∃ r, prngReg c r))

/-- The proof data: the arrays as the region finds them; the inputs' buffers at their blocks; the output's at what
    the point stores; the invariant above; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => oD V c t
  Φ _ := Phi c
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = oD V c t := by dsimp only [dat]
theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d

def bodyPre (c : Dev nD) (t : Fin cfg4.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the one case's run; the invariant and what the core owes pass through. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  unfold Phi oD
  iintro ⟨⟨HS, Hr⟩, Ho, ⟨%d0, H0⟩, ⟨%d1, H1⟩, ⟨%d2, H2⟩⟩
  iapply ((runD c (grid4.coords t) _ _ _ _ _ _ _ _ (hcondA t) (hcondL t) (iblk V c 0 t) (iblk V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hr]
  · isplitl [HS]
    · iexists (sD V c t); unfold owns; iexists _; isplitr
      swap; · iexact HS
      ipureintro; exact View.read_writes_of_cover _ _ _ _ _ (coverDs V c t)
    iexact Hr
  isplitl [Ho]; · iexact Ho
  isplitl [H0]; · iexact H0
  isplitl [H1]; · iexact H1
  unfold owns; iexists _; isplitr
  swap; · iexact H2
  ipureintro; exact View.read_writes_of_cover _ _ _ _ _ (coverDo V c t)

/-- The library's body obligation, at every point. -/
theorem body_obligation (c : Dev nD) : BodyObligation (dat (F := F) V c) (defs₀ (F := F)) Variants.none () Set.univ := fun t => by
  rw [bigSep_W4, bigSep_W4]
  exact sound_body V c t

/-- The generator register and the scoped buffers the windows do not stage make the invariant: the accumulator is
    one of those buffers, whole, at some contents. -/
theorem Phi_in (c : Dev nD) :
    (iprop((∃ r, prngReg c r) ∗ Pipeline.scopedRest (Ix := Unit) (Name := ℕ) (U := UR sig nD τ) (Lvl := ℕ) (Val := Elt F) spec4 c) : sProp 𝕄) ⊢ (dat V c).Φ 0 := by
  rw [show (dat V c).Φ 0 = Phi c from rfl, scopedRest4_split]
  unfold Phi
  simp only [acc, owns_whole]
  iintro ⟨Hp, Hs, Hr⟩
  isplitl [Hs]; · iexact Hs
  isplitl [Hr]; · iexact Hr
  iexact Hp

/-- And the invariant gives them back. -/
theorem Phi_out (c : Dev nD) :
    (dat V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  rw [show (dat V c).Φ (Fin.last cfg4.N) = Phi c from rfl, scopedRest4_split]
  unfold Phi
  simp only [acc, owns_whole]
  iintro ⟨Hs, Hr, Hp⟩
  isplitl [Hp]; · iexact Hp
  isplitl [Hs]; · iexact Hs
  iexact Hr

end

end Cert.Kernel.R4

end
-- ==== Proof.BKRun.lean ====
/-
  The run of the whole program. @main is four matrix-product regions, three stretches of host operations (the graph's
  degree normalisation), a fifth region, and a last stretch of host operations (the aggregation and the final
  combination). The buffers' contents at each of the nine boundaries are a fold from the launch memory: a stretch of
  host operations applies them; a region replaces its output array by what its write-backs leave and keeps every
  other buffer. Each region is a segment over its body obligation; the run chains the segments, and at the end
  every unscoped buffer holds the last boundary's contents.
-/
import proofs.«126198_j83554293777022_1_alg».proof.Proof.BR0Body
import proofs.«126198_j83554293777022_1_alg».proof.Proof.BR1Body
import proofs.«126198_j83554293777022_1_alg».proof.Proof.BR2Body
import proofs.«126198_j83554293777022_1_alg».proof.Proof.BR3Body
import proofs.«126198_j83554293777022_1_alg».proof.Proof.BR4Body
import proofs.«126198_j83554293777022_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as it was. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- Region 0 changes only its output array: an input array is never written, any other buffer bypasses it. -/
theorem W1_keep (c : Dev nD) (b : Ref sig .tc) (hb : b ≠ Pipeline.arrRef spec0 2) :
    W1 m ρ c (Proc.devRef .tc b) = W0 m ρ c (Proc.devRef .tc b) := by
  by_cases h0 : Pipeline.arrRef spec0 0 = b
  · subst h0; exact (W1_arr m ρ c 0).trans (((R0.dat (V0 m ρ) c).arrAt_in 0 rfl _).trans (R0.A_eq (V0 m ρ) c 0))
  by_cases h1 : Pipeline.arrRef spec0 1 = b
  · subst h1; exact (W1_arr m ρ c 1).trans (((R0.dat (V0 m ρ) c).arrAt_in 1 rfl _).trans (R0.A_eq (V0 m ρ) c 1))
  exact W1_of_ne m ρ c b (fun w => by
    match w with
    | ⟨0, _⟩ => exact h0
    | ⟨1, _⟩ => exact h1
    | ⟨2, _⟩ => exact fun e => hb e.symm)

/-- After region 1: its arrays at what its write-backs leave, every other buffer as it was. -/
def W2 (c : Dev nD) : Valuation τ sig (Elt F) :=
  Pipeline.withArrays spec1 c (W1 m ρ c) fun w => (R1.dat (V1 m ρ) c).arrAt w cfg1.N
theorem W2_arr (c : Dev nD) (w : Fin cfg1.W) :
    W2 m ρ c (Proc.devRef .tc (Pipeline.arrRef spec1 w)) = (R1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- Region 1 changes only its output array: an input array is never written, any other buffer bypasses it. -/
theorem W2_keep (c : Dev nD) (b : Ref sig .tc) (hb : b ≠ Pipeline.arrRef spec1 2) :
    W2 m ρ c (Proc.devRef .tc b) = W1 m ρ c (Proc.devRef .tc b) := by
  by_cases h0 : Pipeline.arrRef spec1 0 = b
  · subst h0; exact (W2_arr m ρ c 0).trans (((R1.dat (V1 m ρ) c).arrAt_in 0 rfl _).trans (R1.A_eq (V1 m ρ) c 0))
  by_cases h1 : Pipeline.arrRef spec1 1 = b
  · subst h1; exact (W2_arr m ρ c 1).trans (((R1.dat (V1 m ρ) c).arrAt_in 1 rfl _).trans (R1.A_eq (V1 m ρ) c 1))
  exact W2_of_ne m ρ c b (fun w => by
    match w with
    | ⟨0, _⟩ => exact h0
    | ⟨1, _⟩ => exact h1
    | ⟨2, _⟩ => exact fun e => hb e.symm)

/-- After region 2: its arrays at what its write-backs leave, every other buffer as it was. -/
def W3 (c : Dev nD) : Valuation τ sig (Elt F) :=
  Pipeline.withArrays spec2 c (W2 m ρ c) fun w => (R2.dat (V2 m ρ) c).arrAt w cfg2.N
theorem W3_arr (c : Dev nD) (w : Fin cfg2.W) :
    W3 m ρ c (Proc.devRef .tc (Pipeline.arrRef spec2 w)) = (R2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (R2.dat (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- Region 2 changes only its output array: an input array is never written, any other buffer bypasses it. -/
theorem W3_keep (c : Dev nD) (b : Ref sig .tc) (hb : b ≠ Pipeline.arrRef spec2 2) :
    W3 m ρ c (Proc.devRef .tc b) = W2 m ρ c (Proc.devRef .tc b) := by
  by_cases h0 : Pipeline.arrRef spec2 0 = b
  · subst h0; exact (W3_arr m ρ c 0).trans (((R2.dat (V2 m ρ) c).arrAt_in 0 rfl _).trans (R2.A_eq (V2 m ρ) c 0))
  by_cases h1 : Pipeline.arrRef spec2 1 = b
  · subst h1; exact (W3_arr m ρ c 1).trans (((R2.dat (V2 m ρ) c).arrAt_in 1 rfl _).trans (R2.A_eq (V2 m ρ) c 1))
  exact W3_of_ne m ρ c b (fun w => by
    match w with
    | ⟨0, _⟩ => exact h0
    | ⟨1, _⟩ => exact h1
    | ⟨2, _⟩ => exact fun e => hb e.symm)

/-- After region 3: its arrays at what its write-backs leave, every other buffer as it was. -/
def W4 (c : Dev nD) : Valuation τ sig (Elt F) :=
  Pipeline.withArrays spec3 c (W3 m ρ c) fun w => (R3.dat (V3 m ρ) c).arrAt w cfg3.N
theorem W4_arr (c : Dev nD) (w : Fin cfg3.W) :
    W4 m ρ c (Proc.devRef .tc (Pipeline.arrRef spec3 w)) = (R3.dat (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem hF3 (c : Dev nD) (w : Fin cfg3.W) : (R3.dat (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- Region 3 changes only its output array: an input array is never written, any other buffer bypasses it. -/
theorem W4_keep (c : Dev nD) (b : Ref sig .tc) (hb : b ≠ Pipeline.arrRef spec3 2) :
    W4 m ρ c (Proc.devRef .tc b) = W3 m ρ c (Proc.devRef .tc b) := by
  by_cases h0 : Pipeline.arrRef spec3 0 = b
  · subst h0; exact (W4_arr m ρ c 0).trans (((R3.dat (V3 m ρ) c).arrAt_in 0 rfl _).trans (R3.A_eq (V3 m ρ) c 0))
  by_cases h1 : Pipeline.arrRef spec3 1 = b
  · subst h1; exact (W4_arr m ρ c 1).trans (((R3.dat (V3 m ρ) c).arrAt_in 1 rfl _).trans (R3.A_eq (V3 m ρ) c 1))
  exact W4_of_ne m ρ c b (fun w => by
    match w with
    | ⟨0, _⟩ => exact h0
    | ⟨1, _⟩ => exact h1
    | ⟨2, _⟩ => exact fun e => hb e.symm)

/-- After the three stretches of host operations between region 3 and region 4. -/
abbrev W5 : Dev nD → Valuation τ sig (Elt F) := fun c => StableHlo.after hostOps4 (W4 m ρ c)
abbrev W6 : Dev nD → Valuation τ sig (Elt F) := fun c => StableHlo.after hostOps4_1 (W5 m ρ c)
abbrev W7 : Dev nD → Valuation τ sig (Elt F) := fun c => StableHlo.after hostOps4_2 (W6 m ρ c)
abbrev V7 : (c : Dev nD) → (b : Ref sig .tc) → Buf (Elt F) ((c : Thread nD τ).loc b) := fun c b => W7 m ρ c b

/-- After region 4: its arrays at what its write-backs leave, every other buffer as it was. -/
def W8 (c : Dev nD) : Valuation τ sig (Elt F) :=
  Pipeline.withArrays spec4 c (W7 m ρ c) fun w => (R4.dat (V7 m ρ) c).arrAt w cfg4.N
theorem W8_arr (c : Dev nD) (w : Fin cfg4.W) :
    W8 m ρ c (Proc.devRef .tc (Pipeline.arrRef spec4 w)) = (R4.dat (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (R4.dat (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- Region 4 changes only its output array: an input array is never written, any other buffer bypasses it. -/
theorem W8_keep (c : Dev nD) (b : Ref sig .tc) (hb : b ≠ Pipeline.arrRef spec4 2) :
    W8 m ρ c (Proc.devRef .tc b) = W7 m ρ c (Proc.devRef .tc b) := by
  by_cases h0 : Pipeline.arrRef spec4 0 = b
  · subst h0; exact (W8_arr m ρ c 0).trans (((R4.dat (V7 m ρ) c).arrAt_in 0 rfl _).trans (R4.A_eq (V7 m ρ) c 0))
  by_cases h1 : Pipeline.arrRef spec4 1 = b
  · subst h1; exact (W8_arr m ρ c 1).trans (((R4.dat (V7 m ρ) c).arrAt_in 1 rfl _).trans (R4.A_eq (V7 m ρ) c 1))
  exact W8_of_ne m ρ c b (fun w => by
    match w with
    | ⟨0, _⟩ => exact h0
    | ⟨1, _⟩ => exact h1
    | ⟨2, _⟩ => exact fun e => hb e.symm)

/-- After the last stretch of host operations: the end. -/
abbrev W9 : Dev nD → Valuation τ sig (Elt F) := fun c => StableHlo.after hostOps5 (W8 m ρ c)

/-! ## No boundary changes an argument -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps5 _ hostOps5_writes (by decide)
    _ = W7 m ρ c (Proc.devRef .tc main_arg0) := W8_keep m ρ c main_arg0 (by decide)
    _ = W6 m ρ c (Proc.devRef .tc main_arg0) := StableHlo.after_of_writes_sub hostOps4_2 _ hostOps4_2_writes (by decide)
    _ = W5 m ρ c (Proc.devRef .tc main_arg0) := StableHlo.after_of_writes_sub hostOps4_1 _ hostOps4_1_writes (by decide)
    _ = W4 m ρ c (Proc.devRef .tc main_arg0) := StableHlo.after_of_writes_sub hostOps4 _ hostOps4_writes (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps5 _ hostOps5_writes (by decide)
    _ = W7 m ρ c (Proc.devRef .tc main_arg1) := W8_keep m ρ c main_arg1 (by decide)
    _ = W6 m ρ c (Proc.devRef .tc main_arg1) := StableHlo.after_of_writes_sub hostOps4_2 _ hostOps4_2_writes (by decide)
    _ = W5 m ρ c (Proc.devRef .tc main_arg1) := StableHlo.after_of_writes_sub hostOps4_1 _ hostOps4_1_writes (by decide)
    _ = W4 m ρ c (Proc.devRef .tc main_arg1) := StableHlo.after_of_writes_sub hostOps4 _ hostOps4_writes (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps5 _ hostOps5_writes (by decide)
    _ = W7 m ρ c (Proc.devRef .tc main_arg2) := W8_keep m ρ c main_arg2 (by decide)
    _ = W6 m ρ c (Proc.devRef .tc main_arg2) := StableHlo.after_of_writes_sub hostOps4_2 _ hostOps4_2_writes (by decide)
    _ = W5 m ρ c (Proc.devRef .tc main_arg2) := StableHlo.after_of_writes_sub hostOps4_1 _ hostOps4_1_writes (by decide)
    _ = W4 m ρ c (Proc.devRef .tc main_arg2) := StableHlo.after_of_writes_sub hostOps4 _ hostOps4_writes (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps5 _ hostOps5_writes (by decide)
    _ = W7 m ρ c (Proc.devRef .tc main_arg3) := W8_keep m ρ c main_arg3 (by decide)
    _ = W6 m ρ c (Proc.devRef .tc main_arg3) := StableHlo.after_of_writes_sub hostOps4_2 _ hostOps4_2_writes (by decide)
    _ = W5 m ρ c (Proc.devRef .tc main_arg3) := StableHlo.after_of_writes_sub hostOps4_1 _ hostOps4_1_writes (by decide)
    _ = W4 m ρ c (Proc.devRef .tc main_arg3) := StableHlo.after_of_writes_sub hostOps4 _ hostOps4_writes (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps5 _ hostOps5_writes (by decide)
    _ = W7 m ρ c (Proc.devRef .tc main_arg4) := W8_keep m ρ c main_arg4 (by decide)
    _ = W6 m ρ c (Proc.devRef .tc main_arg4) := StableHlo.after_of_writes_sub hostOps4_2 _ hostOps4_2_writes (by decide)
    _ = W5 m ρ c (Proc.devRef .tc main_arg4) := StableHlo.after_of_writes_sub hostOps4_1 _ hostOps4_1_writes (by decide)
    _ = W4 m ρ c (Proc.devRef .tc main_arg4) := StableHlo.after_of_writes_sub hostOps4 _ hostOps4_writes (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps5 _ hostOps5_writes (by decide)
    _ = W7 m ρ c (Proc.devRef .tc main_arg5) := W8_keep m ρ c main_arg5 (by decide)
    _ = W6 m ρ c (Proc.devRef .tc main_arg5) := StableHlo.after_of_writes_sub hostOps4_2 _ hostOps4_2_writes (by decide)
    _ = W5 m ρ c (Proc.devRef .tc main_arg5) := StableHlo.after_of_writes_sub hostOps4_1 _ hostOps4_1_writes (by decide)
    _ = W4 m ρ c (Proc.devRef .tc main_arg5) := StableHlo.after_of_writes_sub hostOps4 _ hostOps4_writes (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps5 _ hostOps5_writes (by decide)
    _ = W7 m ρ c (Proc.devRef .tc main_arg6) := W8_keep m ρ c main_arg6 (by decide)
    _ = W6 m ρ c (Proc.devRef .tc main_arg6) := StableHlo.after_of_writes_sub hostOps4_2 _ hostOps4_2_writes (by decide)
    _ = W5 m ρ c (Proc.devRef .tc main_arg6) := StableHlo.after_of_writes_sub hostOps4_1 _ hostOps4_1_writes (by decide)
    _ = W4 m ρ c (Proc.devRef .tc main_arg6) := StableHlo.after_of_writes_sub hostOps4 _ hostOps4_writes (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps5 _ hostOps5_writes (by decide)
    _ = W7 m ρ c (Proc.devRef .tc main_arg7) := W8_keep m ρ c main_arg7 (by decide)
    _ = W6 m ρ c (Proc.devRef .tc main_arg7) := StableHlo.after_of_writes_sub hostOps4_2 _ hostOps4_2_writes (by decide)
    _ = W5 m ρ c (Proc.devRef .tc main_arg7) := StableHlo.after_of_writes_sub hostOps4_1 _ hostOps4_1_writes (by decide)
    _ = W4 m ρ c (Proc.devRef .tc main_arg7) := StableHlo.after_of_writes_sub hostOps4 _ hostOps4_writes (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps5 _ hostOps5_writes (by decide)
    _ = W7 m ρ c (Proc.devRef .tc main_arg8) := W8_keep m ρ c main_arg8 (by decide)
    _ = W6 m ρ c (Proc.devRef .tc main_arg8) := StableHlo.after_of_writes_sub hostOps4_2 _ hostOps4_2_writes (by decide)
    _ = W5 m ρ c (Proc.devRef .tc main_arg8) := StableHlo.after_of_writes_sub hostOps4_1 _ hostOps4_1_writes (by decide)
    _ = W4 m ρ c (Proc.devRef .tc main_arg8) := StableHlo.after_of_writes_sub hostOps4 _ hostOps4_writes (by decide)
    _ = W3 m ρ c (Proc.devRef .tc main_arg8) := W4_keep m ρ c main_arg8 (by decide)
    _ = W2 m ρ c (Proc.devRef .tc main_arg8) := W3_keep m ρ c main_arg8 (by decide)
    _ = W1 m ρ c (Proc.devRef .tc main_arg8) := W2_keep m ρ c main_arg8 (by decide)
    _ = W0 m ρ c (Proc.devRef .tc main_arg8) := W1_keep m ρ c main_arg8 (by decide)
    _ = m ((c : Thread nD τ).loc main_arg8) := rfl

/-! ## The proof data family and the thread state -/

abbrev admK : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) admK p) c
  | ⟨0, _⟩ => fun c => R0.dat (V0 m ρ) c
  | ⟨1, _⟩ => fun c => R1.dat (V1 m ρ) c
  | ⟨2, _⟩ => fun c => R2.dat (V2 m ρ) c
  | ⟨3, _⟩ => fun c => R3.dat (V3 m ρ) c
  | ⟨4, _⟩ => fun c => R4.dat (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered from every unscoped buffer at W0, left at W1. Its arrays are split out of the
    unscoped buffers and put back at their exit contents; the generator register and the scoped buffers no window
    stages enter the invariant and come back; nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (R0.dat (V0 m ρ) c).Φ 0 from rfl]
    iintro ⟨Hp, -, Hr⟩
    iapply (R0.Phi_in (V0 m ρ) c)
    isplitl [Hp]; · iexact Hp
    iexact Hr
  hout c := by
    rw [Pipeline.ownSems0_none, show (pdats m ρ 0 c).Φ (Fin.last _) = (R0.dat (V0 m ρ) c).Φ (Fin.last cfg0.N) from rfl]
    iintro H
    ihave H' := (R0.Phi_out (V0 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at W1, left at W2. Its arrays are split out of the
    unscoped buffers and put back at their exit contents; the generator register and the scoped buffers no window
    stages enter the invariant and come back; nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (R1.dat (V1 m ρ) c).Φ 0 from rfl]
    iintro ⟨Hp, -, Hr⟩
    iapply (R1.Phi_in (V1 m ρ) c)
    isplitl [Hp]; · iexact Hp
    iexact Hr
  hout c := by
    rw [Pipeline.ownSems0_none, show (pdats m ρ 1 c).Φ (Fin.last _) = (R1.dat (V1 m ρ) c).Φ (Fin.last cfg1.N) from rfl]
    iintro H
    ihave H' := (R1.Phi_out (V1 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at W2, left at W3. Its arrays are split out of the
    unscoped buffers and put back at their exit contents; the generator register and the scoped buffers no window
    stages enter the invariant and come back; nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (R2.dat (V2 m ρ) c).Φ 0 from rfl]
    iintro ⟨Hp, -, Hr⟩
    iapply (R2.Phi_in (V2 m ρ) c)
    isplitl [Hp]; · iexact Hp
    iexact Hr
  hout c := by
    rw [Pipeline.ownSems0_none, show (pdats m ρ 2 c).Φ (Fin.last _) = (R2.dat (V2 m ρ) c).Φ (Fin.last cfg2.N) from rfl]
    iintro H
    ihave H' := (R2.Phi_out (V2 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at W3, left at W4. Its arrays are split out of the
    unscoped buffers and put back at their exit contents; the generator register and the scoped buffers no window
    stages enter the invariant and come back; nothing is owed; the kernel has no semaphore of its own. -/
def reg3 : Pipeline.RegionSeg (pcfgs (F := F)) admK (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) admK (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (R3.dat (V3 m ρ) c).Φ 0 from rfl]
    iintro ⟨Hp, -, Hr⟩
    iapply (R3.Phi_in (V3 m ρ) c)
    isplitl [Hp]; · iexact Hp
    iexact Hr
  hout c := by
    rw [Pipeline.ownSems0_none, show (pdats m ρ 3 c).Φ (Fin.last _) = (R3.dat (V3 m ρ) c).Φ (Fin.last cfg3.N) from rfl]
    iintro H
    ihave H' := (R3.Phi_out (V3 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at W7, left at W8. Its arrays are split out of the
    unscoped buffers and put back at their exit contents; the generator register and the scoped buffers no window
    stages enter the invariant and come back; nothing is owed; the kernel has no semaphore of its own. -/
def reg4 : Pipeline.RegionSeg (pcfgs (F := F)) admK (pdats m ρ) () defs₀ 𝒱₀ L lv 4 where
  win := launch4.win.to₀
  block_pos := launch4.block_pos
  stage_whole := launch4.stage_whole
  K := PEmpty
  osem k := k.elim
  ho := Pipeline.OwnSemFacts.none _
  hbody c := (R4.body_obligation (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) admK (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (R4.dat (V7 m ρ) c).Φ 0 from rfl]
    iintro ⟨Hp, -, Hr⟩
    iapply (R4.Phi_in (V7 m ρ) c)
    isplitl [Hp]; · iexact Hp
    iexact Hr
  hout c := by
    rw [Pipeline.ownSems0_none, show (pdats m ρ 4 c).Φ (Fin.last _) = (R4.dat (V7 m ρ) c).Φ (Fin.last cfg4.N) from rfl]
    iintro H
    ihave H' := (R4.Phi_out (V7 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) admK (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) admK (pdats m ρ) () defs₀ 𝒱₀ L lv) :=
  [ .region (reg0 m ρ),
    .region (reg1 m ρ),
    .region (reg2 m ρ),
    .region (reg3 m ρ),
    .host (hseg hostOps4 hostOps4_sub hostOps4_fresh (W4 m ρ)),
    .host (hseg hostOps4_1 hostOps4_1_sub hostOps4_1_fresh (W5 m ρ)),
    .host (hseg hostOps4_2 hostOps4_2_sub hostOps4_2_fresh (W6 m ρ)),
    .region (reg4 m ρ),
    .host (hseg hostOps5 hostOps5_sub hostOps5_fresh (W8 m ρ)) ]

theorem main_run (c : Dev nD) : main (F := F) c = Pipeline.Seg.run (segs m ρ) := (main_chain c).trans (by chain_rfl)

set_option backward.isDefEq.respectTransparency.types false in
/-- From any memory with zero counters, every weakly fair execution of @main terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admK (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W9 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.Kernel.Asm

end
-- ==== Proof.BKFrame.lean ====
/-
  Two readings of the whole run: every argument array ends holding its launch contents (no boundary changes one),
  and the result array ends holding the last boundary's contents at its buffer.
-/
import proofs.«126198_j83554293777022_1_alg».proof.Proof.BKRun

noncomputable section

namespace Cert.Kernel.Asm

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c)⟩) (run_all m ρ)

/-- The same run with the result array named: the last boundary's contents at the result's buffer. -/
theorem run_value : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v61 (by decide)), (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c)⟩) (run_all m ρ)

end Cert.Kernel.Asm

end
-- ==== Proof.R0Runs.lean ====
/-
  Region 0 multiplies a row block of its left operand by its whole right operand in ONE step along the contracted
  axis: every point is both the first and the last step of its row block, so at every point the accumulator is
  cleared, the product of the two blocks is added, and the result is stored to the output block. This module
  says so (both conditions hold at every grid point; no window is ever idle) and runs the body for that one case.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block": at every point. -/
abbrev condA (i : grid0.Coords) : Prop := (Scalar.cmpi .ne (Scalar.extui (Scalar.cmpi .eq (BitVec.ofNat 32 (i 1).val) 0#32)) 0#32) = 1#1
theorem hcondA : ∀ t : Fin cfg0.N, condA (grid0.coords t) :=
  (by decide +kernel : ∀ t : Fin grid0.N, condA (grid0.coords t))
/-- "this is the last step of a row block": at every point. -/
abbrev condL (i : grid0.Coords) : Prop := k0_cond2 i = 1#1
theorem hcondL : ∀ t : Fin cfg0.N, condL (grid0.coords t) :=
  (by decide +kernel : ∀ t : Fin grid0.N, condL (grid0.coords t))

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel

abbrev ms_0 (t : Fin cfg0.N) : Memref sig .tc .vmem S2048x256 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S256x256 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S2048x256 .f32 := win0_2.stage (cfg0.slots t 2)
abbrev hs_2 (t : Fin cfg0.N) : (ms_2 t).IsWhole := hstage0_2 ((cfg0.slots t 2).cast nbuf0_2)
abbrev acc : Memref sig .tc .vmem S2048x256 .f32 := Memref.whole cc0_scratch0
abbrev accV : View sig .tc .vmem S2048x256 .f32 := (acc).view
abbrev outV : View sig .tc .vmem S2048x256 .f32 := (Memref.whole cc0_stg2_0 : Memref sig .tc .vmem S2048x256 .f32).view

set_option maxHeartbeats 4000000 in
/-- The one case: from the two input blocks, the output block and the accumulator at anything, the body ends with
    both holding the pieces it stored. -/
noncomputable def runD (c : Dev nD) (i : grid0.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole)
    (hA : condA i) (hL : condL i) (x0 : Vec F S2048x256 .f32) (x1 : Vec F S256x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R0

end
-- ==== Proof.R0Body.lean ====
/-
  Region 0, the proof data and the body obligation, at any contents V of the core's buffers at the region's entry.
  Every point clears the accumulator, adds the product of its two blocks and stores the result to the output
  block, so nothing is carried from one point to the next: between points the invariant holds the accumulator at
  some contents, beside the scoped buffers the region does not use and the generator register.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import proofs.«126198_j83554293777022_1_alg».proof.Proof.R0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the point leaves in the accumulator and in the output block, from its two blocks. -/
def sD (c : Dev nD) (t : Fin cfg0.N) : Vec F S2048x256 .f32 :=
  accV.read (Elt F) (accV.writes (Elt F) accV.junk (runD c (grid0.coords t) (ms_0 t) (hs_0 t) (ms_1 t) (hs_1 t) (ms_2 t) (hs_2 t) acc (Memref.isWhole_whole _) (hcondA t) (hcondL t) (iblk V c 0 t) (iblk V c 1 t)).2.1)
theorem coverDs (c : Dev nD) (t : Fin cfg0.N) (y : S2048x256.Idx) :
    ∃ pc ∈ (runD c (grid0.coords t) (ms_0 t) (hs_0 t) (ms_1 t) (hs_1 t) (ms_2 t) (hs_2 t) acc (Memref.isWhole_whole _) (hcondA t) (hcondL t) (iblk V c 0 t) (iblk V c 1 t)).2.1, y ∈ pc.1.set :=
  View.cover_of_tiledL _ S2048x256.size (by sl_kernel_rfl) y
def oD (c : Dev nD) (t : Fin cfg0.N) : Vec F S2048x256 .f32 :=
  outV.read (Elt F) (outV.writes (Elt F) outV.junk (runD c (grid0.coords t) (ms_0 t) (hs_0 t) (ms_1 t) (hs_1 t) (ms_2 t) (hs_2 t) acc (Memref.isWhole_whole _) (hcondA t) (hcondL t) (iblk V c 0 t) (iblk V c 1 t)).1)
theorem coverDo (c : Dev nD) (t : Fin cfg0.N) (y : S2048x256.Idx) :
    ∃ pc ∈ (runD c (grid0.coords t) (ms_0 t) (hs_0 t) (ms_1 t) (hs_1 t) (ms_2 t) (hs_2 t) acc (Memref.isWhole_whole _) (hcondA t) (hcondL t) (iblk V c 0 t) (iblk V c 1 t)).1, y ∈ pc.1.set :=
  View.cover_of_tiledL _ S2048x256.size (by sl_kernel_rfl) y

/-- The scoped buffers the region does not use. -/
abbrev rest (c : Dev nD) : sProp 𝕄 := Pipeline.scopedRestBut (Ix := Unit) (Name := ℕ) (U := UR sig nD τ) (Lvl := ℕ) (Val := Elt F) spec0 c [cc0_scratch0]

/-- Between points: the accumulator at some contents, the unused scoped buffers, the generator register. -/
def Phi (c : Dev nD) : sProp 𝕄 := iprop((∃ d, owns (c : Thread nD τ) acc fullShare d) ∗ rest c ∗ (∃ r, prngReg c r))

/-- The proof data: the arrays as the region finds them; the inputs' buffers at their blocks; the output's at what
    the point stores; the invariant above; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => oD V c t
  Φ _ := Phi c
  q _ := fullShare
  owed _ := 0

theorem A_eq (c : Dev nD) (w : Fin cfg0.W) : (dat V c).A w = V c (Pipeline.arrRef spec0 w) := by dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = oD V c t := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the one case's run; the invariant and what the core owes pass through. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  unfold Phi oD
  iintro ⟨⟨HS, Hr⟩, Ho, ⟨%d0, H0⟩, ⟨%d1, H1⟩, ⟨%d2, H2⟩⟩
  iapply ((runD c (grid0.coords t) _ _ _ _ _ _ _ _ (hcondA t) (hcondL t) (iblk V c 0 t) (iblk V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hr]
  · isplitl [HS]
    · iexists (sD V c t); unfold owns; iexists _; isplitr
      swap; · iexact HS
      ipureintro; exact View.read_writes_of_cover _ _ _ _ _ (coverDs V c t)
    iexact Hr
  isplitl [Ho]; · iexact Ho
  isplitl [H0]; · iexact H0
  isplitl [H1]; · iexact H1
  unfold owns; iexists _; isplitr
  swap; · iexact H2
  ipureintro; exact View.read_writes_of_cover _ _ _ _ _ (coverDo V c t)

/-- The library's body obligation, at every point. -/
theorem body_obligation (c : Dev nD) : BodyObligation (dat (F := F) V c) (defs₀ (F := F)) Variants.none () Set.univ := fun t => by
  rw [bigSep_W0, bigSep_W0]
  exact sound_body V c t

/-- The generator register and the scoped buffers the windows do not stage make the invariant: the accumulator is
    one of those buffers, whole, at some contents. -/
theorem Phi_in (c : Dev nD) :
    (iprop((∃ r, prngReg c r) ∗ Pipeline.scopedRest (Ix := Unit) (Name := ℕ) (U := UR sig nD τ) (Lvl := ℕ) (Val := Elt F) spec0 c) : sProp 𝕄) ⊢ (dat V c).Φ 0 := by
  rw [show (dat V c).Φ 0 = Phi c from rfl, scopedRest0_split]
  unfold Phi
  simp only [acc, owns_whole]
  iintro ⟨Hp, Hs, Hr⟩
  isplitl [Hs]; · iexact Hs
  isplitl [Hr]; · iexact Hr
  iexact Hp

/-- And the invariant gives them back. -/
theorem Phi_out (c : Dev nD) :
    (dat V c).Φ (Fin.last cfg0.N) ⊢ (iprop((∃ r, prngReg c r) ∗ Pipeline.scopedRest (Ix := Unit) (Name := ℕ) (U := UR sig nD τ) (Lvl := ℕ) (Val := Elt F) spec0 c) : sProp 𝕄) := by
  rw [show (dat V c).Φ (Fin.last cfg0.N) = Phi c from rfl, scopedRest0_split]
  unfold Phi
  simp only [acc, owns_whole]
  iintro ⟨Hs, Hr, Hp⟩
  isplitl [Hp]; · iexact Hp
  isplitl [Hs]; · iexact Hs
  iexact Hr

end

end Cert.KernelIdeal.R0

end
-- ==== Proof.R1Runs.lean ====
/-
  Region 1 multiplies a row block of its left operand by its right operand in four steps along the contracted
  axis: at step 0 of a row block the accumulator is cleared, at every step the product of the step's two blocks is
  added to it, at step 3 the accumulator is copied to the output block. This module decides at which grid points
  each of the two conditions holds (the grid is row-block-major: point t is row block t / 4, step t % 4), says where
  the output window is idle, and runs the body once for each of the three combinations the grid meets.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block", as the body computes it from the grid coordinates. -/
abbrev condA (i : grid1.Coords) : Prop := (Scalar.cmpi .ne (Scalar.extui (Scalar.cmpi .eq (BitVec.ofNat 32 (i 1).val) 0#32)) 0#32) = 1#1
theorem hcondA : ∀ t : Fin cfg1.N, condA (grid1.coords t) ↔ t.val % 4 = 0 :=
  (by decide +kernel : ∀ t : Fin grid1.N, condA (grid1.coords t) ↔ t.val % 4 = 0)

/-- "this is the last step of a row block". -/
abbrev condL (i : grid1.Coords) : Prop := k1_cond2 i = 1#1
theorem hcondL : ∀ t : Fin cfg1.N, condL (grid1.coords t) ↔ t.val % 4 = 3 :=
  (by decide +kernel : ∀ t : Fin grid1.N, condL (grid1.coords t) ↔ t.val % 4 = 3)

/-- The two input windows are read at every point. -/
theorem live_0 : ∀ t : Fin cfg1.N, cfg1.idle 0 (grid1.coords t) = false := by decide +kernel
theorem live_1 : ∀ t : Fin cfg1.N, cfg1.idle 1 (grid1.coords t) = false := by decide +kernel
/-- Before the last step nothing is stored into the output block and it is not written back. -/
theorem idle_out : ∀ t : Fin cfg1.N, ¬condL (grid1.coords t) → cfg1.idle 2 (grid1.coords t) = true := by decide +kernel
theorem noflush_out : ∀ t : Fin cfg1.N, ¬condL (grid1.coords t) → (cfg1.win 2).flush t = false := by decide +kernel
/-- At the last step the output block is stored. -/
theorem live_out : ∀ t : Fin cfg1.N, condL (grid1.coords t) → cfg1.idle 2 (grid1.coords t) = false := by decide +kernel

/-- The staging memrefs the body is called with at point t, and the accumulator. -/
abbrev ms_0 (t : Fin cfg1.N) : Memref sig .tc .vmem S1024x2048 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x256 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x256 .f32 := win1_2.stage (cfg1.slots t 2)
abbrev hs_2 (t : Fin cfg1.N) : (ms_2 t).IsWhole := hstage1_2 ((cfg1.slots t 2).cast nbuf1_2)
abbrev acc : Memref sig .tc .vmem S1024x256 .f32 := Memref.whole cc1_scratch0
abbrev accV : View sig .tc .vmem S1024x256 .f32 := (acc).view
abbrev outV : View sig .tc .vmem S1024x256 .f32 := (Memref.whole cc1_stg2_0 : Memref sig .tc .vmem S1024x256 .f32).view

set_option maxHeartbeats 4000000 in
/-- Step 0 of a row block, not the last: from the two input blocks, the output block at anything handed back
    untouched, and the accumulator at anything, the body ends with the accumulator holding the pieces it stored. -/
noncomputable def runA (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : condA i) (hL : ¬condL i) (x0 : Vec F S1024x2048 .f32) (x1 : Vec F S2048x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xo E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle step: the accumulator enters at what the step before left in it. -/
noncomputable def runB (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : ¬condL i) (x0 : Vec F S1024x2048 .f32) (x1 : Vec F S2048x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, fun xo E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last step: the accumulator enters at what the step before left; the output block (at anything) ends
    holding the pieces stored into it. -/
noncomputable def runC (c : Dev nD) (i : grid1.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : condL i) (x0 : Vec F S1024x2048 .f32) (x1 : Vec F S2048x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R1

end
-- ==== Proof.R1Body.lean ====
/-
  Region 1, the proof data and the body obligation, at any contents V of the core's buffers at the region's entry.

  The accumulator after point t is defined by recursion on the point: at step 0 of a row block it is what the
  clearing case leaves from the point's two input blocks alone; at a later step it is what the adding case leaves
  from the two blocks and the accumulator of the point before. The output block after the last step of a row block
  is what that case stores from the accumulator. Between points the invariant holds the accumulator at exactly
  this value, beside the scoped buffers the region does not use and the generator register.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import proofs.«126198_j83554293777022_1_alg».proof.Proof.R1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The clearing case's accumulator, from the point's two blocks. -/
def sA (c : Dev nD) (t : Fin cfg1.N) (hA : condA (grid1.coords t)) (hL : ¬condL (grid1.coords t)) : Vec F S1024x256 .f32 :=
  accV.read (Elt F) (accV.writes (Elt F) accV.junk (runA c (grid1.coords t) (ms_0 t) (hs_0 t) (ms_1 t) (hs_1 t) (ms_2 t) (hs_2 t) acc (Memref.isWhole_whole _) hA hL (iblk V c 0 t) (iblk V c 1 t)).1)
theorem coverA (c : Dev nD) (t : Fin cfg1.N) (hA : condA (grid1.coords t)) (hL : ¬condL (grid1.coords t)) (y : S1024x256.Idx) :
    ∃ pc ∈ (runA c (grid1.coords t) (ms_0 t) (hs_0 t) (ms_1 t) (hs_1 t) (ms_2 t) (hs_2 t) acc (Memref.isWhole_whole _) hA hL (iblk V c 0 t) (iblk V c 1 t)).1, y ∈ pc.1.set :=
  View.cover_of_tiledL _ S1024x256.size (by sl_kernel_rfl) y

/-- The adding case's accumulator, from the two blocks and the accumulator before. -/
def sB (c : Dev nD) (t : Fin cfg1.N) (hA : ¬condA (grid1.coords t)) (hL : ¬condL (grid1.coords t)) (xs : Vec F S1024x256 .f32) : Vec F S1024x256 .f32 :=
  accV.read (Elt F) (accV.writes (Elt F) accV.junk (runB c (grid1.coords t) (ms_0 t) (hs_0 t) (ms_1 t) (hs_1 t) (ms_2 t) (hs_2 t) acc (Memref.isWhole_whole _) hA hL (iblk V c 0 t) (iblk V c 1 t) xs).1)
theorem coverB (c : Dev nD) (t : Fin cfg1.N) (hA : ¬condA (grid1.coords t)) (hL : ¬condL (grid1.coords t)) (xs : Vec F S1024x256 .f32) (y : S1024x256.Idx) :
    ∃ pc ∈ (runB c (grid1.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-- The last step's accumulator and output block. -/
def sC (c : Dev nD) (t : Fin cfg1.N) (hA : ¬condA (grid1.coords t)) (hL : condL (grid1.coords t)) (xs : Vec F S1024x256 .f32) : Vec F S1024x256 .f32 :=
  accV.read (Elt F) (accV.writes (Elt F) accV.junk (runC c (grid1.coords t) (ms_0 t) (hs_0 t) (ms_1 t) (hs_1 t) (ms_2 t) (hs_2 t) acc (Memref.isWhole_whole _) hA hL (iblk V c 0 t) (iblk V c 1 t) xs).2.1)
theorem coverCs (c : Dev nD) (t : Fin cfg1.N) (hA : ¬condA (grid1.coords t)) (hL : condL (grid1.coords t)) (xs : Vec F S1024x256 .f32) (y : S1024x256.Idx) :
    ∃ pc ∈ (runC c (grid1.coords t) (ms_0 t) (hs_0 t) (ms_1 t) (hs_1 t) (ms_2 t) (hs_2 t) acc (Memref.isWhole_whole _) hA hL (iblk V c 0 t) (iblk V c 1 t) xs).2.1, y ∈ pc.1.set :=
  View.cover_of_tiledL _ S1024x256.size (by sl_kernel_rfl) y
def oC (c : Dev nD) (t : Fin cfg1.N) (hA : ¬condA (grid1.coords t)) (hL : condL (grid1.coords t)) (xs : Vec F S1024x256 .f32) : Vec F S1024x256 .f32 :=
  outV.read (Elt F) (outV.writes (Elt F) outV.junk (runC c (grid1.coords t) (ms_0 t) (hs_0 t) (ms_1 t) (hs_1 t) (ms_2 t) (hs_2 t) acc (Memref.isWhole_whole _) hA hL (iblk V c 0 t) (iblk V c 1 t) xs).1)
theorem coverCo (c : Dev nD) (t : Fin cfg1.N) (hA : ¬condA (grid1.coords t)) (hL : condL (grid1.coords t)) (xs : Vec F S1024x256 .f32) (y : S1024x256.Idx) :
    ∃ pc ∈ (runC c (grid1.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-! ## The accumulation -/

/-- One point's effect on the accumulator, given the accumulator before it (ignored at step 0). -/
def stepAcc (c : Dev nD) (t : Fin cfg1.N) (prev : Vec F S1024x256 .f32) : Vec F S1024x256 .f32 :=
  if hA : condA (grid1.coords t) then (if hL : condL (grid1.coords t) then prev else sA V c t hA hL)
  else if hL : condL (grid1.coords t) then sC V c t hA hL prev else sB V c t hA hL prev
/-- What the last step stores into the output block (elsewhere a value nothing consults). -/
def stepOut (c : Dev nD) (t : Fin cfg1.N) (prev : Vec F S1024x256 .f32) : Vec F S1024x256 .f32 :=
  if hA : condA (grid1.coords t) then prev
  else if hL : condL (grid1.coords t) then oC V c t hA hL prev else prev

/-- The accumulator after the point at position n. -/
def accAt (c : Dev nD) : (n : ℕ) → n < cfg1.N → Vec F S1024x256 .f32
  | 0, hn => stepAcc V c ⟨0, hn⟩ (k1_pay1 (F := F))
  | n + 1, hn => stepAcc V c ⟨n + 1, hn⟩ (accAt c n (Nat.lt_of_succ_lt hn))
/-- The accumulator before the point at position n (anything at the first point). -/
def accBefore (c : Dev nD) : (n : ℕ) → n < cfg1.N → Vec F S1024x256 .f32
  | 0, _ => k1_pay1 (F := F)
  | n + 1, hn => accAt V c n (Nat.lt_of_succ_lt hn)
theorem accAt_eq (c : Dev nD) (t : Fin cfg1.N) : accAt V c t.val t.isLt = stepAcc V c t (accBefore V c t.val t.isLt) := by
  obtain ⟨n, hn⟩ := t
  cases n with
  | zero => rfl
  | succ n => rfl
theorem accBefore_pos (c : Dev nD) (n : ℕ) (hn : n < cfg1.N) (hz : n ≠ 0) :
    accBefore V c n hn = accAt V c (n - 1) (by omega) := by
  cases n with
  | zero => exact absurd rfl hz
  | succ n => rfl

/-! ## The invariant and the proof data -/

/-- The scoped buffers the region does not use. -/
abbrev rest (c : Dev nD) : sProp 𝕄 := Pipeline.scopedRestBut (Ix := Unit) (Name := ℕ) (U := UR sig nD τ) (Lvl := ℕ) (Val := Elt F) spec1 c [cc1_scratch0]

/-- Before position n: the accumulator at anything before the first point, then at what the point before left. -/
def Phi (c : Dev nD) : (n : ℕ) → n ≤ cfg1.N → sProp 𝕄
  | 0, _ => iprop((∃ d, owns (c : Thread nD τ) acc fullShare d) ∗ rest c ∗ (∃ r, prngReg c r))
  | n + 1, hn => iprop(owns (c : Thread nD τ) acc fullShare (accAt V c n hn) ∗ rest c ∗ (∃ r, prngReg c r))
theorem Phi_zero (c : Dev nD) (n : ℕ) (h : n ≤ cfg1.N) (hz : n = 0) :
    Phi V c n h = iprop((∃ d, owns (c : Thread nD τ) acc fullShare d) ∗ rest c ∗ (∃ r, prngReg c r)) := by
  subst hz; rfl
theorem Phi_succ (c : Dev nD) (n : ℕ) (hn : n < cfg1.N) :
    Phi V c (n + 1) hn = iprop(owns (c : Thread nD τ) acc fullShare (accAt V c n hn) ∗ rest c ∗ (∃ r, prngReg c r)) := rfl
theorem Phi_pos (c : Dev nD) (n : ℕ) (h : n ≤ cfg1.N) (hz : n ≠ 0) :
    Phi V c n h = iprop(owns (c : Thread nD τ) acc fullShare (accAt V c (n - 1) (by omega)) ∗ rest c ∗ (∃ r, prngReg c r)) := by
  cases n with
  | zero => exact absurd rfl hz
  | succ n => rfl

/-- The proof data: the arrays as the region finds them; the inputs' buffers at their blocks; the output's at what
    the last step stores; the invariant above; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => stepOut V c t (accBefore V c t.val t.isLt)
  Φ t := Phi V c t.val (Nat.le_of_lt_succ t.isLt)
  q _ := fullShare
  owed _ := 0

theorem A_eq (c : Dev nD) (w : Fin cfg1.W) : (dat V c).A w = V c (Pipeline.arrRef spec1 w) := by dsimp only [dat]
theorem Phi_castSucc (c : Dev nD) (t : Fin cfg1.N) : (dat V c).Φ t.castSucc = Phi V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = stepOut V c t (accBefore V c t.val t.isLt) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The closed forms say which case the point is in; the invariant hands the body the
    accumulator (at anything for the clearing case, at what the point before left otherwise) and takes it back at
    this point's value; before the last step the output block goes back as it came; the core owes nothing. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [accAt_eq V c t]
  by_cases hA : condA (grid1.coords t)
  · by_cases hL : condL (grid1.coords t)
    · exfalso; have h1 := (hcondA t).mp hA; have h2 := (hcondL t).mp hL; omega
    · rw [Dat.leavesExact_idle (dat V c) 2 t (idle_out t hL) (noflush_out t hL)]
      rw [show stepAcc V c t (accBefore V c t.val t.isLt) = sA V c t hA hL from by unfold stepAcc; rw [dif_pos hA, dif_neg hL]]
      unfold sA
      have hin : (dat V c).Φ t.castSucc ⊢ (iprop((∃ d, owns (c : Thread nD τ) acc fullShare d) ∗ rest c ∗ (∃ r, prngReg c r)) : sProp 𝕄) := by
        rw [Phi_castSucc V c t]
        by_cases hz : t.val = 0
        · rw [Phi_zero V c _ _ hz]
        · rw [Phi_pos V c _ _ hz]
          iintro ⟨HS, Hr⟩
          isplitl [HS]; · iexists _; iexact HS
          iexact Hr
      iintro ⟨HΦ, Ho, ⟨%d0, H0⟩, ⟨%d1, H1⟩, ⟨%d2, H2⟩⟩
      ihave HΦ' := hin $$ HΦ
      icases HΦ' with ⟨HS, Hr⟩
      iapply ((runA c (grid1.coords t) _ _ _ _ _ _ _ _ hA hL (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverA V c t hA hL)
        iexact Hr
      isplitl [Ho]; · iexact Ho
      isplitl [H0]; · iexact H0
      isplitl [H1]; · iexact H1
      iexists _; iexact H2
  · have hz : t.val ≠ 0 := fun h => hA ((hcondA t).mpr (by rw [h]))
    rw [Phi_castSucc V c t, Phi_pos V c _ _ hz, accBefore_pos V c _ _ hz]
    by_cases hL : condL (grid1.coords t)
    · rw [show (dat V c).leavesExact 2 t = owns (c : Thread nD τ) (ms_2 t) fullShare ((dat V c).after 2 t) from by
        unfold Dat.leavesExact; rw [live_out t hL], after_2]
      rw [accBefore_pos V c _ _ hz]
      rw [show stepAcc V c t (accAt V c (t.val - 1) (by omega)) = sC V c t hA hL (accAt V c (t.val - 1) (by omega)) from by unfold stepAcc; rw [dif_neg hA, dif_pos hL]]
      rw [show stepOut V c t (accAt V c (t.val - 1) (by omega)) = oC V c t hA hL (accAt V c (t.val - 1) (by omega)) from by unfold stepOut; rw [dif_neg hA, dif_pos hL]]
      unfold sC oC
      iintro ⟨⟨HS, Hr⟩, Ho, ⟨%d0, H0⟩, ⟨%d1, H1⟩, ⟨%d2, H2⟩⟩
      iapply ((runC c (grid1.coords t) _ _ _ _ _ _ _ _ hA hL (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverCs V c t hA hL _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverCo V c t hA hL _)
    · rw [Dat.leavesExact_idle (dat V c) 2 t (idle_out t hL) (noflush_out t hL)]
      rw [show stepAcc V c t (accAt V c (t.val - 1) (by omega)) = sB V c t hA hL (accAt V c (t.val - 1) (by omega)) from by unfold stepAcc; rw [dif_neg hA, dif_neg hL]]
      unfold sB
      iintro ⟨⟨HS, Hr⟩, Ho, ⟨%d0, H0⟩, ⟨%d1, H1⟩, ⟨%d2, H2⟩⟩
      iapply ((runB c (grid1.coords t) _ _ _ _ _ _ _ _ hA hL (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverB V c t hA hL _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- The generator register and the scoped buffers the windows do not stage make the invariant before the first
    point: the accumulator is one of those buffers, whole, at some contents. -/
theorem Phi_in (c : Dev nD) :
    (iprop((∃ r, prngReg c r) ∗ Pipeline.scopedRest (Ix := Unit) (Name := ℕ) (U := UR sig nD τ) (Lvl := ℕ) (Val := Elt F) spec1 c) : sProp 𝕄) ⊢ (dat V c).Φ 0 := by
  rw [show (dat V c).Φ 0 = Phi V c 0 (Nat.zero_le _) from rfl, Phi_zero V c 0 _ rfl, scopedRest1_split]
  simp only [acc, owns_whole]
  iintro ⟨Hp, Hs, Hr⟩
  isplitl [Hs]; · iexact Hs
  isplitl [Hr]; · iexact Hr
  iexact Hp

/-- After the last point the invariant gives them back, the accumulator's value forgotten. -/
theorem Phi_out (c : Dev nD) :
    (dat V c).Φ (Fin.last cfg1.N) ⊢ (iprop((∃ r, prngReg c r) ∗ Pipeline.scopedRest (Ix := Unit) (Name := ℕ) (U := UR sig nD τ) (Lvl := ℕ) (Val := Elt F) spec1 c) : sProp 𝕄) := by
  rw [show (dat V c).Φ (Fin.last cfg1.N) = Phi V c cfg1.N (Nat.le_refl _) from rfl,
    Phi_pos V c _ _ (by have : cfg1.N = 32 := N_1; omega), scopedRest1_split]
  simp only [acc, owns_whole]
  iintro ⟨Hs, Hr, Hp⟩
  isplitl [Hp]; · iexact Hp
  isplitl [Hs]; · iexists _; iexact Hs
  iexact Hr

end

end Cert.KernelIdeal.R1

end
-- ==== Proof.R2Runs.lean ====
/-
  Region 2 multiplies a row block of its left operand by its right operand in four steps along the contracted
  axis: at step 0 of a row block the accumulator is cleared, at every step the product of the step's two blocks is
  added to it, at step 3 the accumulator is copied to the output block. This module decides at which grid points
  each of the two conditions holds (the grid is row-block-major: point t is row block t / 4, step t % 4), says where
  the output window is idle, and runs the body once for each of the three combinations the grid meets.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block", as the body computes it from the grid coordinates. -/
abbrev condA (i : grid2.Coords) : Prop := (Scalar.cmpi .ne (Scalar.extui (Scalar.cmpi .eq (BitVec.ofNat 32 (i 1).val) 0#32)) 0#32) = 1#1
theorem hcondA : ∀ t : Fin cfg2.N, condA (grid2.coords t) ↔ t.val % 4 = 0 :=
  (by decide +kernel : ∀ t : Fin grid2.N, condA (grid2.coords t) ↔ t.val % 4 = 0)

/-- "this is the last step of a row block". -/
abbrev condL (i : grid2.Coords) : Prop := k2_cond2 i = 1#1
theorem hcondL : ∀ t : Fin cfg2.N, condL (grid2.coords t) ↔ t.val % 4 = 3 :=
  (by decide +kernel : ∀ t : Fin grid2.N, condL (grid2.coords t) ↔ t.val % 4 = 3)

/-- The two input windows are read at every point. -/
theorem live_0 : ∀ t : Fin cfg2.N, cfg2.idle 0 (grid2.coords t) = false := by decide +kernel
theorem live_1 : ∀ t : Fin cfg2.N, cfg2.idle 1 (grid2.coords t) = false := by decide +kernel
/-- Before the last step nothing is stored into the output block and it is not written back. -/
theorem idle_out : ∀ t : Fin cfg2.N, ¬condL (grid2.coords t) → cfg2.idle 2 (grid2.coords t) = true := by decide +kernel
theorem noflush_out : ∀ t : Fin cfg2.N, ¬condL (grid2.coords t) → (cfg2.win 2).flush t = false := by decide +kernel
/-- At the last step the output block is stored. -/
theorem live_out : ∀ t : Fin cfg2.N, condL (grid2.coords t) → cfg2.idle 2 (grid2.coords t) = false := by decide +kernel

/-- The staging memrefs the body is called with at point t, and the accumulator. -/
abbrev ms_0 (t : Fin cfg2.N) : Memref sig .tc .vmem S1024x2048 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x256 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1024x256 .f32 := win2_2.stage (cfg2.slots t 2)
abbrev hs_2 (t : Fin cfg2.N) : (ms_2 t).IsWhole := hstage2_2 ((cfg2.slots t 2).cast nbuf2_2)
abbrev acc : Memref sig .tc .vmem S1024x256 .f32 := Memref.whole cc2_scratch0
abbrev accV : View sig .tc .vmem S1024x256 .f32 := (acc).view
abbrev outV : View sig .tc .vmem S1024x256 .f32 := (Memref.whole cc2_stg2_0 : Memref sig .tc .vmem S1024x256 .f32).view

set_option maxHeartbeats 4000000 in
/-- Step 0 of a row block, not the last: from the two input blocks, the output block at anything handed back
    untouched, and the accumulator at anything, the body ends with the accumulator holding the pieces it stored. -/
noncomputable def runA (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : condA i) (hL : ¬condL i) (x0 : Vec F S1024x2048 .f32) (x1 : Vec F S2048x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle step: the accumulator enters at what the step before left in it. -/
noncomputable def runB (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : ¬condL i) (x0 : Vec F S1024x2048 .f32) (x1 : Vec F S2048x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last step: the accumulator enters at what the step before left; the output block (at anything) ends
    holding the pieces stored into it. -/
noncomputable def runC (c : Dev nD) (i : grid2.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : condL i) (x0 : Vec F S1024x2048 .f32) (x1 : Vec F S2048x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc2__matmul_kernel i arg2 harg2 arg3 harg3 arg4 harg4 arg5 harg5) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R2

end
-- ==== Proof.R2Body.lean ====
/-
  Region 2, the proof data and the body obligation, at any contents V of the core's buffers at the region's entry.

  The accumulator after point t is defined by recursion on the point: at step 0 of a row block it is what the
  clearing case leaves from the point's two input blocks alone; at a later step it is what the adding case leaves
  from the two blocks and the accumulator of the point before. The output block after the last step of a row block
  is what that case stores from the accumulator. Between points the invariant holds the accumulator at exactly
  this value, beside the scoped buffers the region does not use and the generator register.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import proofs.«126198_j83554293777022_1_alg».proof.Proof.R2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The clearing case's accumulator, from the point's two blocks. -/
def sA (c : Dev nD) (t : Fin cfg2.N) (hA : condA (grid2.coords t)) (hL : ¬condL (grid2.coords t)) : Vec F S1024x256 .f32 :=
  accV.read (Elt F) (accV.writes (Elt F) accV.junk (runA c (grid2.coords t) (ms_0 t) (hs_0 t) (ms_1 t) (hs_1 t) (ms_2 t) (hs_2 t) acc (Memref.isWhole_whole _) hA hL (iblk V c 0 t) (iblk V c 1 t)).1)
theorem coverA (c : Dev nD) (t : Fin cfg2.N) (hA : condA (grid2.coords t)) (hL : ¬condL (grid2.coords t)) (y : S1024x256.Idx) :
    ∃ pc ∈ (runA c (grid2.coords t) (ms_0 t) (hs_0 t) (ms_1 t) (hs_1 t) (ms_2 t) (hs_2 t) acc (Memref.isWhole_whole _) hA hL (iblk V c 0 t) (iblk V c 1 t)).1, y ∈ pc.1.set :=
  View.cover_of_tiledL _ S1024x256.size (by sl_kernel_rfl) y

/-- The adding case's accumulator, from the two blocks and the accumulator before. -/
def sB (c : Dev nD) (t : Fin cfg2.N) (hA : ¬condA (grid2.coords t)) (hL : ¬condL (grid2.coords t)) (xs : Vec F S1024x256 .f32) : Vec F S1024x256 .f32 :=
  accV.read (Elt F) (accV.writes (Elt F) accV.junk (runB c (grid2.coords t) (ms_0 t) (hs_0 t) (ms_1 t) (hs_1 t) (ms_2 t) (hs_2 t) acc (Memref.isWhole_whole _) hA hL (iblk V c 0 t) (iblk V c 1 t) xs).1)
theorem coverB (c : Dev nD) (t : Fin cfg2.N) (hA : ¬condA (grid2.coords t)) (hL : ¬condL (grid2.coords t)) (xs : Vec F S1024x256 .f32) (y : S1024x256.Idx) :
    ∃ pc ∈ (runB c (grid2.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-- The last step's accumulator and output block. -/
def sC (c : Dev nD) (t : Fin cfg2.N) (hA : ¬condA (grid2.coords t)) (hL : condL (grid2.coords t)) (xs : Vec F S1024x256 .f32) : Vec F S1024x256 .f32 :=
  accV.read (Elt F) (accV.writes (Elt F) accV.junk (runC c (grid2.coords t) (ms_0 t) (hs_0 t) (ms_1 t) (hs_1 t) (ms_2 t) (hs_2 t) acc (Memref.isWhole_whole _) hA hL (iblk V c 0 t) (iblk V c 1 t) xs).2.1)
theorem coverCs (c : Dev nD) (t : Fin cfg2.N) (hA : ¬condA (grid2.coords t)) (hL : condL (grid2.coords t)) (xs : Vec F S1024x256 .f32) (y : S1024x256.Idx) :
    ∃ pc ∈ (runC c (grid2.coords t) (ms_0 t) (hs_0 t) (ms_1 t) (hs_1 t) (ms_2 t) (hs_2 t) acc (Memref.isWhole_whole _) hA hL (iblk V c 0 t) (iblk V c 1 t) xs).2.1, y ∈ pc.1.set :=
  View.cover_of_tiledL _ S1024x256.size (by sl_kernel_rfl) y
def oC (c : Dev nD) (t : Fin cfg2.N) (hA : ¬condA (grid2.coords t)) (hL : condL (grid2.coords t)) (xs : Vec F S1024x256 .f32) : Vec F S1024x256 .f32 :=
  outV.read (Elt F) (outV.writes (Elt F) outV.junk (runC c (grid2.coords t) (ms_0 t) (hs_0 t) (ms_1 t) (hs_1 t) (ms_2 t) (hs_2 t) acc (Memref.isWhole_whole _) hA hL (iblk V c 0 t) (iblk V c 1 t) xs).1)
theorem coverCo (c : Dev nD) (t : Fin cfg2.N) (hA : ¬condA (grid2.coords t)) (hL : condL (grid2.coords t)) (xs : Vec F S1024x256 .f32) (y : S1024x256.Idx) :
    ∃ pc ∈ (runC c (grid2.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-! ## The accumulation -/

/-- One point's effect on the accumulator, given the accumulator before it (ignored at step 0). -/
def stepAcc (c : Dev nD) (t : Fin cfg2.N) (prev : Vec F S1024x256 .f32) : Vec F S1024x256 .f32 :=
  if hA : condA (grid2.coords t) then (if hL : condL (grid2.coords t) then prev else sA V c t hA hL)
  else if hL : condL (grid2.coords t) then sC V c t hA hL prev else sB V c t hA hL prev
/-- What the last step stores into the output block (elsewhere a value nothing consults). -/
def stepOut (c : Dev nD) (t : Fin cfg2.N) (prev : Vec F S1024x256 .f32) : Vec F S1024x256 .f32 :=
  if hA : condA (grid2.coords t) then prev
  else if hL : condL (grid2.coords t) then oC V c t hA hL prev else prev

/-- The accumulator after the point at position n. -/
def accAt (c : Dev nD) : (n : ℕ) → n < cfg2.N → Vec F S1024x256 .f32
  | 0, hn => stepAcc V c ⟨0, hn⟩ (k2_pay1 (F := F))
  | n + 1, hn => stepAcc V c ⟨n + 1, hn⟩ (accAt c n (Nat.lt_of_succ_lt hn))
/-- The accumulator before the point at position n (anything at the first point). -/
def accBefore (c : Dev nD) : (n : ℕ) → n < cfg2.N → Vec F S1024x256 .f32
  | 0, _ => k2_pay1 (F := F)
  | n + 1, hn => accAt V c n (Nat.lt_of_succ_lt hn)
theorem accAt_eq (c : Dev nD) (t : Fin cfg2.N) : accAt V c t.val t.isLt = stepAcc V c t (accBefore V c t.val t.isLt) := by
  obtain ⟨n, hn⟩ := t
  cases n with
  | zero => rfl
  | succ n => rfl
theorem accBefore_pos (c : Dev nD) (n : ℕ) (hn : n < cfg2.N) (hz : n ≠ 0) :
    accBefore V c n hn = accAt V c (n - 1) (by omega) := by
  cases n with
  | zero => exact absurd rfl hz
  | succ n => rfl

/-! ## The invariant and the proof data -/

/-- The scoped buffers the region does not use. -/
abbrev rest (c : Dev nD) : sProp 𝕄 := Pipeline.scopedRestBut (Ix := Unit) (Name := ℕ) (U := UR sig nD τ) (Lvl := ℕ) (Val := Elt F) spec2 c [cc2_scratch0]

/-- Before position n: the accumulator at anything before the first point, then at what the point before left. -/
def Phi (c : Dev nD) : (n : ℕ) → n ≤ cfg2.N → sProp 𝕄
  | 0, _ => iprop((∃ d, owns (c : Thread nD τ) acc fullShare d) ∗ rest c ∗ (∃ r, prngReg c r))
  | n + 1, hn => iprop(owns (c : Thread nD τ) acc fullShare (accAt V c n hn) ∗ rest c ∗ (∃ r, prngReg c r))
theorem Phi_zero (c : Dev nD) (n : ℕ) (h : n ≤ cfg2.N) (hz : n = 0) :
    Phi V c n h = iprop((∃ d, owns (c : Thread nD τ) acc fullShare d) ∗ rest c ∗ (∃ r, prngReg c r)) := by
  subst hz; rfl
theorem Phi_succ (c : Dev nD) (n : ℕ) (hn : n < cfg2.N) :
    Phi V c (n + 1) hn = iprop(owns (c : Thread nD τ) acc fullShare (accAt V c n hn) ∗ rest c ∗ (∃ r, prngReg c r)) := rfl
theorem Phi_pos (c : Dev nD) (n : ℕ) (h : n ≤ cfg2.N) (hz : n ≠ 0) :
    Phi V c n h = iprop(owns (c : Thread nD τ) acc fullShare (accAt V c (n - 1) (by omega)) ∗ rest c ∗ (∃ r, prngReg c r)) := by
  cases n with
  | zero => exact absurd rfl hz
  | succ n => rfl

/-- The proof data: the arrays as the region finds them; the inputs' buffers at their blocks; the output's at what
    the last step stores; the invariant above; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => stepOut V c t (accBefore V c t.val t.isLt)
  Φ t := Phi V c t.val (Nat.le_of_lt_succ t.isLt)
  q _ := fullShare
  owed _ := 0

theorem A_eq (c : Dev nD) (w : Fin cfg2.W) : (dat V c).A w = V c (Pipeline.arrRef spec2 w) := by dsimp only [dat]
theorem Phi_castSucc (c : Dev nD) (t : Fin cfg2.N) : (dat V c).Φ t.castSucc = Phi V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = stepOut V c t (accBefore V c t.val t.isLt) := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The closed forms say which case the point is in; the invariant hands the body the
    accumulator (at anything for the clearing case, at what the point before left otherwise) and takes it back at
    this point's value; before the last step the output block goes back as it came; the core owes nothing. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [accAt_eq V c t]
  by_cases hA : condA (grid2.coords t)
  · by_cases hL : condL (grid2.coords t)
    · exfalso; have h1 := (hcondA t).mp hA; have h2 := (hcondL t).mp hL; omega
    · rw [Dat.leavesExact_idle (dat V c) 2 t (idle_out t hL) (noflush_out t hL)]
      rw [show stepAcc V c t (accBefore V c t.val t.isLt) = sA V c t hA hL from by unfold stepAcc; rw [dif_pos hA, dif_neg hL]]
      unfold sA
      have hin : (dat V c).Φ t.castSucc ⊢ (iprop((∃ d, owns (c : Thread nD τ) acc fullShare d) ∗ rest c ∗ (∃ r, prngReg c r)) : sProp 𝕄) := by
        rw [Phi_castSucc V c t]
        by_cases hz : t.val = 0
        · rw [Phi_zero V c _ _ hz]
        · rw [Phi_pos V c _ _ hz]
          iintro ⟨HS, Hr⟩
          isplitl [HS]; · iexists _; iexact HS
          iexact Hr
      iintro ⟨HΦ, Ho, ⟨%d0, H0⟩, ⟨%d1, H1⟩, ⟨%d2, H2⟩⟩
      ihave HΦ' := hin $$ HΦ
      icases HΦ' with ⟨HS, Hr⟩
      iapply ((runA c (grid2.coords t) _ _ _ _ _ _ _ _ hA hL (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverA V c t hA hL)
        iexact Hr
      isplitl [Ho]; · iexact Ho
      isplitl [H0]; · iexact H0
      isplitl [H1]; · iexact H1
      iexists _; iexact H2
  · have hz : t.val ≠ 0 := fun h => hA ((hcondA t).mpr (by rw [h]))
    rw [Phi_castSucc V c t, Phi_pos V c _ _ hz, accBefore_pos V c _ _ hz]
    by_cases hL : condL (grid2.coords t)
    · rw [show (dat V c).leavesExact 2 t = owns (c : Thread nD τ) (ms_2 t) fullShare ((dat V c).after 2 t) from by
        unfold Dat.leavesExact; rw [live_out t hL], after_2]
      rw [accBefore_pos V c _ _ hz]
      rw [show stepAcc V c t (accAt V c (t.val - 1) (by omega)) = sC V c t hA hL (accAt V c (t.val - 1) (by omega)) from by unfold stepAcc; rw [dif_neg hA, dif_pos hL]]
      rw [show stepOut V c t (accAt V c (t.val - 1) (by omega)) = oC V c t hA hL (accAt V c (t.val - 1) (by omega)) from by unfold stepOut; rw [dif_neg hA, dif_pos hL]]
      unfold sC oC
      iintro ⟨⟨HS, Hr⟩, Ho, ⟨%d0, H0⟩, ⟨%d1, H1⟩, ⟨%d2, H2⟩⟩
      iapply ((runC c (grid2.coords t) _ _ _ _ _ _ _ _ hA hL (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverCs V c t hA hL _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverCo V c t hA hL _)
    · rw [Dat.leavesExact_idle (dat V c) 2 t (idle_out t hL) (noflush_out t hL)]
      rw [show stepAcc V c t (accAt V c (t.val - 1) (by omega)) = sB V c t hA hL (accAt V c (t.val - 1) (by omega)) from by unfold stepAcc; rw [dif_neg hA, dif_neg hL]]
      unfold sB
      iintro ⟨⟨HS, Hr⟩, Ho, ⟨%d0, H0⟩, ⟨%d1, H1⟩, ⟨%d2, H2⟩⟩
      iapply ((runB c (grid2.coords t) _ _ _ _ _ _ _ _ hA hL (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverB V c t hA hL _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W2, bigSep_W2]
  exact sound_body V c t

/-- The generator register and the scoped buffers the windows do not stage make the invariant before the first
    point: the accumulator is one of those buffers, whole, at some contents. -/
theorem Phi_in (c : Dev nD) :
    (iprop((∃ r, prngReg c r) ∗ Pipeline.scopedRest (Ix := Unit) (Name := ℕ) (U := UR sig nD τ) (Lvl := ℕ) (Val := Elt F) spec2 c) : sProp 𝕄) ⊢ (dat V c).Φ 0 := by
  rw [show (dat V c).Φ 0 = Phi V c 0 (Nat.zero_le _) from rfl, Phi_zero V c 0 _ rfl, scopedRest2_split]
  simp only [acc, owns_whole]
  iintro ⟨Hp, Hs, Hr⟩
  isplitl [Hs]; · iexact Hs
  isplitl [Hr]; · iexact Hr
  iexact Hp

/-- After the last point the invariant gives them back, the accumulator's value forgotten. -/
theorem Phi_out (c : Dev nD) :
    (dat V c).Φ (Fin.last cfg2.N) ⊢ (iprop((∃ r, prngReg c r) ∗ Pipeline.scopedRest (Ix := Unit) (Name := ℕ) (U := UR sig nD τ) (Lvl := ℕ) (Val := Elt F) spec2 c) : sProp 𝕄) := by
  rw [show (dat V c).Φ (Fin.last cfg2.N) = Phi V c cfg2.N (Nat.le_refl _) from rfl,
    Phi_pos V c _ _ (by have : cfg2.N = 32 := N_2; omega), scopedRest2_split]
  simp only [acc, owns_whole]
  iintro ⟨Hs, Hr, Hp⟩
  isplitl [Hp]; · iexact Hp
  isplitl [Hs]; · iexists _; iexact Hs
  iexact Hr

end

end Cert.KernelIdeal.R2

end
-- ==== Proof.R3Runs.lean ====
/-
  Region 3 multiplies a row block of its left operand by its right operand in four steps along the contracted
  axis: at step 0 of a row block the accumulator is cleared, at every step the product of the step's two blocks is
  added to it, at step 3 the accumulator is copied to the output block. This module decides at which grid points
  each of the two conditions holds (the grid is row-block-major: point t is row block t / 4, step t % 4), says where
  the output window is idle, and runs the body once for each of the three combinations the grid meets.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block", as the body computes it from the grid coordinates. -/
abbrev condA (i : grid3.Coords) : Prop := (Scalar.cmpi .ne (Scalar.extui (Scalar.cmpi .eq (BitVec.ofNat 32 (i 1).val) 0#32)) 0#32) = 1#1
theorem hcondA : ∀ t : Fin cfg3.N, condA (grid3.coords t) ↔ t.val % 4 = 0 :=
  (by decide +kernel : ∀ t : Fin grid3.N, condA (grid3.coords t) ↔ t.val % 4 = 0)

/-- "this is the last step of a row block". -/
abbrev condL (i : grid3.Coords) : Prop := k3_cond2 i = 1#1
theorem hcondL : ∀ t : Fin cfg3.N, condL (grid3.coords t) ↔ t.val % 4 = 3 :=
  (by decide +kernel : ∀ t : Fin grid3.N, condL (grid3.coords t) ↔ t.val % 4 = 3)

/-- The two input windows are read at every point. -/
theorem live_0 : ∀ t : Fin cfg3.N, cfg3.idle 0 (grid3.coords t) = false := by decide +kernel
theorem live_1 : ∀ t : Fin cfg3.N, cfg3.idle 1 (grid3.coords t) = false := by decide +kernel
/-- Before the last step nothing is stored into the output block and it is not written back. -/
theorem idle_out : ∀ t : Fin cfg3.N, ¬condL (grid3.coords t) → cfg3.idle 2 (grid3.coords t) = true := by decide +kernel
theorem noflush_out : ∀ t : Fin cfg3.N, ¬condL (grid3.coords t) → (cfg3.win 2).flush t = false := by decide +kernel
/-- At the last step the output block is stored. -/
theorem live_out : ∀ t : Fin cfg3.N, condL (grid3.coords t) → cfg3.idle 2 (grid3.coords t) = false := by decide +kernel

/-- The staging memrefs the body is called with at point t, and the accumulator. -/
abbrev ms_0 (t : Fin cfg3.N) : Memref sig .tc .vmem S1024x2048 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x256 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S1024x256 .f32 := win3_2.stage (cfg3.slots t 2)
abbrev hs_2 (t : Fin cfg3.N) : (ms_2 t).IsWhole := hstage3_2 ((cfg3.slots t 2).cast nbuf3_2)
abbrev acc : Memref sig .tc .vmem S1024x256 .f32 := Memref.whole cc3_scratch0
abbrev accV : View sig .tc .vmem S1024x256 .f32 := (acc).view
abbrev outV : View sig .tc .vmem S1024x256 .f32 := (Memref.whole cc3_stg2_0 : Memref sig .tc .vmem S1024x256 .f32).view

set_option maxHeartbeats 4000000 in
/-- Step 0 of a row block, not the last: from the two input blocks, the output block at anything handed back
    untouched, and the accumulator at anything, the body ends with the accumulator holding the pieces it stored. -/
noncomputable def runA (c : Dev nD) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : condA i) (hL : ¬condL i) (x0 : Vec F S1024x2048 .f32) (x1 : Vec F S2048x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, fun xo E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- A middle step: the accumulator enters at what the step before left in it. -/
noncomputable def runB (c : Dev nD) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : ¬condL i) (x0 : Vec F S1024x2048 .f32) (x1 : Vec F S2048x256 .f32) (xs : Vec F S1024x256 .f32) :
    { LS : List (View.Piece (Elt F) S1024x256 .f32) //
      ∀ (xo : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, fun xo E K => ?run⟩
  case run =>
    simp only [cc3__matmul_kernel_eq_skeleton]; unfold cc3__matmul_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 4000000 in
/-- The last step: the accumulator enters at what the step before left; the output block (at anything) ends
    holding the pieces stored into it. -/
noncomputable def runC (c : Dev nD) (i : grid3.Coords) (arg2 : Memref sig .tc .vmem S1024x2048 .f32) (harg2 : arg2.IsWhole) (arg3 : Memref sig .tc .vmem S2048x256 .f32) (harg3 : arg3.IsWhole) (arg4 : Memref sig .tc .vmem S1024x256 .f32) (harg4 : arg4.IsWhole) (arg5 : Memref sig .tc .vmem S1024x256 .f32) (harg5 : arg5.IsWhole)
    (hA : ¬condA i) (hL : condL i) (x0 : Vec F S1024x2048 .f32) (x1 : Vec F S2048x256 .f32) (xs : Vec F S1024x256 .f32) :
    Σ' (LO : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc3__matmul_kernel i arg2 harg2 arg3 harg3 arg4 harg4 arg5 harg5) K } := by
  refine ⟨?_, ?_, fun E K => ?run⟩
  case run =>
    simp only [cc3__matmul_kernel_eq_skeleton]; unfold cc3__matmul_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R3

end
-- ==== Proof.R3Body.lean ====
/-
  Region 3, the proof data and the body obligation, at any contents V of the core's buffers at the region's entry.

  The accumulator after point t is defined by recursion on the point: at step 0 of a row block it is what the
  clearing case leaves from the point's two input blocks alone; at a later step it is what the adding case leaves
  from the two blocks and the accumulator of the point before. The output block after the last step of a row block
  is what that case stores from the accumulator. Between points the invariant holds the accumulator at exactly
  this value, beside the scoped buffers the region does not use and the generator register.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import proofs.«126198_j83554293777022_1_alg».proof.Proof.R3Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The clearing case's accumulator, from the point's two blocks. -/
def sA (c : Dev nD) (t : Fin cfg3.N) (hA : condA (grid3.coords t)) (hL : ¬condL (grid3.coords t)) : Vec F S1024x256 .f32 :=
  accV.read (Elt F) (accV.writes (Elt F) accV.junk (runA c (grid3.coords t) (ms_0 t) (hs_0 t) (ms_1 t) (hs_1 t) (ms_2 t) (hs_2 t) acc (Memref.isWhole_whole _) hA hL (iblk V c 0 t) (iblk V c 1 t)).1)
theorem coverA (c : Dev nD) (t : Fin cfg3.N) (hA : condA (grid3.coords t)) (hL : ¬condL (grid3.coords t)) (y : S1024x256.Idx) :
    ∃ pc ∈ (runA c (grid3.coords t) (ms_0 t) (hs_0 t) (ms_1 t) (hs_1 t) (ms_2 t) (hs_2 t) acc (Memref.isWhole_whole _) hA hL (iblk V c 0 t) (iblk V c 1 t)).1, y ∈ pc.1.set :=
  View.cover_of_tiledL _ S1024x256.size (by sl_kernel_rfl) y

/-- The adding case's accumulator, from the two blocks and the accumulator before. -/
def sB (c : Dev nD) (t : Fin cfg3.N) (hA : ¬condA (grid3.coords t)) (hL : ¬condL (grid3.coords t)) (xs : Vec F S1024x256 .f32) : Vec F S1024x256 .f32 :=
  accV.read (Elt F) (accV.writes (Elt F) accV.junk (runB c (grid3.coords t) (ms_0 t) (hs_0 t) (ms_1 t) (hs_1 t) (ms_2 t) (hs_2 t) acc (Memref.isWhole_whole _) hA hL (iblk V c 0 t) (iblk V c 1 t) xs).1)
theorem coverB (c : Dev nD) (t : Fin cfg3.N) (hA : ¬condA (grid3.coords t)) (hL : ¬condL (grid3.coords t)) (xs : Vec F S1024x256 .f32) (y : S1024x256.Idx) :
    ∃ pc ∈ (runB c (grid3.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-- The last step's accumulator and output block. -/
def sC (c : Dev nD) (t : Fin cfg3.N) (hA : ¬condA (grid3.coords t)) (hL : condL (grid3.coords t)) (xs : Vec F S1024x256 .f32) : Vec F S1024x256 .f32 :=
  accV.read (Elt F) (accV.writes (Elt F) accV.junk (runC c (grid3.coords t) (ms_0 t) (hs_0 t) (ms_1 t) (hs_1 t) (ms_2 t) (hs_2 t) acc (Memref.isWhole_whole _) hA hL (iblk V c 0 t) (iblk V c 1 t) xs).2.1)
theorem coverCs (c : Dev nD) (t : Fin cfg3.N) (hA : ¬condA (grid3.coords t)) (hL : condL (grid3.coords t)) (xs : Vec F S1024x256 .f32) (y : S1024x256.Idx) :
    ∃ pc ∈ (runC c (grid3.coords t) (ms_0 t) (hs_0 t) (ms_1 t) (hs_1 t) (ms_2 t) (hs_2 t) acc (Memref.isWhole_whole _) hA hL (iblk V c 0 t) (iblk V c 1 t) xs).2.1, y ∈ pc.1.set :=
  View.cover_of_tiledL _ S1024x256.size (by sl_kernel_rfl) y
def oC (c : Dev nD) (t : Fin cfg3.N) (hA : ¬condA (grid3.coords t)) (hL : condL (grid3.coords t)) (xs : Vec F S1024x256 .f32) : Vec F S1024x256 .f32 :=
  outV.read (Elt F) (outV.writes (Elt F) outV.junk (runC c (grid3.coords t) (ms_0 t) (hs_0 t) (ms_1 t) (hs_1 t) (ms_2 t) (hs_2 t) acc (Memref.isWhole_whole _) hA hL (iblk V c 0 t) (iblk V c 1 t) xs).1)
theorem coverCo (c : Dev nD) (t : Fin cfg3.N) (hA : ¬condA (grid3.coords t)) (hL : condL (grid3.coords t)) (xs : Vec F S1024x256 .f32) (y : S1024x256.Idx) :
    ∃ pc ∈ (runC c (grid3.coords t) (ms_0 t) (hs_0 t) (ms_1 t) (hs_1 t) (ms_2 t) (hs_2 t) acc (Memref.isWhole_whole _) hA hL (iblk V c 0 t) (iblk V c 1 t) xs).1, y ∈ pc.1.set :=
  View.cover_of_tiledL _ S1024x256.size (by sl_kernel_rfl) y

/-! ## The accumulation -/

/-- One point's effect on the accumulator, given the accumulator before it (ignored at step 0). -/
def stepAcc (c : Dev nD) (t : Fin cfg3.N) (prev : Vec F S1024x256 .f32) : Vec F S1024x256 .f32 :=
  if hA : condA (grid3.coords t) then (if hL : condL (grid3.coords t) then prev else sA V c t hA hL)
  else if hL : condL (grid3.coords t) then sC V c t hA hL prev else sB V c t hA hL prev
/-- What the last step stores into the output block (elsewhere a value nothing consults). -/
def stepOut (c : Dev nD) (t : Fin cfg3.N) (prev : Vec F S1024x256 .f32) : Vec F S1024x256 .f32 :=
  if hA : condA (grid3.coords t) then prev
  else if hL : condL (grid3.coords t) then oC V c t hA hL prev else prev

/-- The accumulator after the point at position n. -/
def accAt (c : Dev nD) : (n : ℕ) → n < cfg3.N → Vec F S1024x256 .f32
  | 0, hn => stepAcc V c ⟨0, hn⟩ (k3_pay1 (F := F))
  | n + 1, hn => stepAcc V c ⟨n + 1, hn⟩ (accAt c n (Nat.lt_of_succ_lt hn))
/-- The accumulator before the point at position n (anything at the first point). -/
def accBefore (c : Dev nD) : (n : ℕ) → n < cfg3.N → Vec F S1024x256 .f32
  | 0, _ => k3_pay1 (F := F)
  | n + 1, hn => accAt V c n (Nat.lt_of_succ_lt hn)
theorem accAt_eq (c : Dev nD) (t : Fin cfg3.N) : accAt V c t.val t.isLt = stepAcc V c t (accBefore V c t.val t.isLt) := by
  obtain ⟨n, hn⟩ := t
  cases n with
  | zero => rfl
  | succ n => rfl
theorem accBefore_pos (c : Dev nD) (n : ℕ) (hn : n < cfg3.N) (hz : n ≠ 0) :
    accBefore V c n hn = accAt V c (n - 1) (by omega) := by
  cases n with
  | zero => exact absurd rfl hz
  | succ n => rfl

/-! ## The invariant and the proof data -/

/-- The scoped buffers the region does not use. -/
abbrev rest (c : Dev nD) : sProp 𝕄 := Pipeline.scopedRestBut (Ix := Unit) (Name := ℕ) (U := UR sig nD τ) (Lvl := ℕ) (Val := Elt F) spec3 c [cc3_scratch0]

/-- Before position n: the accumulator at anything before the first point, then at what the point before left. -/
def Phi (c : Dev nD) : (n : ℕ) → n ≤ cfg3.N → sProp 𝕄
  | 0, _ => iprop((∃ d, owns (c : Thread nD τ) acc fullShare d) ∗ rest c ∗ (∃ r, prngReg c r))
  | n + 1, hn => iprop(owns (c : Thread nD τ) acc fullShare (accAt V c n hn) ∗ rest c ∗ (∃ r, prngReg c r))
theorem Phi_zero (c : Dev nD) (n : ℕ) (h : n ≤ cfg3.N) (hz : n = 0) :
    Phi V c n h = iprop((∃ d, owns (c : Thread nD τ) acc fullShare d) ∗ rest c ∗ (∃ r, prngReg c r)) := by
  subst hz; rfl
theorem Phi_succ (c : Dev nD) (n : ℕ) (hn : n < cfg3.N) :
    Phi V c (n + 1) hn = iprop(owns (c : Thread nD τ) acc fullShare (accAt V c n hn) ∗ rest c ∗ (∃ r, prngReg c r)) := rfl
theorem Phi_pos (c : Dev nD) (n : ℕ) (h : n ≤ cfg3.N) (hz : n ≠ 0) :
    Phi V c n h = iprop(owns (c : Thread nD τ) acc fullShare (accAt V c (n - 1) (by omega)) ∗ rest c ∗ (∃ r, prngReg c r)) := by
  cases n with
  | zero => exact absurd rfl hz
  | succ n => rfl

/-- The proof data: the arrays as the region finds them; the inputs' buffers at their blocks; the output's at what
    the last step stores; the invariant above; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => stepOut V c t (accBefore V c t.val t.isLt)
  Φ t := Phi V c t.val (Nat.le_of_lt_succ t.isLt)
  q _ := fullShare
  owed _ := 0

theorem A_eq (c : Dev nD) (w : Fin cfg3.W) : (dat V c).A w = V c (Pipeline.arrRef spec3 w) := by dsimp only [dat]
theorem Phi_castSucc (c : Dev nD) (t : Fin cfg3.N) : (dat V c).Φ t.castSucc = Phi V c t.val (Nat.le_of_lt t.isLt) := by
  dsimp only [dat]; simp only [Fin.coe_castSucc]
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = stepOut V c t (accBefore V c t.val t.isLt) := by dsimp only [dat]
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The closed forms say which case the point is in; the invariant hands the body the
    accumulator (at anything for the clearing case, at what the point before left otherwise) and takes it back at
    this point's value; before the last step the output block goes back as it came; the core owes nothing. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [accAt_eq V c t]
  by_cases hA : condA (grid3.coords t)
  · by_cases hL : condL (grid3.coords t)
    · exfalso; have h1 := (hcondA t).mp hA; have h2 := (hcondL t).mp hL; omega
    · rw [Dat.leavesExact_idle (dat V c) 2 t (idle_out t hL) (noflush_out t hL)]
      rw [show stepAcc V c t (accBefore V c t.val t.isLt) = sA V c t hA hL from by unfold stepAcc; rw [dif_pos hA, dif_neg hL]]
      unfold sA
      have hin : (dat V c).Φ t.castSucc ⊢ (iprop((∃ d, owns (c : Thread nD τ) acc fullShare d) ∗ rest c ∗ (∃ r, prngReg c r)) : sProp 𝕄) := by
        rw [Phi_castSucc V c t]
        by_cases hz : t.val = 0
        · rw [Phi_zero V c _ _ hz]
        · rw [Phi_pos V c _ _ hz]
          iintro ⟨HS, Hr⟩
          isplitl [HS]; · iexists _; iexact HS
          iexact Hr
      iintro ⟨HΦ, Ho, ⟨%d0, H0⟩, ⟨%d1, H1⟩, ⟨%d2, H2⟩⟩
      ihave HΦ' := hin $$ HΦ
      icases HΦ' with ⟨HS, Hr⟩
      iapply ((runA c (grid3.coords t) _ _ _ _ _ _ _ _ hA hL (iblk V c 0 t) (iblk V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverA V c t hA hL)
        iexact Hr
      isplitl [Ho]; · iexact Ho
      isplitl [H0]; · iexact H0
      isplitl [H1]; · iexact H1
      iexists _; iexact H2
  · have hz : t.val ≠ 0 := fun h => hA ((hcondA t).mpr (by rw [h]))
    rw [Phi_castSucc V c t, Phi_pos V c _ _ hz, accBefore_pos V c _ _ hz]
    by_cases hL : condL (grid3.coords t)
    · rw [show (dat V c).leavesExact 2 t = owns (c : Thread nD τ) (ms_2 t) fullShare ((dat V c).after 2 t) from by
        unfold Dat.leavesExact; rw [live_out t hL], after_2]
      rw [accBefore_pos V c _ _ hz]
      rw [show stepAcc V c t (accAt V c (t.val - 1) (by omega)) = sC V c t hA hL (accAt V c (t.val - 1) (by omega)) from by unfold stepAcc; rw [dif_neg hA, dif_pos hL]]
      rw [show stepOut V c t (accAt V c (t.val - 1) (by omega)) = oC V c t hA hL (accAt V c (t.val - 1) (by omega)) from by unfold stepOut; rw [dif_neg hA, dif_pos hL]]
      unfold sC oC
      iintro ⟨⟨HS, Hr⟩, Ho, ⟨%d0, H0⟩, ⟨%d1, H1⟩, ⟨%d2, H2⟩⟩
      iapply ((runC c (grid3.coords t) _ _ _ _ _ _ _ _ hA hL (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hr]
      · isplitl [HS]
        · unfold owns; iexists _; isplitr
          swap; · iexact HS
          ipureintro; exact View.read_writes_of_cover _ _ _ _ _ (coverCs V c t hA hL _)
        iexact Hr
      isplitl [Ho]; · iexact Ho
      isplitl [H0]; · iexact H0
      isplitl [H1]; · iexact H1
      unfold owns; iexists _; isplitr
      swap; · iexact H2
      ipureintro; exact View.read_writes_of_cover _ _ _ _ _ (coverCo V c t hA hL _)
    · rw [Dat.leavesExact_idle (dat V c) 2 t (idle_out t hL) (noflush_out t hL)]
      rw [show stepAcc V c t (accAt V c (t.val - 1) (by omega)) = sB V c t hA hL (accAt V c (t.val - 1) (by omega)) from by unfold stepAcc; rw [dif_neg hA, dif_neg hL]]
      unfold sB
      iintro ⟨⟨HS, Hr⟩, Ho, ⟨%d0, H0⟩, ⟨%d1, H1⟩, ⟨%d2, H2⟩⟩
      iapply ((runB c (grid3.coords t) _ _ _ _ _ _ _ _ hA hL (iblk V c 0 t) (iblk V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hr]
      · isplitl [HS]
        · unfold owns; iexists _; isplitr
          swap; · iexact HS
          ipureintro; exact View.read_writes_of_cover _ _ _ _ _ (coverB V c t hA hL _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W3, bigSep_W3]
  exact sound_body V c t

/-- The generator register and the scoped buffers the windows do not stage make the invariant before the first
    point: the accumulator is one of those buffers, whole, at some contents. -/
theorem Phi_in (c : Dev nD) :
    (iprop((∃ r, prngReg c r) ∗ Pipeline.scopedRest (Ix := Unit) (Name := ℕ) (U := UR sig nD τ) (Lvl := ℕ) (Val := Elt F) spec3 c) : sProp 𝕄) ⊢ (dat V c).Φ 0 := by
  rw [show (dat V c).Φ 0 = Phi V c 0 (Nat.zero_le _) from rfl, Phi_zero V c 0 _ rfl, scopedRest3_split]
  simp only [acc, owns_whole]
  iintro ⟨Hp, Hs, Hr⟩
  isplitl [Hs]; · iexact Hs
  isplitl [Hr]; · iexact Hr
  iexact Hp

/-- After the last point the invariant gives them back, the accumulator's value forgotten. -/
theorem Phi_out (c : Dev nD) :
    (dat V c).Φ (Fin.last cfg3.N) ⊢ (iprop((∃ r, prngReg c r) ∗ Pipeline.scopedRest (Ix := Unit) (Name := ℕ) (U := UR sig nD τ) (Lvl := ℕ) (Val := Elt F) spec3 c) : sProp 𝕄) := by
  rw [show (dat V c).Φ (Fin.last cfg3.N) = Phi V c cfg3.N (Nat.le_refl _) from rfl,
    Phi_pos V c _ _ (by have : cfg3.N = 32 := N_3; omega), scopedRest3_split]
  simp only [acc, owns_whole]
  iintro ⟨Hs, Hr, Hp⟩
  isplitl [Hp]; · iexact Hp
  isplitl [Hs]; · iexists _; iexact Hs
  iexact Hr

end

end Cert.KernelIdeal.R3

end
-- ==== Proof.R4Runs.lean ====
/-
  Region 4 multiplies a row block of its left operand by its whole right operand in ONE step along the contracted
  axis: every point is both the first and the last step of its row block, so at every point the accumulator is
  cleared, the product of the two blocks is added, and the result is stored to the output block. This module
  says so (both conditions hold at every grid point; no window is ever idle) and runs the body for that one case.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "this is step 0 of a row block": at every point. -/
abbrev condA (i : grid4.Coords) : Prop := (Scalar.cmpi .ne (Scalar.extui (Scalar.cmpi .eq (BitVec.ofNat 32 (i 1).val) 0#32)) 0#32) = 1#1
theorem hcondA : ∀ t : Fin cfg4.N, condA (grid4.coords t) :=
  (by decide +kernel : ∀ t : Fin grid4.N, condA (grid4.coords t))
/-- "this is the last step of a row block": at every point. -/
abbrev condL (i : grid4.Coords) : Prop := k4_cond2 i = 1#1
theorem hcondL : ∀ t : Fin cfg4.N, condL (grid4.coords t) :=
  (by decide +kernel : ∀ t : Fin grid4.N, condL (grid4.coords t))

theorem live_0 : ∀ t : Fin cfg4.N, cfg4.idle 0 (grid4.coords t) = false := by decide +kernel
theorem live_1 : ∀ t : Fin cfg4.N, cfg4.idle 1 (grid4.coords t) = false := by decide +kernel
theorem live_2 : ∀ t : Fin cfg4.N, cfg4.idle 2 (grid4.coords t) = false := by decide +kernel

abbrev ms_0 (t : Fin cfg4.N) : Memref sig .tc .vmem S2048x256 .f32 := win4_0.stage (cfg4.slots t 0)
abbrev hs_0 (t : Fin cfg4.N) : (ms_0 t).IsWhole := hstage4_0 ((cfg4.slots t 0).cast nbuf4_0)
abbrev ms_1 (t : Fin cfg4.N) : Memref sig .tc .vmem S256x256 .f32 := win4_1.stage (cfg4.slots t 1)
abbrev hs_1 (t : Fin cfg4.N) : (ms_1 t).IsWhole := hstage4_1 ((cfg4.slots t 1).cast nbuf4_1)
abbrev ms_2 (t : Fin cfg4.N) : Memref sig .tc .vmem S2048x256 .f32 := win4_2.stage (cfg4.slots t 2)
abbrev hs_2 (t : Fin cfg4.N) : (ms_2 t).IsWhole := hstage4_2 ((cfg4.slots t 2).cast nbuf4_2)
abbrev acc : Memref sig .tc .vmem S2048x256 .f32 := Memref.whole cc4_scratch0
abbrev accV : View sig .tc .vmem S2048x256 .f32 := (acc).view
abbrev outV : View sig .tc .vmem S2048x256 .f32 := (Memref.whole cc4_stg2_0 : Memref sig .tc .vmem S2048x256 .f32).view

set_option maxHeartbeats 4000000 in
/-- The one case: from the two input blocks, the output block and the accumulator at anything, the body ends with
    both holding the pieces it stored. -/
noncomputable def runD (c : Dev nD) (i : grid4.Coords) (arg2 : Memref sig .tc .vmem S2048x256 .f32) (harg2 : arg2.IsWhole) (arg3 : Memref sig .tc .vmem S256x256 .f32) (harg3 : arg3.IsWhole) (arg4 : Memref sig .tc .vmem S2048x256 .f32) (harg4 : arg4.IsWhole) (arg5 : Memref sig .tc .vmem S2048x256 .f32) (harg5 : arg5.IsWhole)
    (hA : condA i) (hL : condL i) (x0 : Vec F S2048x256 .f32) (x1 : Vec F S256x256 .f32) :
    Σ' (LO : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc4__matmul_kernel i arg2 harg2 arg3 harg3 arg4 harg4 arg5 harg5) K } := by
  refine ⟨?_, ?_, fun E K => ?run⟩
  case run =>
    simp only [cc4__matmul_kernel_eq_skeleton]; unfold cc4__matmul_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hA | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.R4

end
-- ==== Proof.R4Body.lean ====
/-
  Region 4, the proof data and the body obligation, at any contents V of the core's buffers at the region's entry.
  Every point clears the accumulator, adds the product of its two blocks and stores the result to the output
  block, so nothing is carried from one point to the next: between points the invariant holds the accumulator at
  some contents, beside the scoped buffers the region does not use and the generator register.
-/
import proofs.«126198_j83554293777022_1_alg».proof.Proof.Gen.KernelIdeal.Launch
import proofs.«126198_j83554293777022_1_alg».proof.Proof.Gen.KernelIdeal.Skeleton
import proofs.«126198_j83554293777022_1_alg».proof.Proof.Gen.KernelIdeal.Points
import proofs.«126198_j83554293777022_1_alg».proof.Proof.R4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window w's block at point t, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before_0_of {c : Dev nD} (dat : Dat τ (Elt F) Unit ℕ (UR sig nD τ) ℕ cfg4 c) (hA : dat.A 0 = V c (Pipeline.arrRef spec4 0))
    (hafter : ∀ t, dat.after 0 t = iblk V c 0 t) (t : Fin cfg4.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg4 c) (hA : dat.A 1 = V c (Pipeline.arrRef spec4 1))
    (hafter : ∀ t, dat.after 1 t = iblk V c 1 t) (t : Fin cfg4.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- What the point leaves in the accumulator and in the output block, from its two blocks. -/
def sD (c : Dev nD) (t : Fin cfg4.N) : Vec F S2048x256 .f32 :=
  accV.read (Elt F) (accV.writes (Elt F) accV.junk (runD c (grid4.coords t) (ms_0 t) (hs_0 t) (ms_1 t) (hs_1 t) (ms_2 t) (hs_2 t) acc (Memref.isWhole_whole _) (hcondA t) (hcondL t) (iblk V c 0 t) (iblk V c 1 t)).2.1)
theorem coverDs (c : Dev nD) (t : Fin cfg4.N) (y : S2048x256.Idx) :
    ∃ pc ∈ (runD c (grid4.coords t) (ms_0 t) (hs_0 t) (ms_1 t) (hs_1 t) (ms_2 t) (hs_2 t) acc (Memref.isWhole_whole _) (hcondA t) (hcondL t) (iblk V c 0 t) (iblk V c 1 t)).2.1, y ∈ pc.1.set :=
  View.cover_of_tiledL _ S2048x256.size (by sl_kernel_rfl) y
def oD (c : Dev nD) (t : Fin cfg4.N) : Vec F S2048x256 .f32 :=
  outV.read (Elt F) (outV.writes (Elt F) outV.junk (runD c (grid4.coords t) (ms_0 t) (hs_0 t) (ms_1 t) (hs_1 t) (ms_2 t) (hs_2 t) acc (Memref.isWhole_whole _) (hcondA t) (hcondL t) (iblk V c 0 t) (iblk V c 1 t)).1)
theorem coverDo (c : Dev nD) (t : Fin cfg4.N) (y : S2048x256.Idx) :
    ∃ pc ∈ (runD c (grid4.coords t) (ms_0 t) (hs_0 t) (ms_1 t) (hs_1 t) (ms_2 t) (hs_2 t) acc (Memref.isWhole_whole _) (hcondA t) (hcondL t) (iblk V c 0 t) (iblk V c 1 t)).1, y ∈ pc.1.set :=
  View.cover_of_tiledL _ S2048x256.size (by sl_kernel_rfl) y

/-- The scoped buffers the region does not use. -/
abbrev rest (c : Dev nD) : sProp 𝕄 := Pipeline.scopedRestBut (Ix := Unit) (Name := ℕ) (U := UR sig nD τ) (Lvl := ℕ) (Val := Elt F) spec4 c [cc4_scratch0]

/-- Between points: the accumulator at some contents, the unused scoped buffers, the generator register. -/
def Phi (c : Dev nD) : sProp 𝕄 := iprop((∃ d, owns (c : Thread nD τ) acc fullShare d) ∗ rest c ∗ (∃ r, prngReg c r))

/-- The proof data: the arrays as the region finds them; the inputs' buffers at their blocks; the output's at what
    the point stores; the invariant above; nothing owed; full shares. -/
def dat (c : Dev nD) : Dat τ (Elt F) Unit ℕ (UR sig nD τ) ℕ cfg4 c where
  A w := V c (Pipeline.arrRef spec4 w)
  after w t := match w with
    | ⟨0, _⟩ => iblk V c 0 t
    | ⟨1, _⟩ => iblk V c 1 t
    | ⟨2, _⟩ => oD V c t
  Φ _ := Phi c
  q _ := fullShare
  owed _ := 0

theorem A_eq (c : Dev nD) (w : Fin cfg4.W) : (dat V c).A w = V c (Pipeline.arrRef spec4 w) := by dsimp only [dat]
theorem after_0 (c : Dev nD) (t : Fin cfg4.N) : (dat V c).after 0 t = iblk V c 0 t := by dsimp only [dat]
theorem after_1 (c : Dev nD) (t : Fin cfg4.N) : (dat V c).after 1 t = iblk V c 1 t := by dsimp only [dat]
theorem after_2 (c : Dev nD) (t : Fin cfg4.N) : (dat V c).after 2 t = oD V c t := by dsimp only [dat]
theorem before_0 (c : Dev nD) (t : Fin cfg4.N) (d) : (dat V c).before 0 t d = iblk V c 0 t :=
  before_0_of V (dat V c) (A_eq V c 0) (after_0 V c) t d
theorem before_1 (c : Dev nD) (t : Fin cfg4.N) (d) : (dat V c).before 1 t d = iblk V c 1 t :=
  before_1_of V (dat V c) (A_eq V c 1) (after_1 V c) t d

def bodyPre (c : Dev nD) (t : Fin cfg4.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg4.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the one case's run; the invariant and what the core owes pass through. -/
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1]
  rw [show (dat V c).owesAt () t.succ = (dat V c).owesAt () t.castSucc from rfl]
  rw [show (dat V c).Φ t.succ = Phi c from rfl, show (dat V c).Φ t.castSucc = Phi c from rfl]
  rw [show (dat V c).leavesExact 0 t = owns (c : Thread nD τ) (ms_0 t) fullShare ((dat V c).after 0 t) from by
    unfold Dat.leavesExact; rw [live_0 t], after_0]
  rw [show (dat V c).leavesExact 1 t = owns (c : Thread nD τ) (ms_1 t) fullShare ((dat V c).after 1 t) from by
    unfold Dat.leavesExact; rw [live_1 t], after_1]
  rw [show (dat V c).leavesExact 2 t = owns (c : Thread nD τ) (ms_2 t) fullShare ((dat V c).after 2 t) from by
    unfold Dat.leavesExact; rw [live_2 t], after_2]
  unfold Phi oD
  iintro ⟨⟨HS, Hr⟩, Ho, ⟨%d0, H0⟩, ⟨%d1, H1⟩, ⟨%d2, H2⟩⟩
  iapply ((runD c (grid4.coords t) _ _ _ _ _ _ _ _ (hcondA t) (hcondL t) (iblk V c 0 t) (iblk V c 1 t)).2.2 Set.univ _)
  isplitl [H0]; · iexact H0
  isplitl [H1]; · iexact H1
  isplitl [H2]; · iexists _; iexact H2
  isplitl [HS]; · iexact HS
  iintro ⟨H0, H1, ⟨%e2, H2⟩, ⟨%es, HS⟩⟩
  isplitl [HS Hr]
  · isplitl [HS]
    · iexists (sD V c t); unfold owns; iexists _; isplitr
      swap; · iexact HS
      ipureintro; exact View.read_writes_of_cover _ _ _ _ _ (coverDs V c t)
    iexact Hr
  isplitl [Ho]; · iexact Ho
  isplitl [H0]; · iexact H0
  isplitl [H1]; · iexact H1
  unfold owns; iexists _; isplitr
  swap; · iexact H2
  ipureintro; exact View.read_writes_of_cover _ _ _ _ _ (coverDo V c t)

/-- The library's body obligation, at every point. -/
theorem body_obligation (c : Dev nD) : BodyObligation (dat (F := F) V c) (defs₀ (F := F)) Variants.none () Set.univ := fun t => by
  rw [bigSep_W4, bigSep_W4]
  exact sound_body V c t

/-- The generator register and the scoped buffers the windows do not stage make the invariant: the accumulator is
    one of those buffers, whole, at some contents. -/
theorem Phi_in (c : Dev nD) :
    (iprop((∃ r, prngReg c r) ∗ Pipeline.scopedRest (Ix := Unit) (Name := ℕ) (U := UR sig nD τ) (Lvl := ℕ) (Val := Elt F) spec4 c) : sProp 𝕄) ⊢ (dat V c).Φ 0 := by
  rw [show (dat V c).Φ 0 = Phi c from rfl, scopedRest4_split]
  unfold Phi
  simp only [acc, owns_whole]
  iintro ⟨Hp, Hs, Hr⟩
  isplitl [Hs]; · iexact Hs
  isplitl [Hr]; · iexact Hr
  iexact Hp

/-- And the invariant gives them back. -/
theorem Phi_out (c : Dev nD) :
    (dat V c).Φ (Fin.last cfg4.N) ⊢ (iprop((∃ r, prngReg c r) ∗ Pipeline.scopedRest (Ix := Unit) (Name := ℕ) (U := UR sig nD τ) (Lvl := ℕ) (Val := Elt F) spec4 c) : sProp 𝕄) := by
  rw [show (dat V c).Φ (Fin.last cfg4.N) = Phi c from rfl, scopedRest4_split]
  unfold Phi
  simp only [acc, owns_whole]
  iintro ⟨Hs, Hr, Hp⟩
  isplitl [Hp]; · iexact Hp
  isplitl [Hs]; · iexact Hs
  iexact Hr

end

end Cert.KernelIdeal.R4

end
-- ==== Proof.KRun.lean ====
/-
  The run of the whole program. @main is four matrix-product regions, three stretches of host operations (the graph's
  degree normalisation), a fifth region, and a last stretch of host operations (the aggregation and the final
  combination). The buffers' contents at each of the nine boundaries are a fold from the launch memory: a stretch of
  host operations applies them; a region replaces its output array by what its write-backs leave and keeps every
  other buffer. Each region is a segment over its body obligation; the run chains the segments, and at the end
  every unscoped buffer holds the last boundary's contents.
-/
import proofs.«126198_j83554293777022_1_alg».proof.Proof.R0Body
import proofs.«126198_j83554293777022_1_alg».proof.Proof.R1Body
import proofs.«126198_j83554293777022_1_alg».proof.Proof.R2Body
import proofs.«126198_j83554293777022_1_alg».proof.Proof.R3Body
import proofs.«126198_j83554293777022_1_alg».proof.Proof.R4Body
import proofs.«126198_j83554293777022_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After region 0: its arrays at what its write-backs leave, every other buffer as it was. -/
def W1 (c : Dev nD) : Valuation τ sig (Elt F) :=
  Pipeline.withArrays spec0 c (W0 m ρ c) fun w => (R0.dat (V0 m ρ) c).arrAt w cfg0.N
theorem W1_arr (c : Dev nD) (w : Fin cfg0.W) :
    W1 m ρ c (Proc.devRef .tc (Pipeline.arrRef spec0 w)) = (R0.dat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (R0.dat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- Region 0 changes only its output array: an input array is never written, any other buffer bypasses it. -/
theorem W1_keep (c : Dev nD) (b : Ref sig .tc) (hb : b ≠ Pipeline.arrRef spec0 2) :
    W1 m ρ c (Proc.devRef .tc b) = W0 m ρ c (Proc.devRef .tc b) := by
  by_cases h0 : Pipeline.arrRef spec0 0 = b
  · subst h0; exact (W1_arr m ρ c 0).trans (((R0.dat (V0 m ρ) c).arrAt_in 0 rfl _).trans (R0.A_eq (V0 m ρ) c 0))
  by_cases h1 : Pipeline.arrRef spec0 1 = b
  · subst h1; exact (W1_arr m ρ c 1).trans (((R0.dat (V0 m ρ) c).arrAt_in 1 rfl _).trans (R0.A_eq (V0 m ρ) c 1))
  exact W1_of_ne m ρ c b (fun w => by
    match w with
    | ⟨0, _⟩ => exact h0
    | ⟨1, _⟩ => exact h1
    | ⟨2, _⟩ => exact fun e => hb e.symm)

/-- After region 1: its arrays at what its write-backs leave, every other buffer as it was. -/
def W2 (c : Dev nD) : Valuation τ sig (Elt F) :=
  Pipeline.withArrays spec1 c (W1 m ρ c) fun w => (R1.dat (V1 m ρ) c).arrAt w cfg1.N
theorem W2_arr (c : Dev nD) (w : Fin cfg1.W) :
    W2 m ρ c (Proc.devRef .tc (Pipeline.arrRef spec1 w)) = (R1.dat (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (R1.dat (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)
/-- Region 1 changes only its output array: an input array is never written, any other buffer bypasses it. -/
theorem W2_keep (c : Dev nD) (b : Ref sig .tc) (hb : b ≠ Pipeline.arrRef spec1 2) :
    W2 m ρ c (Proc.devRef .tc b) = W1 m ρ c (Proc.devRef .tc b) := by
  by_cases h0 : Pipeline.arrRef spec1 0 = b
  · subst h0; exact (W2_arr m ρ c 0).trans (((R1.dat (V1 m ρ) c).arrAt_in 0 rfl _).trans (R1.A_eq (V1 m ρ) c 0))
  by_cases h1 : Pipeline.arrRef spec1 1 = b
  · subst h1; exact (W2_arr m ρ c 1).trans (((R1.dat (V1 m ρ) c).arrAt_in 1 rfl _).trans (R1.A_eq (V1 m ρ) c 1))
  exact W2_of_ne m ρ c b (fun w => by
    match w with
    | ⟨0, _⟩ => exact h0
    | ⟨1, _⟩ => exact h1
    | ⟨2, _⟩ => exact fun e => hb e.symm)

/-- After region 2: its arrays at what its write-backs leave, every other buffer as it was. -/
def W3 (c : Dev nD) : Valuation τ sig (Elt F) :=
  Pipeline.withArrays spec2 c (W2 m ρ c) fun w => (R2.dat (V2 m ρ) c).arrAt w cfg2.N
theorem W3_arr (c : Dev nD) (w : Fin cfg2.W) :
    W3 m ρ c (Proc.devRef .tc (Pipeline.arrRef spec2 w)) = (R2.dat (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem hF2 (c : Dev nD) (w : Fin cfg2.W) : (R2.dat (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)
/-- Region 2 changes only its output array: an input array is never written, any other buffer bypasses it. -/
theorem W3_keep (c : Dev nD) (b : Ref sig .tc) (hb : b ≠ Pipeline.arrRef spec2 2) :
    W3 m ρ c (Proc.devRef .tc b) = W2 m ρ c (Proc.devRef .tc b) := by
  by_cases h0 : Pipeline.arrRef spec2 0 = b
  · subst h0; exact (W3_arr m ρ c 0).trans (((R2.dat (V2 m ρ) c).arrAt_in 0 rfl _).trans (R2.A_eq (V2 m ρ) c 0))
  by_cases h1 : Pipeline.arrRef spec2 1 = b
  · subst h1; exact (W3_arr m ρ c 1).trans (((R2.dat (V2 m ρ) c).arrAt_in 1 rfl _).trans (R2.A_eq (V2 m ρ) c 1))
  exact W3_of_ne m ρ c b (fun w => by
    match w with
    | ⟨0, _⟩ => exact h0
    | ⟨1, _⟩ => exact h1
    | ⟨2, _⟩ => exact fun e => hb e.symm)

/-- After region 3: its arrays at what its write-backs leave, every other buffer as it was. -/
def W4 (c : Dev nD) : Valuation τ sig (Elt F) :=
  Pipeline.withArrays spec3 c (W3 m ρ c) fun w => (R3.dat (V3 m ρ) c).arrAt w cfg3.N
theorem W4_arr (c : Dev nD) (w : Fin cfg3.W) :
    W4 m ρ c (Proc.devRef .tc (Pipeline.arrRef spec3 w)) = (R3.dat (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem hF3 (c : Dev nD) (w : Fin cfg3.W) : (R3.dat (V3 m ρ) c).arrAt w cfg3.N = V4 m ρ c (Pipeline.arrRef spec3 w) :=
  (W4_arr m ρ c w).symm
theorem hrest3 (c : Dev nD) : ∀ b, b ∉ Finset.univ.image (Pipeline.arrRef spec3) → V4 m ρ c b = V3 m ρ c b :=
  fun b hb => W4_of_ne m ρ c b fun w e => hb (Finset.mem_image.mpr ⟨w, Finset.mem_univ _, e⟩)
/-- Region 3 changes only its output array: an input array is never written, any other buffer bypasses it. -/
theorem W4_keep (c : Dev nD) (b : Ref sig .tc) (hb : b ≠ Pipeline.arrRef spec3 2) :
    W4 m ρ c (Proc.devRef .tc b) = W3 m ρ c (Proc.devRef .tc b) := by
  by_cases h0 : Pipeline.arrRef spec3 0 = b
  · subst h0; exact (W4_arr m ρ c 0).trans (((R3.dat (V3 m ρ) c).arrAt_in 0 rfl _).trans (R3.A_eq (V3 m ρ) c 0))
  by_cases h1 : Pipeline.arrRef spec3 1 = b
  · subst h1; exact (W4_arr m ρ c 1).trans (((R3.dat (V3 m ρ) c).arrAt_in 1 rfl _).trans (R3.A_eq (V3 m ρ) c 1))
  exact W4_of_ne m ρ c b (fun w => by
    match w with
    | ⟨0, _⟩ => exact h0
    | ⟨1, _⟩ => exact h1
    | ⟨2, _⟩ => exact fun e => hb e.symm)

/-- After the three stretches of host operations between region 3 and region 4. -/
abbrev W5 : Dev nD → Valuation τ sig (Elt F) := fun c => StableHlo.after hostOps4 (W4 m ρ c)
abbrev W6 : Dev nD → Valuation τ sig (Elt F) := fun c => StableHlo.after hostOps4_1 (W5 m ρ c)
abbrev W7 : Dev nD → Valuation τ sig (Elt F) := fun c => StableHlo.after hostOps4_2 (W6 m ρ c)
abbrev V7 : (c : Dev nD) → (b : Ref sig .tc) → Buf (Elt F) ((c : Thread nD τ).loc b) := fun c b => W7 m ρ c b

/-- After region 4: its arrays at what its write-backs leave, every other buffer as it was. -/
def W8 (c : Dev nD) : Valuation τ sig (Elt F) :=
  Pipeline.withArrays spec4 c (W7 m ρ c) fun w => (R4.dat (V7 m ρ) c).arrAt w cfg4.N
theorem W8_arr (c : Dev nD) (w : Fin cfg4.W) :
    W8 m ρ c (Proc.devRef .tc (Pipeline.arrRef spec4 w)) = (R4.dat (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
theorem hF4 (c : Dev nD) (w : Fin cfg4.W) : (R4.dat (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- Region 4 changes only its output array: an input array is never written, any other buffer bypasses it. -/
theorem W8_keep (c : Dev nD) (b : Ref sig .tc) (hb : b ≠ Pipeline.arrRef spec4 2) :
    W8 m ρ c (Proc.devRef .tc b) = W7 m ρ c (Proc.devRef .tc b) := by
  by_cases h0 : Pipeline.arrRef spec4 0 = b
  · subst h0; exact (W8_arr m ρ c 0).trans (((R4.dat (V7 m ρ) c).arrAt_in 0 rfl _).trans (R4.A_eq (V7 m ρ) c 0))
  by_cases h1 : Pipeline.arrRef spec4 1 = b
  · subst h1; exact (W8_arr m ρ c 1).trans (((R4.dat (V7 m ρ) c).arrAt_in 1 rfl _).trans (R4.A_eq (V7 m ρ) c 1))
  exact W8_of_ne m ρ c b (fun w => by
    match w with
    | ⟨0, _⟩ => exact h0
    | ⟨1, _⟩ => exact h1
    | ⟨2, _⟩ => exact fun e => hb e.symm)

/-- After the last stretch of host operations: the end. -/
abbrev W9 : Dev nD → Valuation τ sig (Elt F) := fun c => StableHlo.after hostOps5 (W8 m ρ c)

/-! ## No boundary changes an argument -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps5 _ hostOps5_writes (by decide)
    _ = W7 m ρ c (Proc.devRef .tc main_arg0) := W8_keep m ρ c main_arg0 (by decide)
    _ = W6 m ρ c (Proc.devRef .tc main_arg0) := StableHlo.after_of_writes_sub hostOps4_2 _ hostOps4_2_writes (by decide)
    _ = W5 m ρ c (Proc.devRef .tc main_arg0) := StableHlo.after_of_writes_sub hostOps4_1 _ hostOps4_1_writes (by decide)
    _ = W4 m ρ c (Proc.devRef .tc main_arg0) := StableHlo.after_of_writes_sub hostOps4 _ hostOps4_writes (by decide)
    _ = W3 m ρ c (Proc.devRef .tc main_arg0) := W4_keep m ρ c main_arg0 (by decide)
    _ = W2 m ρ c (Proc.devRef .tc main_arg0) := W3_keep m ρ c main_arg0 (by decide)
    _ = W1 m ρ c (Proc.devRef .tc main_arg0) := W2_keep m ρ c main_arg0 (by decide)
    _ = W0 m ρ c (Proc.devRef .tc main_arg0) := W1_keep m ρ c main_arg0 (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps5 _ hostOps5_writes (by decide)
    _ = W7 m ρ c (Proc.devRef .tc main_arg1) := W8_keep m ρ c main_arg1 (by decide)
    _ = W6 m ρ c (Proc.devRef .tc main_arg1) := StableHlo.after_of_writes_sub hostOps4_2 _ hostOps4_2_writes (by decide)
    _ = W5 m ρ c (Proc.devRef .tc main_arg1) := StableHlo.after_of_writes_sub hostOps4_1 _ hostOps4_1_writes (by decide)
    _ = W4 m ρ c (Proc.devRef .tc main_arg1) := StableHlo.after_of_writes_sub hostOps4 _ hostOps4_writes (by decide)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps5 _ hostOps5_writes (by decide)
    _ = W7 m ρ c (Proc.devRef .tc main_arg2) := W8_keep m ρ c main_arg2 (by decide)
    _ = W6 m ρ c (Proc.devRef .tc main_arg2) := StableHlo.after_of_writes_sub hostOps4_2 _ hostOps4_2_writes (by decide)
    _ = W5 m ρ c (Proc.devRef .tc main_arg2) := StableHlo.after_of_writes_sub hostOps4_1 _ hostOps4_1_writes (by decide)
    _ = W4 m ρ c (Proc.devRef .tc main_arg2) := StableHlo.after_of_writes_sub hostOps4 _ hostOps4_writes (by decide)
    _ = W3 m ρ c (Proc.devRef .tc main_arg2) := W4_keep m ρ c main_arg2 (by decide)
    _ = W2 m ρ c (Proc.devRef .tc main_arg2) := W3_keep m ρ c main_arg2 (by decide)
    _ = W1 m ρ c (Proc.devRef .tc main_arg2) := W2_keep m ρ c main_arg2 (by decide)
    _ = W0 m ρ c (Proc.devRef .tc main_arg2) := W1_keep m ρ c main_arg2 (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps5 _ hostOps5_writes (by decide)
    _ = W7 m ρ c (Proc.devRef .tc main_arg3) := W8_keep m ρ c main_arg3 (by decide)
    _ = W6 m ρ c (Proc.devRef .tc main_arg3) := StableHlo.after_of_writes_sub hostOps4_2 _ hostOps4_2_writes (by decide)
    _ = W5 m ρ c (Proc.devRef .tc main_arg3) := StableHlo.after_of_writes_sub hostOps4_1 _ hostOps4_1_writes (by decide)
    _ = W4 m ρ c (Proc.devRef .tc main_arg3) := StableHlo.after_of_writes_sub hostOps4 _ hostOps4_writes (by decide)
    _ = W3 m ρ c (Proc.devRef .tc main_arg3) := W4_keep m ρ c main_arg3 (by decide)
    _ = W2 m ρ c (Proc.devRef .tc main_arg3) := W3_keep m ρ c main_arg3 (by decide)
    _ = W1 m ρ c (Proc.devRef .tc main_arg3) := W2_keep m ρ c main_arg3 (by decide)
    _ = W0 m ρ c (Proc.devRef .tc main_arg3) := W1_keep m ρ c main_arg3 (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps5 _ hostOps5_writes (by decide)
    _ = W7 m ρ c (Proc.devRef .tc main_arg4) := W8_keep m ρ c main_arg4 (by decide)
    _ = W6 m ρ c (Proc.devRef .tc main_arg4) := StableHlo.after_of_writes_sub hostOps4_2 _ hostOps4_2_writes (by decide)
    _ = W5 m ρ c (Proc.devRef .tc main_arg4) := StableHlo.after_of_writes_sub hostOps4_1 _ hostOps4_1_writes (by decide)
    _ = W4 m ρ c (Proc.devRef .tc main_arg4) := StableHlo.after_of_writes_sub hostOps4 _ hostOps4_writes (by decide)
    _ = W3 m ρ c (Proc.devRef .tc main_arg4) := W4_keep m ρ c main_arg4 (by decide)
    _ = W2 m ρ c (Proc.devRef .tc main_arg4) := W3_keep m ρ c main_arg4 (by decide)
    _ = W1 m ρ c (Proc.devRef .tc main_arg4) := W2_keep m ρ c main_arg4 (by decide)
    _ = W0 m ρ c (Proc.devRef .tc main_arg4) := W1_keep m ρ c main_arg4 (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps5 _ hostOps5_writes (by decide)
    _ = W7 m ρ c (Proc.devRef .tc main_arg5) := W8_keep m ρ c main_arg5 (by decide)
    _ = W6 m ρ c (Proc.devRef .tc main_arg5) := StableHlo.after_of_writes_sub hostOps4_2 _ hostOps4_2_writes (by decide)
    _ = W5 m ρ c (Proc.devRef .tc main_arg5) := StableHlo.after_of_writes_sub hostOps4_1 _ hostOps4_1_writes (by decide)
    _ = W4 m ρ c (Proc.devRef .tc main_arg5) := StableHlo.after_of_writes_sub hostOps4 _ hostOps4_writes (by decide)
    _ = W3 m ρ c (Proc.devRef .tc main_arg5) := W4_keep m ρ c main_arg5 (by decide)
    _ = W2 m ρ c (Proc.devRef .tc main_arg5) := W3_keep m ρ c main_arg5 (by decide)
    _ = W1 m ρ c (Proc.devRef .tc main_arg5) := W2_keep m ρ c main_arg5 (by decide)
    _ = W0 m ρ c (Proc.devRef .tc main_arg5) := W1_keep m ρ c main_arg5 (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps5 _ hostOps5_writes (by decide)
    _ = W7 m ρ c (Proc.devRef .tc main_arg6) := W8_keep m ρ c main_arg6 (by decide)
    _ = W6 m ρ c (Proc.devRef .tc main_arg6) := StableHlo.after_of_writes_sub hostOps4_2 _ hostOps4_2_writes (by decide)
    _ = W5 m ρ c (Proc.devRef .tc main_arg6) := StableHlo.after_of_writes_sub hostOps4_1 _ hostOps4_1_writes (by decide)
    _ = W4 m ρ c (Proc.devRef .tc main_arg6) := StableHlo.after_of_writes_sub hostOps4 _ hostOps4_writes (by decide)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps5 _ hostOps5_writes (by decide)
    _ = W7 m ρ c (Proc.devRef .tc main_arg7) := W8_keep m ρ c main_arg7 (by decide)
    _ = W6 m ρ c (Proc.devRef .tc main_arg7) := StableHlo.after_of_writes_sub hostOps4_2 _ hostOps4_2_writes (by decide)
    _ = W5 m ρ c (Proc.devRef .tc main_arg7) := StableHlo.after_of_writes_sub hostOps4_1 _ hostOps4_1_writes (by decide)
    _ = W4 m ρ c (Proc.devRef .tc main_arg7) := StableHlo.after_of_writes_sub hostOps4 _ hostOps4_writes (by decide)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps5 _ hostOps5_writes (by decide)
    _ = W7 m ρ c (Proc.devRef .tc main_arg8) := W8_keep m ρ c main_arg8 (by decide)
    _ = W6 m ρ c (Proc.devRef .tc main_arg8) := StableHlo.after_of_writes_sub hostOps4_2 _ hostOps4_2_writes (by decide)
    _ = W5 m ρ c (Proc.devRef .tc main_arg8) := StableHlo.after_of_writes_sub hostOps4_1 _ hostOps4_1_writes (by decide)
    _ = W4 m ρ c (Proc.devRef .tc main_arg8) := StableHlo.after_of_writes_sub hostOps4 _ hostOps4_writes (by decide)
    _ = W3 m ρ c (Proc.devRef .tc main_arg8) := W4_keep m ρ c main_arg8 (by decide)
    _ = W2 m ρ c (Proc.devRef .tc main_arg8) := W3_keep m ρ c main_arg8 (by decide)
    _ = W1 m ρ c (Proc.devRef .tc main_arg8) := W2_keep m ρ c main_arg8 (by decide)
    _ = W0 m ρ c (Proc.devRef .tc main_arg8) := W1_keep m ρ c main_arg8 (by decide)
    _ = m ((c : Thread nD τ).loc main_arg8) := rfl

/-! ## The proof data family and the thread state -/

abbrev admK : (p : Fin 5) → (pcfgs (F := F) p).Adm := fun p => (cfgs p).toPCfg_adm
/-- Every region's proof data, each at its region's entry contents. -/
def pdats : (p : Fin 5) → (c : Dev nD) → Dat τ (Elt F) Unit ℕ (UR sig nD τ) ℕ (Pipeline.pin (pcfgs (F := F)) admK p) c
  | ⟨0, _⟩ => fun c => R0.dat (V0 m ρ) c
  | ⟨1, _⟩ => fun c => R1.dat (V1 m ρ) c
  | ⟨2, _⟩ => fun c => R2.dat (V2 m ρ) c
  | ⟨3, _⟩ => fun c => R3.dat (V3 m ρ) c
  | ⟨4, _⟩ => fun c => R4.dat (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over the unscoped buffers from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 as a segment: entered from every unscoped buffer at W0, left at W1. Its arrays are split out of the
    unscoped buffers and put back at their exit contents; the generator register and the scoped buffers no window
    stages enter the invariant and come back; nothing is owed; the kernel has no semaphore of its own. -/
def reg0 : Pipeline.RegionSeg (pcfgs (F := F)) admK (pdats m ρ) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) admK (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (R0.dat (V0 m ρ) c).Φ 0 from rfl]
    iintro ⟨Hp, -, Hr⟩
    iapply (R0.Phi_in (V0 m ρ) c)
    isplitl [Hp]; · iexact Hp
    iexact Hr
  hout c := by
    rw [Pipeline.ownSems0_none, show (pdats m ρ 0 c).Φ (Fin.last _) = (R0.dat (V0 m ρ) c).Φ (Fin.last cfg0.N) from rfl]
    iintro H
    ihave H' := (R0.Phi_out (V0 m ρ) c) $$ H
    icases H' with ⟨Hp, Hr⟩
    isplitl [Hp]; · iexact Hp
    isplitr; · iempintro
    iexact Hr
  hexit c := by
    have hjoin := Pipeline.unscopedBufs_of_arrays (p := 0) (pcfgs (F := F)) admK (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered from every unscoped buffer at W1, left at W2. Its arrays are split out of the
    unscoped buffers and put back at their exit contents; the generator register and the scoped buffers no window
    stages enter the invariant and come back; nothing is owed; the kernel has no semaphore of its own. -/
def reg1 : Pipeline.RegionSeg (pcfgs (F := F)) admK (pdats m ρ) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) admK (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (R1.dat (V1 m ρ) c).Φ 0 from rfl]
    iintro ⟨Hp, -, Hr⟩
    iapply (R1.Phi_in (V1 m ρ) c)
    isplitl [Hp]; · iexact Hp
    iexact Hr
  hout c := by
    rw [Pipeline.ownSems0_none, show (pdats m ρ 1 c).Φ (Fin.last _) = (R1.dat (V1 m ρ) c).Φ (Fin.last cfg1.N) from rfl]
    iintro H
    ihave H' := (R1.Phi_out (V1 m ρ) c) $$ H
    icases H' with ⟨Hp, Hr⟩
    isplitl [Hp]; · iexact Hp
    isplitr; · iempintro
    iexact Hr
  hexit c := by
    have hjoin := Pipeline.unscopedBufs_of_arrays (p := 1) (pcfgs (F := F)) admK (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered from every unscoped buffer at W2, left at W3. Its arrays are split out of the
    unscoped buffers and put back at their exit contents; the generator register and the scoped buffers no window
    stages enter the invariant and come back; nothing is owed; the kernel has no semaphore of its own. -/
def reg2 : Pipeline.RegionSeg (pcfgs (F := F)) admK (pdats m ρ) () defs₀ 𝒱₀ L lv 2 where
  win := launch2.win.to₀
  block_pos := launch2.block_pos
  stage_whole := launch2.stage_whole
  K := PEmpty
  osem k := k.elim
  ho := Pipeline.OwnSemFacts.none _
  hbody c := (R2.body_obligation (V2 m ρ) c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) admK (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (R2.dat (V2 m ρ) c).Φ 0 from rfl]
    iintro ⟨Hp, -, Hr⟩
    iapply (R2.Phi_in (V2 m ρ) c)
    isplitl [Hp]; · iexact Hp
    iexact Hr
  hout c := by
    rw [Pipeline.ownSems0_none, show (pdats m ρ 2 c).Φ (Fin.last _) = (R2.dat (V2 m ρ) c).Φ (Fin.last cfg2.N) from rfl]
    iintro H
    ihave H' := (R2.Phi_out (V2 m ρ) c) $$ H
    icases H' with ⟨Hp, Hr⟩
    isplitl [Hp]; · iexact Hp
    isplitr; · iempintro
    iexact Hr
  hexit c := by
    have hjoin := Pipeline.unscopedBufs_of_arrays (p := 2) (pcfgs (F := F)) admK (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 as a segment: entered from every unscoped buffer at W3, left at W4. Its arrays are split out of the
    unscoped buffers and put back at their exit contents; the generator register and the scoped buffers no window
    stages enter the invariant and come back; nothing is owed; the kernel has no semaphore of its own. -/
def reg3 : Pipeline.RegionSeg (pcfgs (F := F)) admK (pdats m ρ) () defs₀ 𝒱₀ L lv 3 where
  win := launch3.win.to₀
  block_pos := launch3.block_pos
  stage_whole := launch3.stage_whole
  K := PEmpty
  osem k := k.elim
  ho := Pipeline.OwnSemFacts.none _
  hbody c := (R3.body_obligation (V3 m ρ) c).loose
  hwaits := Pipeline.hwaits_of_owed_zero _ _ _ _ L lv 3 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec3 c (V3 m ρ c)
  hentry c := by
    rw [Pipeline.ownSems0_none]
    have hsplit := Pipeline.arrays_of_unscopedBufs (p := 3) (pcfgs (F := F)) admK (pdats m ρ) launch3.win launch3.arr_whole c
      ((pdats m ρ 3 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = (R3.dat (V3 m ρ) c).Φ 0 from rfl]
    iintro ⟨Hp, -, Hr⟩
    iapply (R3.Phi_in (V3 m ρ) c)
    isplitl [Hp]; · iexact Hp
    iexact Hr
  hout c := by
    rw [Pipeline.ownSems0_none, show (pdats m ρ 3 c).Φ (Fin.last _) = (R3.dat (V3 m ρ) c).Φ (Fin.last cfg3.N) from rfl]
    iintro H
    ihave H' := (R3.Phi_out (V3 m ρ) c) $$ H
    icases H' with ⟨Hp, Hr⟩
    isplitl [Hp]; · iexact Hp
    isplitr; · iempintro
    iexact Hr
  hexit c := by
    have hjoin := Pipeline.unscopedBufs_of_arrays (p := 3) (pcfgs (F := F)) admK (Ix := Unit) (Name := ℕ) (U := UR sig nD τ) (Lvl := ℕ)
      launch3.win launch3.arr_whole c (pdats m ρ) ((pdats m ρ 3 c).share_full fun _ => rfl)
      (V3 m ρ c) (V4 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 as a segment: entered from every unscoped buffer at W7, left at W8. Its arrays are split out of the
    unscoped buffers and put back at their exit contents; the generator register and the scoped buffers no window
    stages enter the invariant and come back; nothing is owed; the kernel has no semaphore of its own. -/
def reg4 : Pipeline.RegionSeg (pcfgs (F := F)) admK (pdats m ρ) () defs₀ 𝒱₀ L lv 4 where
  win := launch4.win.to₀
  block_pos := launch4.block_pos
  stage_whole := launch4.stage_whole
  K := PEmpty
  osem k := k.elim
  ho := Pipeline.OwnSemFacts.none _
  hbody c := (R4.body_obligation (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) admK (pdats m ρ) launch4.win launch4.arr_whole c
      ((pdats m ρ 4 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = (R4.dat (V7 m ρ) c).Φ 0 from rfl]
    iintro ⟨Hp, -, Hr⟩
    iapply (R4.Phi_in (V7 m ρ) c)
    isplitl [Hp]; · iexact Hp
    iexact Hr
  hout c := by
    rw [Pipeline.ownSems0_none, show (pdats m ρ 4 c).Φ (Fin.last _) = (R4.dat (V7 m ρ) c).Φ (Fin.last cfg4.N) from rfl]
    iintro H
    ihave H' := (R4.Phi_out (V7 m ρ) c) $$ H
    icases H' with ⟨Hp, Hr⟩
    isplitl [Hp]; · iexact Hp
    isplitr; · iempintro
    iexact Hr
  hexit c := by
    have hjoin := Pipeline.unscopedBufs_of_arrays (p := 4) (pcfgs (F := F)) admK (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

abbrev segs : List (Pipeline.Seg (pcfgs (F := F)) admK (pdats m ρ) () defs₀ 𝒱₀ L lv) :=
  [ .region (reg0 m ρ),
    .region (reg1 m ρ),
    .region (reg2 m ρ),
    .region (reg3 m ρ),
    .host (hseg hostOps4 hostOps4_sub hostOps4_fresh (W4 m ρ)),
    .host (hseg hostOps4_1 hostOps4_1_sub hostOps4_1_fresh (W5 m ρ)),
    .host (hseg hostOps4_2 hostOps4_2_sub hostOps4_2_fresh (W6 m ρ)),
    .region (reg4 m ρ),
    .host (hseg hostOps5 hostOps5_sub hostOps5_fresh (W8 m ρ)) ]

theorem main_run (c : Dev nD) : main (F := F) c = Pipeline.Seg.run (segs m ρ) := (main_chain c).trans (by chain_rfl)

set_option backward.isDefEq.respectTransparency.types false in
/-- From any memory with zero counters, every weakly fair execution of @main terminates, nothing faulting, and in
    every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) admK (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W9 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

end Cert.KernelIdeal.Asm

end
-- ==== Proof.KFrame.lean ====
/-
  Two readings of the whole run: every argument array ends holding its launch contents (no boundary changes one),
  and the result array ends holding the last boundary's contents at its buffer.
-/
import proofs.«126198_j83554293777022_1_alg».proof.Proof.KRun

noncomputable section

namespace Cert.KernelIdeal.Asm

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Every weakly fair execution terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c)⟩) (run_all m ρ)

/-- The same run with the result array named: the last boundary's contents at the result's buffer. -/
theorem run_value : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨h c _ (mem_uc main_v61 (by decide)), (h c _ (mem_uc main_arg0 (by decide))).trans (W9_main_arg0 m ρ c),
      (h c _ (mem_uc main_arg1 (by decide))).trans (W9_main_arg1 m ρ c),
      (h c _ (mem_uc main_arg2 (by decide))).trans (W9_main_arg2 m ρ c),
      (h c _ (mem_uc main_arg3 (by decide))).trans (W9_main_arg3 m ρ c),
      (h c _ (mem_uc main_arg4 (by decide))).trans (W9_main_arg4 m ρ c),
      (h c _ (mem_uc main_arg5 (by decide))).trans (W9_main_arg5 m ρ c),
      (h c _ (mem_uc main_arg6 (by decide))).trans (W9_main_arg6 m ρ c),
      (h c _ (mem_uc main_arg7 (by decide))).trans (W9_main_arg7 m ρ c),
      (h c _ (mem_uc main_arg8 (by decide))).trans (W9_main_arg8 m ρ c)⟩) (run_all m ρ)

end Cert.KernelIdeal.Asm

end
-- ==== Proof.Spec.lean ====
/-
  The mathematics both programs compute, on extended reals, index by index.

  `mm l r` is the plain matrix product: entry (p, q) is the sum over k of l (p, k) · r (k, q).
  `relu0 v` is the rectifier: entry i is max (v i) 0.
  The high-pass branch of the layer is  d_inv · (lap · (d_inv · relu0 (x · W_high)))  on one side and
  ((d_inv · lap) · d_inv) · relu0 (x · W_high)  on the other: one matrix product, re-associated.
-/
import Idealize.ShloMosaic.PureOps.Ideal
import Idealize.ShloMosaic.Lib.ValueIdx

noncomputable section

namespace Cert.Spec

open Idealize.ShloMosaic Idealize.ShloMosaic.ValueIdx

/-- The plain matrix product on extended reals: entry (p, q) is the sum over k of l (p, k) · r (k, q). -/
def mm {a k b : Nat} (l : FVec Ideal ⟨2, ![a, k]⟩ .f32) (r : FVec Ideal ⟨2, ![k, b]⟩ .f32) :
    FVec Ideal ⟨2, ![a, b]⟩ .f32 :=
  fun i => ∑ j : Fin k, l (ix2 (n0 := a) (n1 := k) (i 0) j) * r (ix2 (n0 := k) (n1 := b) j (i 1))

theorem mm_apply {a k b : Nat} (l : FVec Ideal ⟨2, ![a, k]⟩ .f32) (r : FVec Ideal ⟨2, ![k, b]⟩ .f32)
    (p : Fin a) (q : Fin b) :
    mm l r (ix2 p q) = ∑ j : Fin k, l (ix2 p j) * r (ix2 j q) := rfl

/-- The rectifier, entry by entry. -/
def relu0 {a b : Nat} (v : FVec Ideal ⟨2, ![a, b]⟩ .f32) : FVec Ideal ⟨2, ![a, b]⟩ .f32 :=
  fun i => max (v i) (0 : EReal)

theorem relu0_apply {a b : Nat} (v : FVec Ideal ⟨2, ![a, b]⟩ .f32) (i : (⟨2, ![a, b]⟩ : Shape).Idx) :
    relu0 v i = max (v i) 0 := rfl

end Cert.Spec

end
-- ==== Proof.KCompose.lean ====
/-
  The five regions composed. Region 0 leaves relu0 (x · W_high); region 1 multiplies it by d_inv, region 2 the result
  by lap, region 3 that by d_inv again; region 4 leaves x · W_conv. Each region's operand arrays are walked back
  through the boundaries to an argument array or to the output of the region before. What is proved here takes each
  region's value (its output array is the plain matrix product of its two operand arrays) as a hypothesis.
-/
import proofs.«126198_j83554293777022_1_alg».proof.Proof.KRun
import proofs.«126198_j83554293777022_1_alg».proof.Proof.Spec

noncomputable section

namespace Cert.KernelIdeal.Asm

open Cert.KernelIdeal Cert.KernelIdeal.Gen
open Idealize.ShloMosaic Idealize.ShloMosaic.TcCoe Idealize.SL.Sem
open Cert.Spec

/-- The contents of a core's buffers, as the regions' proof data take them. -/
abbrev VTy : Type := (c : Dev nD) → (b : Ref sig .tc) → Buf (Elt Ideal) ((c : Thread nD τ).loc b)

variable (m : (ℓ : Loc nD τ sig) → Buf (Elt Ideal) ℓ) (ρ : Dev nD → PrngReg)

/-! ## The operand arrays walked back to the launch -/

theorem W1_arg3 (c : Dev nD) : W1 m ρ c (Proc.devRef .tc main_arg3) = m ((c.tc : Thread nD τ).loc main_arg3) :=
  (W1_keep m ρ c main_arg3 (by decide)).trans rfl
theorem W2_arg2 (c : Dev nD) : W2 m ρ c (Proc.devRef .tc main_arg2) = m ((c.tc : Thread nD τ).loc main_arg2) :=
  (W2_keep m ρ c main_arg2 (by decide)).trans ((W1_keep m ρ c main_arg2 (by decide)).trans rfl)
theorem W3_arg3 (c : Dev nD) : W3 m ρ c (Proc.devRef .tc main_arg3) = m ((c.tc : Thread nD τ).loc main_arg3) :=
  (W3_keep m ρ c main_arg3 (by decide)).trans ((W2_keep m ρ c main_arg3 (by decide)).trans ((W1_keep m ρ c main_arg3 (by decide)).trans rfl))
theorem W7_of_W0 (c : Dev nD) (b : Ref sig .tc) (h1 : b ≠ Pipeline.arrRef spec0 2) (h2 : b ≠ Pipeline.arrRef spec1 2) (h3 : b ≠ Pipeline.arrRef spec2 2)
    (h4 : b ≠ Pipeline.arrRef spec3 2) (h5 : b ∉ hostOps4_W) (h6 : b ∉ hostOps4_1_W) (h7 : b ∉ hostOps4_2_W) :
    W7 m ρ c (Proc.devRef .tc b) = W0 m ρ c (Proc.devRef .tc b) :=
  calc W7 m ρ c (Proc.devRef .tc b)
    _ = W6 m ρ c (Proc.devRef .tc b) := StableHlo.after_of_writes_sub hostOps4_2 _ hostOps4_2_writes h7
    _ = W5 m ρ c (Proc.devRef .tc b) := StableHlo.after_of_writes_sub hostOps4_1 _ hostOps4_1_writes h6
    _ = W4 m ρ c (Proc.devRef .tc b) := StableHlo.after_of_writes_sub hostOps4 _ hostOps4_writes h5
    _ = W3 m ρ c (Proc.devRef .tc b) := W4_keep m ρ c b h4
    _ = W2 m ρ c (Proc.devRef .tc b) := W3_keep m ρ c b h3
    _ = W1 m ρ c (Proc.devRef .tc b) := W2_keep m ρ c b h2
    _ = W0 m ρ c (Proc.devRef .tc b) := W1_keep m ρ c b h1
theorem W7_arg0 (c : Dev nD) : W7 m ρ c (Proc.devRef .tc main_arg0) = m ((c.tc : Thread nD τ).loc main_arg0) :=
  (W7_of_W0 m ρ c main_arg0 (by decide) (by decide) (by decide) (by decide) (by decide) (by decide) (by decide)).trans rfl
theorem W7_arg5 (c : Dev nD) : W7 m ρ c (Proc.devRef .tc main_arg5) = m ((c.tc : Thread nD τ).loc main_arg5) :=
  (W7_of_W0 m ρ c main_arg5 (by decide) (by decide) (by decide) (by decide) (by decide) (by decide) (by decide)).trans rfl

/-! ## The regions' outputs -/

section
variable (h0 : ∀ (V : VTy) (c : Dev nD), (R0.dat (F := Ideal) V c).arrAt 2 cfg0.N
      = (relu0 (a := 8192) (b := 256) (mm (a := 8192) (k := 256) (b := 256) (V c (Pipeline.arrRef spec0 0) : S8192x256.Idx → EReal) (V c (Pipeline.arrRef spec0 1) : S256x256.Idx → EReal)) : S8192x256.Idx → EReal))
  (h1 : ∀ (V : VTy) (c : Dev nD), (R1.dat (F := Ideal) V c).arrAt 2 cfg1.N
      = (mm (a := 8192) (k := 8192) (b := 256) (V c (Pipeline.arrRef spec1 0) : S8192x8192.Idx → EReal) (V c (Pipeline.arrRef spec1 1) : S8192x256.Idx → EReal) : S8192x256.Idx → EReal))
  (h2 : ∀ (V : VTy) (c : Dev nD), (R2.dat (F := Ideal) V c).arrAt 2 cfg2.N
      = (mm (a := 8192) (k := 8192) (b := 256) (V c (Pipeline.arrRef spec2 0) : S8192x8192.Idx → EReal) (V c (Pipeline.arrRef spec2 1) : S8192x256.Idx → EReal) : S8192x256.Idx → EReal))
  (h3 : ∀ (V : VTy) (c : Dev nD), (R3.dat (F := Ideal) V c).arrAt 2 cfg3.N
      = (mm (a := 8192) (k := 8192) (b := 256) (V c (Pipeline.arrRef spec3 0) : S8192x8192.Idx → EReal) (V c (Pipeline.arrRef spec3 1) : S8192x256.Idx → EReal) : S8192x256.Idx → EReal))
  (h4 : ∀ (V : VTy) (c : Dev nD), (R4.dat (F := Ideal) V c).arrAt 2 cfg4.N
      = (mm (a := 8192) (k := 256) (b := 256) (V c (Pipeline.arrRef spec4 0) : S8192x256.Idx → EReal) (V c (Pipeline.arrRef spec4 1) : S256x256.Idx → EReal) : S8192x256.Idx → EReal))
include h0 in
/-- Region 0 leaves relu0 (x · W_high). -/
theorem out0 (c : Dev nD) : W1 m ρ c (Proc.devRef .tc main_v0)
    = relu0 (a := 8192) (b := 256) (mm (a := 8192) (k := 256) (b := 256) (m ((c.tc : Thread nD τ).loc main_arg0)) (m ((c.tc : Thread nD τ).loc main_arg4))) :=
  (W1_arr m ρ c 2).trans (h0 (V0 m ρ) c)
include h0 h1 in
/-- Region 1 leaves d_inv · that. -/
theorem out1 (c : Dev nD) : W2 m ρ c (Proc.devRef .tc main_v1)
    = mm (a := 8192) (k := 8192) (b := 256) (m ((c.tc : Thread nD τ).loc main_arg3)) (relu0 (a := 8192) (b := 256) (mm (a := 8192) (k := 256) (b := 256) (m ((c.tc : Thread nD τ).loc main_arg0)) (m ((c.tc : Thread nD τ).loc main_arg4)))) := by
  refine (W2_arr m ρ c 2).trans ((h1 (V1 m ρ) c).trans ?_)
  show mm (a := 8192) (k := 8192) (b := 256) (W1 m ρ c (Proc.devRef .tc main_arg3)) (W1 m ρ c (Proc.devRef .tc main_v0)) = _
  rw [W1_arg3, out0 m ρ h0 c]
include h0 h1 h2 in
/-- Region 2 leaves lap · that. -/
theorem out2 (c : Dev nD) : W3 m ρ c (Proc.devRef .tc main_v2)
    = mm (a := 8192) (k := 8192) (b := 256) (m ((c.tc : Thread nD τ).loc main_arg2)) (mm (a := 8192) (k := 8192) (b := 256) (m ((c.tc : Thread nD τ).loc main_arg3)) (relu0 (a := 8192) (b := 256) (mm (a := 8192) (k := 256) (b := 256) (m ((c.tc : Thread nD τ).loc main_arg0)) (m ((c.tc : Thread nD τ).loc main_arg4))))) := by
  refine (W3_arr m ρ c 2).trans ((h2 (V2 m ρ) c).trans ?_)
  show mm (a := 8192) (k := 8192) (b := 256) (W2 m ρ c (Proc.devRef .tc main_arg2)) (W2 m ρ c (Proc.devRef .tc main_v1)) = _
  rw [W2_arg2, out1 m ρ h0 h1 c]
include h0 h1 h2 h3 in
/-- Region 3 leaves d_inv · that: the high-pass branch. -/
theorem out3 (c : Dev nD) : W4 m ρ c (Proc.devRef .tc main_v3)
    = mm (a := 8192) (k := 8192) (b := 256) (m ((c.tc : Thread nD τ).loc main_arg3)) (mm (a := 8192) (k := 8192) (b := 256) (m ((c.tc : Thread nD τ).loc main_arg2)) (mm (a := 8192) (k := 8192) (b := 256) (m ((c.tc : Thread nD τ).loc main_arg3)) (relu0 (a := 8192) (b := 256) (mm (a := 8192) (k := 256) (b := 256) (m ((c.tc : Thread nD τ).loc main_arg0)) (m ((c.tc : Thread nD τ).loc main_arg4)))))) := by
  refine (W4_arr m ρ c 2).trans ((h3 (V3 m ρ) c).trans ?_)
  show mm (a := 8192) (k := 8192) (b := 256) (W3 m ρ c (Proc.devRef .tc main_arg3)) (W3 m ρ c (Proc.devRef .tc main_v2)) = _
  rw [W3_arg3, out2 m ρ h0 h1 h2 c]
include h4 in
/-- Region 4 leaves x · W_conv. -/
theorem out4 (c : Dev nD) : W8 m ρ c (Proc.devRef .tc main_v36) = mm (a := 8192) (k := 256) (b := 256) (m ((c.tc : Thread nD τ).loc main_arg0)) (m ((c.tc : Thread nD τ).loc main_arg5)) := by
  refine (W8_arr m ρ c 2).trans ((h4 (V7 m ρ) c).trans ?_)
  show mm (a := 8192) (k := 256) (b := 256) (W7 m ρ c (Proc.devRef .tc main_arg0)) (W7 m ρ c (Proc.devRef .tc main_arg5)) = _
  rw [W7_arg0, W7_arg5]
end

end Cert.KernelIdeal.Asm

end
-- ==== Proof.RefTail.lean ====
/-
  The low-pass branch and the final combination of the layer, as one function of the two matrix-product results.

  Both programs end in the same host operations. From the edge list  e  (row 0 the sources, row 1 the targets of
  262144 edges) they form the lists  src e,  dst e  of length 270336 = 262144 + 8192: the edges followed by a
  self-loop i → i at every node i. Then
    deg e   : for each node the number of list positions whose target is that node (a scatter-add of ones),
    dis e   : deg^(-1/2) where deg > 0, else 0   (the reciprocal square root is taken of max deg 1),
    norm e  : per list position, dis at the source times dis at the target (indices below zero wrap by 8192),
    agg     : the scatter-add, into row  dst,  of row  src  of  xw  scaled by  norm,
  and the result is  aL · max (agg + b) 0 + aH · Hh.   Here  xw  (the projection x · W_conv) and  Hh  (the high-pass
  branch) are parameters: they are the only places where the two programs differ.
-/
import proofs.«126198_j83554293777022_1_alg».proof.Proof.Gen.ReferenceIdeal
import Idealize.ShloMosaic.PureOps.Ideal

noncomputable section

namespace Cert.RefSpec

open Cert.ReferenceIdeal Cert.ReferenceIdeal.Gen Idealize.ShloMosaic

/-- The sources: row 0 of the edge list, then 0, 1, …, 8191. -/
def src (e : IVec S2x262144 32) : IVec S270336 32 :=
  concatenate S270336 0 [⟨S262144, (shapeCast _ (extractStridedSlice S1x262144 ![0, 0] e slices_S2x262144_S1x262144_0_0) shapeCasts_S1x262144_S262144)⟩, ⟨S8192, (iotaInDim S8192 32 0)⟩] concatenates_S262144_S8192_S270336_d0

/-- The targets: row 1 of the edge list, then 0, 1, …, 8191. -/
def dst (e : IVec S2x262144 32) : IVec S270336 32 :=
  concatenate S270336 0 [⟨S262144, (shapeCast _ (extractStridedSlice S1x262144 ![1, 0] e slices_S2x262144_S1x262144_1_0) shapeCasts_S1x262144_S262144)⟩, ⟨S8192, (iotaInDim S8192 32 0)⟩] concatenates_S262144_S8192_S270336_d0

/-- An index below zero counts from the end: v + 8192 where v < 0, else v. -/
def wrap (v : IVec S270336 32) : IVec S270336 32 :=
  select (cmpi .slt v (broadcastInDim S270336 ![] bcast_S_S270336 (constantI S_ 32 0#32))) (addi v (broadcastInDim S270336 ![] bcast_S_S270336 (constantI S_ 32 8192#32))) v

/-- A list as a one-column array. -/
def col {α : Type} (v : S270336.Idx → α) : S270336x1.Idx → α :=
  broadcastInDim S270336x1 ![0] bcast_S270336_S270336x1_0 v

/-- The degree of every node: ones added up at the targets. -/
def deg (e : IVec S2x262144 32) : FVec Ideal S8192 .f32 :=
  Host.scatterAdd (F := Ideal) scatter_S8192_S270336x1_S270336_n_0_0_1 (broadcastInDim S8192 ![] bcast_S_S8192 (constant (F := Ideal) S_ .f32 0x00000000#32)) (col (dst e)) (broadcastInDim S270336 ![] bcast_S_S270336 (constant (F := Ideal) S_ .f32 0x3F800000#32))

/-- deg^(-1/2) where the degree is positive, else 0. -/
def dis (e : IVec S2x262144 32) : FVec Ideal S8192 .f32 :=
  select (cmpf .ogt (deg e) (broadcastInDim S8192 ![] bcast_S_S8192 (constant (F := Ideal) S_ .f32 0x00000000#32))) (Host.rsqrt (maximumf (deg e) (broadcastInDim S8192 ![] bcast_S_S8192 (constant (F := Ideal) S_ .f32 0x3F800000#32)))) (broadcastInDim S8192 ![] bcast_S_S8192 (id (constant (F := Ideal) S_ .f32 0x00000000#32)))

/-- Per list position: dis at the source times dis at the target. -/
def norm (e : IVec S2x262144 32) : FVec Ideal S270336 .f32 :=
  mulf (Host.gather gather_S8192_S270336x1_S270336_n_0_n_n_0_1_1 (dis e) (col (wrap (src e)))) (Host.gather gather_S8192_S270336x1_S270336_n_0_n_n_0_1_1 (dis e) (col (wrap (dst e))))

/-- The layer's output from its two matrix-product results  Hh  and  xw :  aL · max (agg + b) 0 + aH · Hh,  where
    agg  adds into row  dst  the row  src  of  xw  scaled by  norm. -/
def tail (Hh xw : FVec Ideal S8192x256 .f32) (e : IVec S2x262144 32) (b : FVec Ideal S256 .f32)
    (aL aH : FVec Ideal S1 .f32) : FVec Ideal S8192x256 .f32 :=
  addf (mulf (broadcastInDim S8192x256 ![0, 1] bcast_S1x1_S8192x256_0_1 (broadcastInDim S1x1 ![1] bcast_S1_S1x1_1 aL)) (maximumf (addf (Host.scatterAdd (F := Ideal) scatter_S8192x256_S270336x1_S270336x256_1_0_0_1 (broadcastInDim S8192x256 ![] bcast_S_S8192x256 (constant (F := Ideal) S_ .f32 0x00000000#32)) (col (dst e)) (mulf (Host.gather gather_S8192x256_S270336x1_S270336x256_1_0_n_n_0_1_1256 xw (col (wrap (src e)))) (broadcastInDim S270336x256 ![0, 1] bcast_S270336x1_S270336x256_0_1 (col (norm e))))) (broadcastInDim S8192x256 ![0, 1] bcast_S1x256_S8192x256_0_1 (broadcastInDim S1x256 ![1] bcast_S256_S1x256_1 b))) (broadcastInDim S8192x256 ![] bcast_S_S8192x256 (constant (F := Ideal) S_ .f32 0x00000000#32)))) (mulf (broadcastInDim S8192x256 ![0, 1] bcast_S1x1_S8192x256_0_1 (broadcastInDim S1x1 ![1] bcast_S1_S1x1_1 aH)) Hh)

end Cert.RefSpec

end
-- ==== Proof.KTail.lean ====
/-
  The program's last host operations, read as mathematics.

  After the four matrix-product regions the program computes, on the host, the graph's degree normalisation (three
  stretches of operations: the degree of every node, its reciprocal square root where positive, and per edge the
  product of the two end nodes' factors), then a fifth matrix-product region ( x · W_conv ), then the aggregation and
  the final combination. None of these host operations reads a region's output except the last stretch, which reads
  the high-pass result (the fourth region's output) and the projection (the fifth region's). Read one buffer at a
  time from the contents at the boundary before it, they are the functions  src, dst, norm  of the edge list and, at
  the end,  tail  of the two regions' outputs: the same host chain the reference ends in.
-/
import proofs.«126198_j83554293777022_1_alg».proof.Proof.KRun
import proofs.«126198_j83554293777022_1_alg».proof.Proof.RefTail
import Idealize.ShloMosaic.Lib.StableHlo.Run

set_option maxRecDepth 16384

noncomputable section

namespace Cert.KernelIdeal.Asm

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Buffers that pass through unchanged -/

/-- The edge list is still the launch's after the four regions. -/
theorem W4_main_arg1 : W4 m ρ c (Proc.devRef .tc main_arg1) = m ((c : Thread nD τ).loc main_arg1) :=
  calc W4 m ρ c (Proc.devRef .tc main_arg1)
    _ = W3 m ρ c (Proc.devRef .tc main_arg1) := W4_keep m ρ c main_arg1 (by decide)
    _ = W2 m ρ c (Proc.devRef .tc main_arg1) := W3_keep m ρ c main_arg1 (by decide)
    _ = W1 m ρ c (Proc.devRef .tc main_arg1) := W2_keep m ρ c main_arg1 (by decide)
    _ = W0 m ρ c (Proc.devRef .tc main_arg1) := W1_keep m ρ c main_arg1 (by decide)
    _ = m ((c : Thread nD τ).loc main_arg1) := rfl

/-- The high-pass result is not touched between the fourth region and the last stretch of host operations. -/
theorem W8_main_v3 : W8 m ρ c (Proc.devRef .tc main_v3) = W4 m ρ c (Proc.devRef .tc main_v3) :=
  calc W8 m ρ c (Proc.devRef .tc main_v3)
    _ = W7 m ρ c (Proc.devRef .tc main_v3) := W8_keep m ρ c main_v3 (by decide)
    _ = W6 m ρ c (Proc.devRef .tc main_v3) := StableHlo.after_of_writes_sub hostOps4_2 _ hostOps4_2_writes (by decide)
    _ = W5 m ρ c (Proc.devRef .tc main_v3) := StableHlo.after_of_writes_sub hostOps4_1 _ hostOps4_1_writes (by decide)
    _ = W4 m ρ c (Proc.devRef .tc main_v3) := StableHlo.after_of_writes_sub hostOps4 _ hostOps4_writes (by decide)

/-- The bias is still the launch's before the last stretch. -/
theorem W8_main_arg6 : W8 m ρ c (Proc.devRef .tc main_arg6) = m ((c : Thread nD τ).loc main_arg6) :=
  (
  calc W8 m ρ c (Proc.devRef .tc main_arg6)
    _ = W7 m ρ c (Proc.devRef .tc main_arg6) := W8_keep m ρ c main_arg6 (by decide)
    _ = W6 m ρ c (Proc.devRef .tc main_arg6) := StableHlo.after_of_writes_sub hostOps4_2 _ hostOps4_2_writes (by decide)
    _ = W5 m ρ c (Proc.devRef .tc main_arg6) := StableHlo.after_of_writes_sub hostOps4_1 _ hostOps4_1_writes (by decide)
    _ = W4 m ρ c (Proc.devRef .tc main_arg6) := StableHlo.after_of_writes_sub hostOps4 _ hostOps4_writes (by decide)).trans (
  calc W4 m ρ c (Proc.devRef .tc main_arg6)
    _ = W3 m ρ c (Proc.devRef .tc main_arg6) := W4_keep m ρ c main_arg6 (by decide)
    _ = W2 m ρ c (Proc.devRef .tc main_arg6) := W3_keep m ρ c main_arg6 (by decide)
    _ = W1 m ρ c (Proc.devRef .tc main_arg6) := W2_keep m ρ c main_arg6 (by decide)
    _ = W0 m ρ c (Proc.devRef .tc main_arg6) := W1_keep m ρ c main_arg6 (by decide)
    _ = m ((c : Thread nD τ).loc main_arg6) := rfl)

/-- The low-pass weight is still the launch's before the last stretch. -/
theorem W8_main_arg7 : W8 m ρ c (Proc.devRef .tc main_arg7) = m ((c : Thread nD τ).loc main_arg7) :=
  (
  calc W8 m ρ c (Proc.devRef .tc main_arg7)
    _ = W7 m ρ c (Proc.devRef .tc main_arg7) := W8_keep m ρ c main_arg7 (by decide)
    _ = W6 m ρ c (Proc.devRef .tc main_arg7) := StableHlo.after_of_writes_sub hostOps4_2 _ hostOps4_2_writes (by decide)
    _ = W5 m ρ c (Proc.devRef .tc main_arg7) := StableHlo.after_of_writes_sub hostOps4_1 _ hostOps4_1_writes (by decide)
    _ = W4 m ρ c (Proc.devRef .tc main_arg7) := StableHlo.after_of_writes_sub hostOps4 _ hostOps4_writes (by decide)).trans (
  calc W4 m ρ c (Proc.devRef .tc main_arg7)
    _ = W3 m ρ c (Proc.devRef .tc main_arg7) := W4_keep m ρ c main_arg7 (by decide)
    _ = W2 m ρ c (Proc.devRef .tc main_arg7) := W3_keep m ρ c main_arg7 (by decide)
    _ = W1 m ρ c (Proc.devRef .tc main_arg7) := W2_keep m ρ c main_arg7 (by decide)
    _ = W0 m ρ c (Proc.devRef .tc main_arg7) := W1_keep m ρ c main_arg7 (by decide)
    _ = m ((c : Thread nD τ).loc main_arg7) := rfl)

/-- The high-pass weight is still the launch's before the last stretch. -/
theorem W8_main_arg8 : W8 m ρ c (Proc.devRef .tc main_arg8) = m ((c : Thread nD τ).loc main_arg8) :=
  (
  calc W8 m ρ c (Proc.devRef .tc main_arg8)
    _ = W7 m ρ c (Proc.devRef .tc main_arg8) := W8_keep m ρ c main_arg8 (by decide)
    _ = W6 m ρ c (Proc.devRef .tc main_arg8) := StableHlo.after_of_writes_sub hostOps4_2 _ hostOps4_2_writes (by decide)
    _ = W5 m ρ c (Proc.devRef .tc main_arg8) := StableHlo.after_of_writes_sub hostOps4_1 _ hostOps4_1_writes (by decide)
    _ = W4 m ρ c (Proc.devRef .tc main_arg8) := StableHlo.after_of_writes_sub hostOps4 _ hostOps4_writes (by decide)).trans (
  calc W4 m ρ c (Proc.devRef .tc main_arg8)
    _ = W3 m ρ c (Proc.devRef .tc main_arg8) := W4_keep m ρ c main_arg8 (by decide)
    _ = W2 m ρ c (Proc.devRef .tc main_arg8) := W3_keep m ρ c main_arg8 (by decide)
    _ = W1 m ρ c (Proc.devRef .tc main_arg8) := W2_keep m ρ c main_arg8 (by decide)
    _ = W0 m ρ c (Proc.devRef .tc main_arg8) := W1_keep m ρ c main_arg8 (by decide)
    _ = m ((c : Thread nD τ).loc main_arg8) := rfl)

/-! ## The degree normalisation: what the three stretches leave -/

/-- After the first stretch: the sources, row 0 of the edge list followed by 0, 1, …, 8191. -/
theorem W5_main_v7 : W5 m ρ c (Proc.devRef .tc main_v7) = Cert.RefSpec.src (m ((c : Thread nD τ).loc main_arg1)) := by
  show StableHlo.after hostOps4 (W4 m ρ c) (Proc.devRef .tc main_v7) = _
  after_results
  rw [W4_main_arg1]
  rfl

/-- After the first stretch: the targets, row 1 of the edge list followed by 0, 1, …, 8191. -/
theorem W5_main_v10 : W5 m ρ c (Proc.devRef .tc main_v10) = Cert.RefSpec.dst (m ((c : Thread nD τ).loc main_arg1)) := by
  show StableHlo.after hostOps4 (W4 m ρ c) (Proc.devRef .tc main_v10) = _
  after_results
  rw [W4_main_arg1]
  rfl

/-- After the first stretch: where the degree is positive. -/
theorem W5_main_v16 : W5 m ρ c (Proc.devRef .tc main_v16)
    = cmpf .ogt (Cert.RefSpec.deg (m ((c : Thread nD τ).loc main_arg1)))
        (broadcastInDim S8192 ![] bcast_S_S8192 (constant (F := Ideal) S_ .f32 0x00000000#32)) := by
  show StableHlo.after hostOps4 (W4 m ρ c) (Proc.devRef .tc main_v16) = _
  after_results
  rw [W4_main_arg1]
  rfl

/-- After the first stretch: the reciprocal square root of the degree raised to at least 1. -/
theorem W5_main_v19 : W5 m ρ c (Proc.devRef .tc main_v19)
    = Host.rsqrt (maximumf (Cert.RefSpec.deg (m ((c : Thread nD τ).loc main_arg1)))
        (broadcastInDim S8192 ![] bcast_S_S8192 (constant (F := Ideal) S_ .f32 0x3F800000#32))) := by
  show StableHlo.after hostOps4 (W4 m ρ c) (Proc.devRef .tc main_v19) = _
  after_results
  rw [W4_main_arg1]
  rfl

/-- After the first stretch: the scalar zero the selection falls back to. -/
theorem W5_main_cst_3 : W5 m ρ c (Proc.devRef .tc main_cst_3) = constant (F := Ideal) S_ .f32 0x00000000#32 := by
  show StableHlo.after hostOps4 (W4 m ρ c) (Proc.devRef .tc main_cst_3) = _
  after_results

/-- After the second stretch: deg^(-1/2) where the degree is positive, else 0. -/
theorem W6_main_v20 : W6 m ρ c (Proc.devRef .tc main_v20) = Cert.RefSpec.dis (m ((c : Thread nD τ).loc main_arg1)) := by
  show StableHlo.after hostOps4_1 (W5 m ρ c) (Proc.devRef .tc main_v20) = _
  have h16 := W5_main_v16 m ρ c
  have h19 := W5_main_v19 m ρ c
  have h3 := W5_main_cst_3 m ρ c
  generalize W5 m ρ c = V at h16 h19 h3 ⊢
  after_results
  rw [h16, h19, h3]
  simp only [TRef.toBuf, TRef.ofBuf, cast_eq]
  rfl

/-- The second stretch leaves the two lists as they were. -/
theorem W6_main_v7 : W6 m ρ c (Proc.devRef .tc main_v7) = Cert.RefSpec.src (m ((c : Thread nD τ).loc main_arg1)) :=
  (StableHlo.after_of_writes_sub hostOps4_1 _ hostOps4_1_writes (by decide)).trans (W5_main_v7 m ρ c)
theorem W6_main_v10 : W6 m ρ c (Proc.devRef .tc main_v10) = Cert.RefSpec.dst (m ((c : Thread nD τ).loc main_arg1)) :=
  (StableHlo.after_of_writes_sub hostOps4_1 _ hostOps4_1_writes (by decide)).trans (W5_main_v10 m ρ c)

set_option maxHeartbeats 2000000 in
/-- The third stretch read over any contents: from the factors and the two lists, per list position the factor of the
    source times that of the target. -/
theorem norm_read (V : Valuation τ sig (Elt Ideal)) (e : IVec S2x262144 32)
    (h20 : V (Proc.devRef .tc main_v20) = Cert.RefSpec.dis e) (h7 : V (Proc.devRef .tc main_v7) = Cert.RefSpec.src e)
    (h10 : V (Proc.devRef .tc main_v10) = Cert.RefSpec.dst e) :
    StableHlo.after hostOps4_2 V (Proc.devRef .tc main_v35) = Cert.RefSpec.norm e := by
  after_results_simp
  rw [h20, h7, h10]
  rfl

/-- After the third stretch: per list position, the factor of the source times that of the target. -/
theorem W7_main_v35 : W7 m ρ c (Proc.devRef .tc main_v35) = Cert.RefSpec.norm (m ((c : Thread nD τ).loc main_arg1)) :=
  norm_read (W6 m ρ c) _ (W6_main_v20 m ρ c) (W6_main_v7 m ρ c) (W6_main_v10 m ρ c)

/-- The third stretch leaves the two lists as they were. -/
theorem W7_main_v7 : W7 m ρ c (Proc.devRef .tc main_v7) = Cert.RefSpec.src (m ((c : Thread nD τ).loc main_arg1)) :=
  (StableHlo.after_of_writes_sub hostOps4_2 _ hostOps4_2_writes (by decide)).trans (W6_main_v7 m ρ c)
theorem W7_main_v10 : W7 m ρ c (Proc.devRef .tc main_v10) = Cert.RefSpec.dst (m ((c : Thread nD τ).loc main_arg1)) :=
  (StableHlo.after_of_writes_sub hostOps4_2 _ hostOps4_2_writes (by decide)).trans (W6_main_v10 m ρ c)

/-- The fifth region leaves the three lists as they were. -/
theorem W8_main_v7 : W8 m ρ c (Proc.devRef .tc main_v7) = Cert.RefSpec.src (m ((c : Thread nD τ).loc main_arg1)) :=
  (W8_keep m ρ c main_v7 (by decide)).trans (W7_main_v7 m ρ c)
theorem W8_main_v10 : W8 m ρ c (Proc.devRef .tc main_v10) = Cert.RefSpec.dst (m ((c : Thread nD τ).loc main_arg1)) :=
  (W8_keep m ρ c main_v10 (by decide)).trans (W7_main_v10 m ρ c)
theorem W8_main_v35 : W8 m ρ c (Proc.devRef .tc main_v35) = Cert.RefSpec.norm (m ((c : Thread nD τ).loc main_arg1)) :=
  (W8_keep m ρ c main_v35 (by decide)).trans (W7_main_v35 m ρ c)

/-! ## The result -/

/-- The program's result is the shared host chain  tail  of the high-pass result (the fourth region's output) and the
    projection  x · W_conv  (the fifth region's output), the edge list, the bias and the two weights. -/
theorem tail_read :
    W9 m ρ c (Proc.devRef .tc main_v61)
      = Cert.RefSpec.tail (W4 m ρ c (Proc.devRef .tc main_v3)) (W8 m ρ c (Proc.devRef .tc main_v36))
          (m ((c : Thread nD τ).loc main_arg1)) (m ((c : Thread nD τ).loc main_arg6))
          (m ((c : Thread nD τ).loc main_arg7)) (m ((c : Thread nD τ).loc main_arg8)) := by
  show StableHlo.after hostOps5 (W8 m ρ c) (Proc.devRef .tc main_v61) = _
  after_results_simp
  rw [W8_main_v7, W8_main_v10, W8_main_v35, W8_main_arg6, W8_main_arg7, W8_main_arg8, W8_main_v3]
  rfl

end Cert.KernelIdeal.Asm

end
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.R0Value.lean ====
/-
  Region 0 on extended reals: its output array ends holding the rectified matrix product of its two operand
  arrays.

  The grid has one contraction step: point t works on rows 2048 t … of the left operand against the whole right
  operand. The body fills the accumulator with zeros, adds to it the product of the point's two blocks, and stores
  the maximum of the accumulator and zero into the output block. A change of float format is the identity on
  extended reals and the product into the zero splat is the plain sum, so entry (p, q) of the output block is
  max (∑ j, left (2048 t + p, j) · right (j, q)) 0: entry (2048 t + p, q) of the rectified matrix product. The four
  write-backs cover the 8192 rows.
-/
import proofs.«126198_j83554293777022_1_alg».proof.Proof.R0Body
import proofs.«126198_j83554293777022_1_alg».proof.Proof.Spec
import proofs.«126198_j83554293777022_1_alg».proof.Proof.LibMatmulPlain
import Idealize.ShloMosaic.Lib.Pipeline.Value

set_option maxRecDepth 16384

noncomputable section

open scoped BigOperators

namespace Cert.KernelIdeal.R0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

/-! ## What the body leaves in the output block, as its arithmetic over the point's blocks -/

section Pieces
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The accumulator is filled with zeros, the product of the two blocks is added to it, and the rectifier of the sum
    goes to the output block. -/
theorem oD_eq (c : Dev nD) (t : Fin cfg0.N) :
    oD V c t = k0_pay3 (k0_pay2 (iblk V c 0 t) (iblk V c 1 t) (k0_pay1 (F := F))) := by
  unfold oD
  rw [View.read_writes_eq_canon _ _ _ (coverDo V c t)]
  unfold runD
  dsimp only
  sl_unfold_words
  rw [View.canon_unit_zero hz]
  rw [View.readCov_cons_toLoadRect]
  simp only [View.readAt_eq_ld, (hs_0 t).read_unread, (hs_1 t).read_unread, View.ld_unit_zero (S := S2048x256) hz, View.ld_unit_zero (S := S256x256) hz]
  rw [View.readCov_unit_zero (S := S2048x256) _ hz]

end Pieces

/-! ## On extended reals -/

section AtIdeal
variable (V : (c : Dev nD) → (b : Ref sig .tc) → Buf (Elt Ideal) ((c : Thread nD τ).loc b))

/-- The zero fill at an entry. -/
theorem pay1_apply (p : Fin 2048) (q : Fin 256) : (k0_pay1 (F := Ideal)) (ix2 p q) = 0 := by
  unfold k0_pay1
  rw [shapeCast_self]
  exact Ideal.ofBits_zero_f32

/-- The step's arithmetic at an entry: the accumulator's entry plus the sum of the 256 products of the two blocks'
    entries (the changes of float format are the identity). -/
theorem pay2_apply (v3 : Vec Ideal S2048x256 .f32) (v5 : Vec Ideal S256x256 .f32) (v7 : Vec Ideal S2048x256 .f32)
    (p : Fin 2048) (q : Fin 256) :
    k0_pay2 v3 v5 v7 (ix2 p q) = v7 (ix2 p q) + ∑ j : Fin 256, v3 (ix2 p j) * v5 (ix2 j q) := by
  unfold k0_pay2
  rw [shapeCast_self]
  refine congrArg (v7 (ix2 p q) + ·) ?_
  exact MatmulPlain.matmul_zero_apply (A := 2048) (K := 256) (B := 256) dot_S2048x256_S256x256_S2048x256_1_0_0_1_n_n rfl rfl rfl rfl rfl rfl none
    (truncf .bf16 v3 bitsLt_bf16_f32) (truncf .bf16 v5 bitsLt_bf16_f32) p q

/-- The rectifier at an entry. -/
theorem pay3_apply (v16 : Vec Ideal S2048x256 .f32) (p : Fin 2048) (q : Fin 256) :
    k0_pay3 v16 (ix2 p q) = max (v16 (ix2 p q)) 0 := by
  unfold k0_pay3
  show max (v16 (ix2 p q)) (Ideal.ofBits .f32 0x00000000#32) = _
  rw [Ideal.ofBits_zero_f32]

/-- The printed index maps over the grid: point t is row block t; the right operand has one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two operand arrays as the region finds them. -/
abbrev lhs (c : Dev nD) : S8192x256.Idx → EReal := V c (Pipeline.arrRef spec0 0)
abbrev rhs (c : Dev nD) : S256x256.Idx → EReal := V c (Pipeline.arrRef spec0 1)

/-- The left operand's block at point t: rows 2048 t … of the array, all 256 columns. -/
theorem iblk0_apply (c : Dev nD) (t : Fin cfg0.N) (p : Fin 2048) (j : Fin 256) (hr : 2048 * t.val + p.val < 8192) :
    (iblk V c 0 t : Vec Ideal S2048x256 .f32) (ix2 p j) = lhs V c (ix2 ⟨2048 * t.val + p.val, hr⟩ j) := by
  obtain ⟨e0, e1, -⟩ := idx_facts t
  unfold iblk
  rw [View.read_apply]
  show lhs V c _ = _
  refine congrArg (lhs V c) (funext fun a => Fin.ext ?_)
  match a with
  | ⟨0, _⟩ =>
    show win0_0.index t (0 : Fin 2) * 2048 + 1 * p.val = 2048 * t.val + p.val
    rw [e0]; omega
  | ⟨1, _⟩ =>
    show win0_0.index t (1 : Fin 2) * 256 + 1 * j.val = j.val
    rw [e1]; omega

/-- The right operand's one block is the array. -/
theorem iblk1_apply (c : Dev nD) (t : Fin cfg0.N) (j : Fin 256) (q : Fin 256) :
    (iblk V c 1 t : Vec Ideal S256x256 .f32) (ix2 j q) = rhs V c (ix2 j q) := by
  obtain ⟨-, -, e0, e1, -⟩ := idx_facts t
  unfold iblk
  rw [View.read_apply]
  show rhs V c _ = _
  refine congrArg (rhs V c) (funext fun a => Fin.ext ?_)
  match a with
  | ⟨0, _⟩ =>
    show win0_1.index t (0 : Fin 2) * 256 + 1 * j.val = j.val
    rw [e0]; omega
  | ⟨1, _⟩ =>
    show win0_1.index t (1 : Fin 2) * 256 + 1 * q.val = q.val
    rw [e1]; omega

/-- The region's result as one function of the two operand arrays. -/
abbrev result (c : Dev nD) : S8192x256.Idx → EReal :=
  Cert.Spec.relu0 (a := 8192) (b := 256) (Cert.Spec.mm (a := 8192) (k := 256) (b := 256) (lhs V c) (rhs V c))

/-- What point t stores into the output block, at an entry. -/
theorem out_apply (c : Dev nD) (t : Fin cfg0.N) (p : Fin 2048) (q : Fin 256) (hr : 2048 * t.val + p.val < 8192) :
    k0_pay3 (k0_pay2 (iblk V c 0 t) (iblk V c 1 t) (k0_pay1 (F := Ideal))) (ix2 p q)
      = result V c (ix2 ⟨2048 * t.val + p.val, hr⟩ q) := by
  unfold result
  refine (pay3_apply _ p q).trans ?_
  rw [Cert.Spec.relu0_apply, Cert.Spec.mm_apply]
  refine congrArg (max · (0 : EReal)) ?_
  refine (pay2_apply (iblk V c 0 t) (iblk V c 1 t) _ p q).trans ?_
  rw [pay1_apply p q, zero_add]
  refine Finset.sum_congr rfl fun j _ => ?_
  rw [iblk0_apply V c t p j hr, iblk1_apply V c t j q]

/-- What point t writes back is the block of rows 2048 t … of the result. -/
theorem flushed_eq (c : Dev nD) (t : Fin cfg0.N) (hf : (cfg0.win 2).flush t = true) :
    (dat (F := Ideal) V c).flushed 2 t = ((cfg0.win 2).blk t).view.read (Elt Ideal) (result V c) := by
  have hN : cfg0.N = 4 := N_0
  have ht : t.val < 4 := hN ▸ t.isLt
  obtain ⟨-, -, -, -, e0, e1⟩ := idx_facts t
  show (cfg0.win 2).cut (grid0.coords t) ((dat V c).after 2 t) = _
  rw [after_2 V c t, oD_eq V c t]
  funext y
  obtain ⟨p, q, rfl⟩ : ∃ (p : Fin 2048) (q : Fin 256), y = ix2 p q := ⟨y 0, y 1, eq_ix2 y⟩
  have hr : 2048 * t.val + p.val < 8192 := by omega
  rw [View.read_apply]
  refine (out_apply V c t p q hr).trans ?_
  refine congrArg (result V c) (funext fun a => Fin.ext ?_)
  match a with
  | ⟨0, _⟩ =>
    show 2048 * t.val + p.val = win0_2.index t (0 : Fin 2) * 2048 + 1 * p.val
    rw [e0]; omega
  | ⟨1, _⟩ =>
    show q.val = win0_2.index t (1 : Fin 2) * 256 + 1 * q.val
    rw [e1]; omega

/-- Every row of the output lies in the block its row block's point writes back. -/
theorem cover (i : S8192x256.Idx) :
    ∃ t : Fin cfg0.N, (cfg0.win 2).flush t = true ∧ i ∈ ((cfg0.win 2).blk t).view.set := by
  have hN : cfg0.N = 4 := N_0
  have h0 : (i 0).val < 8192 := (i 0).isLt
  have h1 : (i 1).val < 256 := (i 1).isLt
  let t : Fin cfg0.N := ⟨(i 0).val / 2048, by rw [hN]; omega⟩
  have hv : t.val = (i 0).val / 2048 := rfl
  obtain ⟨-, -, -, -, e0, e1⟩ := idx_facts t
  refine ⟨t, flush0_2 t, ?_⟩
  show i ∈ ((View.whole main_v0).slice (win0_2.rect t)).set
  rw [View.set_slice_whole, Rect.mem_set_unit]
  intro a
  match a with
  | ⟨0, _⟩ =>
    show win0_2.index t (0 : Fin 2) * 2048 ≤ (i 0).val ∧ (i 0).val < win0_2.index t (0 : Fin 2) * 2048 + 2048
    rw [e0, hv]; omega
  | ⟨1, _⟩ =>
    show win0_2.index t (1 : Fin 2) * 256 ≤ (i 1).val ∧ (i 1).val < win0_2.index t (1 : Fin 2) * 256 + 256
    rw [e1]; omega

/-- The region's output array ends holding the rectified matrix product of its two operand arrays. -/
theorem final (c : Dev nD) :
    (dat (F := Ideal) V c).arrAt 2 cfg0.N
      = (Cert.Spec.relu0 (a := 8192) (b := 256) (Cert.Spec.mm (a := 8192) (k := 256) (b := 256)
          (V c (Pipeline.arrRef spec0 0) : S8192x256.Idx → EReal)
          (V c (Pipeline.arrRef spec0 1) : S256x256.Idx → EReal)) : S8192x256.Idx → EReal) :=
  (dat (F := Ideal) V c).arrAt_eq_of_cover 2 _ (fun t hf => flushed_eq V c t hf) cover

end AtIdeal

end Cert.KernelIdeal.R0

end
-- ==== Proof.LibBlockSum.lean ====
/-
  Two small tools for sums along a contracted axis that is traversed in consecutive runs.

  `rd X r c` reads entry (r, c) of a matrix of extended reals at natural-number coordinates (zero outside the
  matrix), so that sums over runs of an axis can be written over ranges of naturals without carrying bounds.
  `sum_range_blocks`: a sum of n·m terms is the sum, over n consecutive runs, of the m terms of each run.
-/
import Idealize.ShloMosaic.PureOps.Ideal
import Idealize.ShloMosaic.Lib.ValueIdx

noncomputable section

open scoped BigOperators
open Idealize.ShloMosaic Idealize.ShloMosaic.ValueIdx

namespace Cert.Lib.BlockSum

/-- Entry (r, c) of an [a, b] matrix, zero outside it. -/
def rd {a b : ℕ} (X : FVec Ideal ⟨2, ![a, b]⟩ .f32) (r c : ℕ) : EReal :=
  if h : r < a ∧ c < b then X (ix2 ⟨r, h.1⟩ ⟨c, h.2⟩) else 0

/-- At coordinates inside the matrix it is the entry. -/
theorem rd_eq {a b : ℕ} (X : FVec Ideal ⟨2, ![a, b]⟩ .f32) (p : Fin a) (q : Fin b) :
    rd X p.val q.val = X (ix2 p q) := by
  unfold rd
  rw [dif_pos ⟨p.isLt, q.isLt⟩]

/-- An entry at an index whose coordinates are the naturals r and c. -/
theorem eq_rd {a b : ℕ} (X : FVec Ideal ⟨2, ![a, b]⟩ .f32) (k : (⟨2, ![a, b]⟩ : Shape).Idx) (r c : ℕ)
    (h0 : (k 0).val = r) (h1 : (k 1).val = c) : X k = rd X r c := by
  subst h0 h1
  exact (congrArg X (eq_ix2 k)).trans (rd_eq X (k 0) (k 1)).symm

/-- A sum of n·m terms, cut into n consecutive runs of m. -/
theorem sum_range_blocks {M : Type*} [AddCommMonoid M] (m : ℕ) (f : ℕ → M) :
    ∀ n : ℕ, ∑ s ∈ Finset.range n, ∑ j ∈ Finset.range m, f (m * s + j) = ∑ j ∈ Finset.range (n * m), f j
  | 0 => by simp
  | n + 1 => by
    rw [Finset.sum_range_succ, sum_range_blocks m f n, Nat.succ_mul, Finset.sum_range_add, Nat.mul_comm m n]

end Cert.Lib.BlockSum

end
-- ==== Proof.R1Value.lean ====
/-
  Region 1 on extended reals: its output array ends holding the matrix product of its two operand arrays.

  The grid is row-block-major: point t works on row block t / 4 (1024 rows of the left operand) at contraction
  step t % 4 (2048 columns of the left operand against 2048 rows of the right one). Each case of the body is the
  body's arithmetic over the point's two blocks and the accumulator before it: the accumulator's entry plus the
  sum of the 2048 products of the step. A change of float format is the identity on extended reals and the
  product into the zero splat is the plain sum, so after step k of a row block the accumulator's entry (p, q) is
  the sum of the step sums 0 … k; step 0 starts from the zero fill. After step 3 the four runs of 2048 make the
  whole contracted axis of 8192, the entry is entry (1024 (t / 4) + p, q) of the matrix product, and that is what
  the step copies to the output block and writes back. The eight write-backs cover the 8192 rows.
  Sums of extended reals form a commutative monoid; no law that needs finiteness is used.
-/
import proofs.«126198_j83554293777022_1_alg».proof.Proof.R1Body
import proofs.«126198_j83554293777022_1_alg».proof.Proof.Spec
import proofs.«126198_j83554293777022_1_alg».proof.Proof.LibMatmulPlain
import proofs.«126198_j83554293777022_1_alg».proof.Proof.LibBlockSum
import Idealize.ShloMosaic.Lib.Pipeline.Value

set_option maxRecDepth 16384

noncomputable section

open scoped BigOperators

namespace Cert.KernelIdeal.R1

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Lib.BlockSum

/-! ## What each case of the body leaves, as the body's arithmetic over the point's blocks -/

section Pieces
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The clearing step: the accumulator is filled with zeros, then the product of the two blocks is added. -/
theorem sA_eq (c : Dev nD) (t : Fin cfg1.N) (hA : condA (grid1.coords t)) (hL : ¬condL (grid1.coords t)) :
    sA V c t hA hL = k1_pay2 (iblk V c 0 t) (iblk V c 1 t) (k1_pay1 (F := F)) := by
  unfold sA
  rw [View.read_writes_eq_canon _ _ _ (coverA V c t hA hL)]
  unfold runA
  dsimp only
  sl_unfold_words
  rw [View.canon_cons_unit_zero hz]
  simp only [View.readAt_eq_ld, (hs_0 t).read_unread, (hs_1 t).read_unread, View.ld_unit_zero (S := S1024x2048) hz, View.ld_unit_zero (S := S2048x256) hz, View.ld_unit_zero (S := S1024x256) hz]
  rw [View.readCov_unit_zero (S := S1024x256) _ hz]

/-- A middle step adds the product of the two blocks to the accumulator. -/
theorem sB_eq (c : Dev nD) (t : Fin cfg1.N) (hA : ¬condA (grid1.coords t)) (hL : ¬condL (grid1.coords t)) (xs : Vec F S1024x256 .f32) :
    sB V c t hA hL xs = k1_pay2 (iblk V c 0 t) (iblk V c 1 t) xs := by
  unfold sB
  rw [View.read_writes_eq_canon _ _ _ (coverB V c t hA hL xs)]
  unfold runB
  dsimp only
  sl_unfold_words
  rw [View.canon_unit_zero hz]
  simp only [View.readAt_eq_ld, (hs_0 t).read_unread, (hs_1 t).read_unread, (Memref.isWhole_whole cc1_scratch0).read_unread, View.ld_unit_zero (S := S1024x2048) hz, View.ld_unit_zero (S := S2048x256) hz, View.ld_unit_zero (S := S1024x256) hz]

/-- The last step does the same to the accumulator … -/
theorem sC_eq (c : Dev nD) (t : Fin cfg1.N) (hA : ¬condA (grid1.coords t)) (hL : condL (grid1.coords t)) (xs : Vec F S1024x256 .f32) :
    sC V c t hA hL xs = k1_pay2 (iblk V c 0 t) (iblk V c 1 t) xs := by
  unfold sC
  rw [View.read_writes_eq_canon _ _ _ (coverCs V c t hA hL xs)]
  unfold runC
  dsimp only
  sl_unfold_words
  rw [View.canon_unit_zero hz]
  simp only [View.readAt_eq_ld, (hs_0 t).read_unread, (hs_1 t).read_unread, (Memref.isWhole_whole cc1_scratch0).read_unread, View.ld_unit_zero (S := S1024x2048) hz, View.ld_unit_zero (S := S2048x256) hz, View.ld_unit_zero (S := S1024x256) hz]

/-- … and copies the accumulator's new contents to the output block. -/
theorem oC_eq (c : Dev nD) (t : Fin cfg1.N) (hA : ¬condA (grid1.coords t)) (hL : condL (grid1.coords t)) (xs : Vec F S1024x256 .f32) :
    oC V c t hA hL xs = k1_pay2 (iblk V c 0 t) (iblk V c 1 t) xs := by
  unfold oC
  rw [View.read_writes_eq_canon _ _ _ (coverCo V c t hA hL xs)]
  unfold runC
  dsimp only
  sl_unfold_words
  rw [View.canon_unit_zero hz]
  simp only [View.readAt_eq_ld, (hs_0 t).read_unread, (hs_1 t).read_unread, (Memref.isWhole_whole cc1_scratch0).read_unread, View.ld_unit_zero (S := S1024x2048) hz, View.ld_unit_zero (S := S2048x256) hz, View.ld_unit_zero (S := S1024x256) hz]
  rw [View.readCov_unit_zero (S := S1024x256) _ hz]

end Pieces

/-! ## On extended reals -/

section AtIdeal
variable (V : (c : Dev nD) → (b : Ref sig .tc) → Buf (Elt Ideal) ((c : Thread nD τ).loc b))

/-- The zero fill at an entry. -/
theorem pay1_apply (p : Fin 1024) (q : Fin 256) : (k1_pay1 (F := Ideal)) (ix2 p q) = 0 := by
  unfold k1_pay1
  rw [shapeCast_self]
  exact Ideal.ofBits_zero_f32

/-- One step's arithmetic at an entry: the accumulator's entry plus the sum, over the step's 2048 contracted
    positions, of the products of the two blocks' entries (the changes of float format are the identity). -/
theorem pay2_apply (v3 : Vec Ideal S1024x2048 .f32) (v5 : Vec Ideal S2048x256 .f32) (v8 : Vec Ideal S1024x256 .f32)
    (p : Fin 1024) (q : Fin 256) :
    k1_pay2 v3 v5 v8 (ix2 p q) = v8 (ix2 p q) + ∑ j : Fin 2048, v3 (ix2 p j) * v5 (ix2 j q) := by
  unfold k1_pay2
  rw [shapeCast_self, shapeCast_self]
  refine congrArg (v8 (ix2 p q) + ·) ?_
  exact MatmulPlain.matmul_zero_apply (A := 1024) (K := 2048) (B := 256) dot_S1024x2048_S2048x256_S1024x256_1_0_0_1_n_n rfl rfl rfl rfl rfl rfl none
    (truncf .bf16 v3 bitsLt_bf16_f32) (truncf .bf16 v5 bitsLt_bf16_f32) p q

/-- The printed index maps over the grid: point t is row block t / 4 and contraction step t % 4. -/
theorem idx_facts : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = t.val / 4 ∧ win1_2.index t (1 : Fin 2) = 0 :=
  (by decide +kernel : ∀ t : Fin grid1.N, _)

/-- The left operand's block at point t: rows 1024 (t / 4) …, columns 2048 (t % 4) … of the array. -/
theorem iblk0_apply (c : Dev nD) (t : Fin cfg1.N) (p : Fin 1024) (j : Fin 2048) :
    (iblk V c 0 t : Vec Ideal S1024x2048 .f32) (ix2 p j)
      = rd (V c (Pipeline.arrRef spec1 0) : S8192x8192.Idx → EReal) (1024 * (t.val / 4) + p.val) (2048 * (t.val % 4) + j.val) := by
  obtain ⟨e0, e1, -⟩ := idx_facts t
  unfold iblk
  rw [View.read_apply]
  show (V c (Pipeline.arrRef spec1 0) : S8192x8192.Idx → EReal) _ = _
  refine eq_rd _ _ _ _ ?_ ?_
  · show win1_0.index t (0 : Fin 2) * 1024 + 1 * p.val = _
    rw [e0]; omega
  · show win1_0.index t (1 : Fin 2) * 2048 + 1 * j.val = _
    rw [e1]; omega

/-- The right operand's block at point t: rows 2048 (t % 4) … of the array, all 256 columns. -/
theorem iblk1_apply (c : Dev nD) (t : Fin cfg1.N) (j : Fin 2048) (q : Fin 256) :
    (iblk V c 1 t : Vec Ideal S2048x256 .f32) (ix2 j q)
      = rd (V c (Pipeline.arrRef spec1 1) : S8192x256.Idx → EReal) (2048 * (t.val % 4) + j.val) q.val := by
  obtain ⟨-, -, e0, e1, -⟩ := idx_facts t
  unfold iblk
  rw [View.read_apply]
  show (V c (Pipeline.arrRef spec1 1) : S8192x256.Idx → EReal) _ = _
  refine eq_rd _ _ _ _ ?_ ?_
  · show win1_1.index t (0 : Fin 2) * 2048 + 1 * j.val = _
    rw [e0]; omega
  · show win1_1.index t (1 : Fin 2) * 256 + 1 * q.val = _
    rw [e1]; omega

/-- The two operand arrays as the region finds them. -/
abbrev lhs (c : Dev nD) : S8192x8192.Idx → EReal := V c (Pipeline.arrRef spec1 0)
abbrev rhs (c : Dev nD) : S8192x256.Idx → EReal := V c (Pipeline.arrRef spec1 1)

/-- Step s of row block i at entry (p, q) of the block: the products over the step's 2048 contracted positions. -/
def stepSum (c : Dev nD) (i s : ℕ) (p : Fin 1024) (q : Fin 256) : EReal :=
  ∑ j ∈ Finset.range 2048, rd (lhs V c) (1024 * i + p.val) (2048 * s + j) * rd (rhs V c) (2048 * s + j) q.val

/-- One step's arithmetic over the point's two blocks adds that step's sum to the accumulator's entry. -/
theorem step_apply (c : Dev nD) (t : Fin cfg1.N) (xs : Vec Ideal S1024x256 .f32) (p : Fin 1024) (q : Fin 256) :
    k1_pay2 (iblk V c 0 t) (iblk V c 1 t) xs (ix2 p q) = xs (ix2 p q) + stepSum V c (t.val / 4) (t.val % 4) p q := by
  refine (pay2_apply (iblk V c 0 t) (iblk V c 1 t) xs p q).trans ?_
  refine congrArg (xs (ix2 p q) + ·) ?_
  unfold stepSum
  rw [← Fin.sum_univ_eq_sum_range (fun j => rd (lhs V c) (1024 * (t.val / 4) + p.val) (2048 * (t.val % 4) + j) * rd (rhs V c) (2048 * (t.val % 4) + j) q.val) 2048]
  refine Finset.sum_congr rfl fun j _ => ?_
  rw [iblk0_apply V c t p j, iblk1_apply V c t j q]

/-- One point's effect on the accumulator at an entry: step 0 of a row block starts from zero, a later step from
    the accumulator before it; either adds the point's step sum. -/
theorem stepAcc_apply (c : Dev nD) (t : Fin cfg1.N) (prev : Vec Ideal S1024x256 .f32) (p : Fin 1024) (q : Fin 256) :
    stepAcc V c t prev (ix2 p q)
      = (if t.val % 4 = 0 then 0 else prev (ix2 p q)) + stepSum V c (t.val / 4) (t.val % 4) p q := by
  unfold stepAcc
  by_cases hA : condA (grid1.coords t)
  · have h0 : t.val % 4 = 0 := (hcondA t).mp hA
    have hL : ¬condL (grid1.coords t) := fun h => by have := (hcondL t).mp h; omega
    rw [dif_pos hA, dif_neg hL, sA_eq V c t hA hL, if_pos h0]
    refine (step_apply V c t (k1_pay1 (F := Ideal)) p q).trans ?_
    rw [pay1_apply p q]
  · have h0 : ¬t.val % 4 = 0 := fun h => hA ((hcondA t).mpr h)
    rw [dif_neg hA, if_neg h0]
    by_cases hL : condL (grid1.coords t)
    · rw [dif_pos hL, sC_eq V c t hA hL prev]
      exact step_apply V c t prev p q
    · rw [dif_neg hL, sB_eq V c t hA hL prev]
      exact step_apply V c t prev p q

theorem accAt_zero (c : Dev nD) (hn : 0 < cfg1.N) :
    accAt V c 0 hn = stepAcc V c ⟨0, hn⟩ (k1_pay1 (F := Ideal)) := rfl
theorem accAt_succ (c : Dev nD) (n : ℕ) (hn : n + 1 < cfg1.N) :
    accAt V c (n + 1) hn = stepAcc V c ⟨n + 1, hn⟩ (accAt V c n (Nat.lt_of_succ_lt hn)) := rfl

/-- After the point at position n (row block n / 4, step n % 4) the accumulator's entry (p, q) is the sum of the
    row block's step sums up to this step. -/
theorem accAt_apply (c : Dev nD) : ∀ (n : ℕ) (hn : n < cfg1.N) (p : Fin 1024) (q : Fin 256),
    accAt V c n hn (ix2 p q) = ∑ s ∈ Finset.range (n % 4 + 1), stepSum V c (n / 4) s p q := by
  intro n
  induction n with
  | zero =>
    intro hn p q
    rw [accAt_zero V c hn, stepAcc_apply V c ⟨0, hn⟩ _ p q]
    show (if 0 % 4 = 0 then (0 : EReal) else _) + stepSum V c (0 / 4) (0 % 4) p q = _
    rw [if_pos rfl, zero_add, Finset.sum_range_one]
  | succ n ih =>
    intro hn p q
    rw [accAt_succ V c n hn, stepAcc_apply V c ⟨n + 1, hn⟩ _ p q, ih (Nat.lt_of_succ_lt hn) p q]
    show (if (n + 1) % 4 = 0 then (0 : EReal) else _) + stepSum V c ((n + 1) / 4) ((n + 1) % 4) p q = _
    by_cases h : (n + 1) % 4 = 0
    · rw [if_pos h, h, zero_add, Finset.sum_range_one]
    · have e1 : n / 4 = (n + 1) / 4 := by omega
      have e2 : n % 4 + 1 = (n + 1) % 4 := by omega
      rw [if_neg h, e1, e2, Finset.sum_range_succ _ ((n + 1) % 4)]

/-- The four step sums of a row block make the full contraction: entry (1024 i + p, q) of the matrix product. -/
theorem sum_steps (c : Dev nD) (i : ℕ) (p : Fin 1024) (q : Fin 256) (hr : 1024 * i + p.val < 8192) :
    ∑ s ∈ Finset.range 4, stepSum V c i s p q
      = Cert.Spec.mm (a := 8192) (k := 8192) (b := 256) (lhs V c) (rhs V c) (ix2 ⟨1024 * i + p.val, hr⟩ q) := by
  unfold stepSum
  rw [sum_range_blocks 2048 (fun j => rd (lhs V c) (1024 * i + p.val) j * rd (rhs V c) j q.val) 4,
    Cert.Spec.mm_apply,
    ← Fin.sum_univ_eq_sum_range (fun j => rd (lhs V c) (1024 * i + p.val) j * rd (rhs V c) j q.val) (4 * 2048)]
  refine Finset.sum_congr rfl fun j _ => ?_
  rw [← rd_eq (lhs V c) ⟨1024 * i + p.val, hr⟩ j, ← rd_eq (rhs V c) j q]

/-- What the last step of a row block stores into the output block, at an entry. -/
theorem out_apply (c : Dev nD) (t : Fin cfg1.N) (h3 : t.val % 4 = 3) (p : Fin 1024) (q : Fin 256)
    (hr : 1024 * (t.val / 4) + p.val < 8192) :
    k1_pay2 (iblk V c 0 t) (iblk V c 1 t) (accBefore V c t.val t.isLt) (ix2 p q)
      = Cert.Spec.mm (a := 8192) (k := 8192) (b := 256) (lhs V c) (rhs V c) (ix2 ⟨1024 * (t.val / 4) + p.val, hr⟩ q) := by
  have hz : t.val ≠ 0 := by omega
  refine (step_apply V c t _ p q).trans ?_
  rw [accBefore_pos V c t.val t.isLt hz, accAt_apply V c (t.val - 1) _ p q, ← sum_steps V c (t.val / 4) p q hr]
  have e1 : (t.val - 1) / 4 = t.val / 4 := by omega
  have e2 : (t.val - 1) % 4 + 1 = 3 := by omega
  rw [e1, e2, h3, Finset.sum_range_succ _ 3]

/-- What the last step of row block t / 4 writes back is the block of rows 1024 (t / 4) … of the matrix product. -/
theorem flushed_eq (c : Dev nD) (t : Fin cfg1.N) (hf : (cfg1.win 2).flush t = true) :
    (dat (F := Ideal) V c).flushed 2 t
      = ((cfg1.win 2).blk t).view.read (Elt Ideal)
          (Cert.Spec.mm (a := 8192) (k := 8192) (b := 256) (lhs V c) (rhs V c) : S8192x256.Idx → EReal) := by
  have h3 : t.val % 4 = 3 := (flush1_2 t).mp hf
  have hL : condL (grid1.coords t) := (hcondL t).mpr h3
  have hA : ¬condA (grid1.coords t) := fun h => by have := (hcondA t).mp h; omega
  have hN : cfg1.N = 32 := N_1
  have ht : t.val < 32 := hN ▸ t.isLt
  obtain ⟨-, -, -, -, e0, e1⟩ := idx_facts t
  show (cfg1.win 2).cut (grid1.coords t) ((dat V c).after 2 t) = _
  rw [after_2 V c t]
  rw [show stepOut V c t (accBefore V c t.val t.isLt) = oC V c t hA hL (accBefore V c t.val t.isLt) from by
    unfold stepOut; rw [dif_neg hA, dif_pos hL]]
  rw [oC_eq V c t hA hL]
  funext y
  obtain ⟨p, q, rfl⟩ : ∃ (p : Fin 1024) (q : Fin 256), y = ix2 p q := ⟨y 0, y 1, eq_ix2 y⟩
  have hr : 1024 * (t.val / 4) + p.val < 8192 := by omega
  rw [View.read_apply]
  refine (out_apply V c t h3 p q hr).trans ?_
  refine congrArg (Cert.Spec.mm (a := 8192) (k := 8192) (b := 256) (lhs V c) (rhs V c)) (funext fun a => Fin.ext ?_)
  match a with
  | ⟨0, _⟩ =>
    show 1024 * (t.val / 4) + p.val = win1_2.index t (0 : Fin 2) * 1024 + 1 * p.val
    rw [e0]; omega
  | ⟨1, _⟩ =>
    show q.val = win1_2.index t (1 : Fin 2) * 256 + 1 * q.val
    rw [e1]; omega

/-- Every row of the output lies in the block its row block's last step writes back. -/
theorem cover (i : S8192x256.Idx) :
    ∃ t : Fin cfg1.N, (cfg1.win 2).flush t = true ∧ i ∈ ((cfg1.win 2).blk t).view.set := by
  have hN : cfg1.N = 32 := N_1
  have h0 : (i 0).val < 8192 := (i 0).isLt
  have h1 : (i 1).val < 256 := (i 1).isLt
  let t : Fin cfg1.N := ⟨4 * ((i 0).val / 1024) + 3, by rw [hN]; omega⟩
  have hv : t.val = 4 * ((i 0).val / 1024) + 3 := rfl
  obtain ⟨-, -, -, -, e0, e1⟩ := idx_facts t
  refine ⟨t, (flush1_2 t).mpr (by rw [hv]; omega), ?_⟩
  show i ∈ ((View.whole main_v1).slice (win1_2.rect t)).set
  rw [View.set_slice_whole, Rect.mem_set_unit]
  intro a
  match a with
  | ⟨0, _⟩ =>
    show win1_2.index t (0 : Fin 2) * 1024 ≤ (i 0).val ∧ (i 0).val < win1_2.index t (0 : Fin 2) * 1024 + 1024
    rw [e0, hv]; omega
  | ⟨1, _⟩ =>
    show win1_2.index t (1 : Fin 2) * 256 ≤ (i 1).val ∧ (i 1).val < win1_2.index t (1 : Fin 2) * 256 + 256
    rw [e1]; omega

/-- The region's output array ends holding the matrix product of its two operand arrays. -/
theorem final (c : Dev nD) :
    (dat (F := Ideal) V c).arrAt 2 cfg1.N
      = (Cert.Spec.mm (a := 8192) (k := 8192) (b := 256)
          (V c (Pipeline.arrRef spec1 0) : S8192x8192.Idx → EReal)
          (V c (Pipeline.arrRef spec1 1) : S8192x256.Idx → EReal) : S8192x256.Idx → EReal) :=
  (dat (F := Ideal) V c).arrAt_eq_of_cover 2 _ (fun t hf => flushed_eq V c t hf) cover

end AtIdeal

end Cert.KernelIdeal.R1

end
-- ==== Proof.R2Value.lean ====
/-
  Region 2 on extended reals: its output array ends holding the matrix product of its two operand arrays.

  The grid is row-block-major: point t works on row block t / 4 (1024 rows of the left operand) at contraction
  step t % 4 (2048 columns of the left operand against 2048 rows of the right one). Each case of the body is the
  body's arithmetic over the point's two blocks and the accumulator before it: the accumulator's entry plus the
  sum of the 2048 products of the step. A change of float format is the identity on extended reals and the
  product into the zero splat is the plain sum, so after step k of a row block the accumulator's entry (p, q) is
  the sum of the step sums 0 … k; step 0 starts from the zero fill. After step 3 the four runs of 2048 make the
  whole contracted axis of 8192, the entry is entry (1024 (t / 4) + p, q) of the matrix product, and that is what
  the step copies to the output block and writes back. The eight write-backs cover the 8192 rows.
  Sums of extended reals form a commutative monoid; no law that needs finiteness is used.
-/
import proofs.«126198_j83554293777022_1_alg».proof.Proof.R2Body
import proofs.«126198_j83554293777022_1_alg».proof.Proof.Spec
import proofs.«126198_j83554293777022_1_alg».proof.Proof.LibMatmulPlain
import proofs.«126198_j83554293777022_1_alg».proof.Proof.LibBlockSum
import Idealize.ShloMosaic.Lib.Pipeline.Value

set_option maxRecDepth 16384

noncomputable section

open scoped BigOperators

namespace Cert.KernelIdeal.R2

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Lib.BlockSum

/-! ## What each case of the body leaves, as the body's arithmetic over the point's blocks -/

section Pieces
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The clearing step: the accumulator is filled with zeros, then the product of the two blocks is added. -/
theorem sA_eq (c : Dev nD) (t : Fin cfg2.N) (hA : condA (grid2.coords t)) (hL : ¬condL (grid2.coords t)) :
    sA V c t hA hL = k2_pay2 (iblk V c 0 t) (iblk V c 1 t) (k2_pay1 (F := F)) := by
  unfold sA
  rw [View.read_writes_eq_canon _ _ _ (coverA V c t hA hL)]
  unfold runA
  dsimp only
  sl_unfold_words
  rw [View.canon_cons_unit_zero hz]
  simp only [View.readAt_eq_ld, (hs_0 t).read_unread, (hs_1 t).read_unread, View.ld_unit_zero (S := S1024x2048) hz, View.ld_unit_zero (S := S2048x256) hz, View.ld_unit_zero (S := S1024x256) hz]
  rw [View.readCov_unit_zero (S := S1024x256) _ hz]

/-- A middle step adds the product of the two blocks to the accumulator. -/
theorem sB_eq (c : Dev nD) (t : Fin cfg2.N) (hA : ¬condA (grid2.coords t)) (hL : ¬condL (grid2.coords t)) (xs : Vec F S1024x256 .f32) :
    sB V c t hA hL xs = k2_pay2 (iblk V c 0 t) (iblk V c 1 t) xs := by
  unfold sB
  rw [View.read_writes_eq_canon _ _ _ (coverB V c t hA hL xs)]
  unfold runB
  dsimp only
  sl_unfold_words
  rw [View.canon_unit_zero hz]
  simp only [View.readAt_eq_ld, (hs_0 t).read_unread, (hs_1 t).read_unread, (Memref.isWhole_whole cc2_scratch0).read_unread, View.ld_unit_zero (S := S1024x2048) hz, View.ld_unit_zero (S := S2048x256) hz, View.ld_unit_zero (S := S1024x256) hz]

/-- The last step does the same to the accumulator … -/
theorem sC_eq (c : Dev nD) (t : Fin cfg2.N) (hA : ¬condA (grid2.coords t)) (hL : condL (grid2.coords t)) (xs : Vec F S1024x256 .f32) :
    sC V c t hA hL xs = k2_pay2 (iblk V c 0 t) (iblk V c 1 t) xs := by
  unfold sC
  rw [View.read_writes_eq_canon _ _ _ (coverCs V c t hA hL xs)]
  unfold runC
  dsimp only
  sl_unfold_words
  rw [View.canon_unit_zero hz]
  simp only [View.readAt_eq_ld, (hs_0 t).read_unread, (hs_1 t).read_unread, (Memref.isWhole_whole cc2_scratch0).read_unread, View.ld_unit_zero (S := S1024x2048) hz, View.ld_unit_zero (S := S2048x256) hz, View.ld_unit_zero (S := S1024x256) hz]

/-- … and copies the accumulator's new contents to the output block. -/
theorem oC_eq (c : Dev nD) (t : Fin cfg2.N) (hA : ¬condA (grid2.coords t)) (hL : condL (grid2.coords t)) (xs : Vec F S1024x256 .f32) :
    oC V c t hA hL xs = k2_pay2 (iblk V c 0 t) (iblk V c 1 t) xs := by
  unfold oC
  rw [View.read_writes_eq_canon _ _ _ (coverCo V c t hA hL xs)]
  unfold runC
  dsimp only
  sl_unfold_words
  rw [View.canon_unit_zero hz]
  simp only [View.readAt_eq_ld, (hs_0 t).read_unread, (hs_1 t).read_unread, (Memref.isWhole_whole cc2_scratch0).read_unread, View.ld_unit_zero (S := S1024x2048) hz, View.ld_unit_zero (S := S2048x256) hz, View.ld_unit_zero (S := S1024x256) hz]
  rw [View.readCov_unit_zero (S := S1024x256) _ hz]

end Pieces

/-! ## On extended reals -/

section AtIdeal
variable (V : (c : Dev nD) → (b : Ref sig .tc) → Buf (Elt Ideal) ((c : Thread nD τ).loc b))

/-- The zero fill at an entry. -/
theorem pay1_apply (p : Fin 1024) (q : Fin 256) : (k2_pay1 (F := Ideal)) (ix2 p q) = 0 := by
  unfold k2_pay1
  rw [shapeCast_self]
  exact Ideal.ofBits_zero_f32

/-- One step's arithmetic at an entry: the accumulator's entry plus the sum, over the step's 2048 contracted
    positions, of the products of the two blocks' entries (the changes of float format are the identity). -/
theorem pay2_apply (v3 : Vec Ideal S1024x2048 .f32) (v5 : Vec Ideal S2048x256 .f32) (v8 : Vec Ideal S1024x256 .f32)
    (p : Fin 1024) (q : Fin 256) :
    k2_pay2 v3 v5 v8 (ix2 p q) = v8 (ix2 p q) + ∑ j : Fin 2048, v3 (ix2 p j) * v5 (ix2 j q) := by
  unfold k2_pay2
  rw [shapeCast_self, shapeCast_self]
  refine congrArg (v8 (ix2 p q) + ·) ?_
  exact MatmulPlain.matmul_zero_apply (A := 1024) (K := 2048) (B := 256) dot_S1024x2048_S2048x256_S1024x256_1_0_0_1_n_n rfl rfl rfl rfl rfl rfl none
    (truncf .bf16 v3 bitsLt_bf16_f32) (truncf .bf16 v5 bitsLt_bf16_f32) p q

/-- The printed index maps over the grid: point t is row block t / 4 and contraction step t % 4. -/
theorem idx_facts : ∀ t : Fin cfg2.N, win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = t.val / 4 ∧ win2_2.index t (1 : Fin 2) = 0 :=
  (by decide +kernel : ∀ t : Fin grid2.N, _)

/-- The left operand's block at point t: rows 1024 (t / 4) …, columns 2048 (t % 4) … of the array. -/
theorem iblk0_apply (c : Dev nD) (t : Fin cfg2.N) (p : Fin 1024) (j : Fin 2048) :
    (iblk V c 0 t : Vec Ideal S1024x2048 .f32) (ix2 p j)
      = rd (V c (Pipeline.arrRef spec2 0) : S8192x8192.Idx → EReal) (1024 * (t.val / 4) + p.val) (2048 * (t.val % 4) + j.val) := by
  obtain ⟨e0, e1, -⟩ := idx_facts t
  unfold iblk
  rw [View.read_apply]
  show (V c (Pipeline.arrRef spec2 0) : S8192x8192.Idx → EReal) _ = _
  refine eq_rd _ _ _ _ ?_ ?_
  · show win2_0.index t (0 : Fin 2) * 1024 + 1 * p.val = _
    rw [e0]; omega
  · show win2_0.index t (1 : Fin 2) * 2048 + 1 * j.val = _
    rw [e1]; omega

/-- The right operand's block at point t: rows 2048 (t % 4) … of the array, all 256 columns. -/
theorem iblk1_apply (c : Dev nD) (t : Fin cfg2.N) (j : Fin 2048) (q : Fin 256) :
    (iblk V c 1 t : Vec Ideal S2048x256 .f32) (ix2 j q)
      = rd (V c (Pipeline.arrRef spec2 1) : S8192x256.Idx → EReal) (2048 * (t.val % 4) + j.val) q.val := by
  obtain ⟨-, -, e0, e1, -⟩ := idx_facts t
  unfold iblk
  rw [View.read_apply]
  show (V c (Pipeline.arrRef spec2 1) : S8192x256.Idx → EReal) _ = _
  refine eq_rd _ _ _ _ ?_ ?_
  · show win2_1.index t (0 : Fin 2) * 2048 + 1 * j.val = _
    rw [e0]; omega
  · show win2_1.index t (1 : Fin 2) * 256 + 1 * q.val = _
    rw [e1]; omega

/-- The two operand arrays as the region finds them. -/
abbrev lhs (c : Dev nD) : S8192x8192.Idx → EReal := V c (Pipeline.arrRef spec2 0)
abbrev rhs (c : Dev nD) : S8192x256.Idx → EReal := V c (Pipeline.arrRef spec2 1)

/-- Step s of row block i at entry (p, q) of the block: the products over the step's 2048 contracted positions. -/
def stepSum (c : Dev nD) (i s : ℕ) (p : Fin 1024) (q : Fin 256) : EReal :=
  ∑ j ∈ Finset.range 2048, rd (lhs V c) (1024 * i + p.val) (2048 * s + j) * rd (rhs V c) (2048 * s + j) q.val

/-- One step's arithmetic over the point's two blocks adds that step's sum to the accumulator's entry. -/
theorem step_apply (c : Dev nD) (t : Fin cfg2.N) (xs : Vec Ideal S1024x256 .f32) (p : Fin 1024) (q : Fin 256) :
    k2_pay2 (iblk V c 0 t) (iblk V c 1 t) xs (ix2 p q) = xs (ix2 p q) + stepSum V c (t.val / 4) (t.val % 4) p q := by
  refine (pay2_apply (iblk V c 0 t) (iblk V c 1 t) xs p q).trans ?_
  refine congrArg (xs (ix2 p q) + ·) ?_
  unfold stepSum
  rw [← Fin.sum_univ_eq_sum_range (fun j => rd (lhs V c) (1024 * (t.val / 4) + p.val) (2048 * (t.val % 4) + j) * rd (rhs V c) (2048 * (t.val % 4) + j) q.val) 2048]
  refine Finset.sum_congr rfl fun j _ => ?_
  rw [iblk0_apply V c t p j, iblk1_apply V c t j q]

/-- One point's effect on the accumulator at an entry: step 0 of a row block starts from zero, a later step from
    the accumulator before it; either adds the point's step sum. -/
theorem stepAcc_apply (c : Dev nD) (t : Fin cfg2.N) (prev : Vec Ideal S1024x256 .f32) (p : Fin 1024) (q : Fin 256) :
    stepAcc V c t prev (ix2 p q)
      = (if t.val % 4 = 0 then 0 else prev (ix2 p q)) + stepSum V c (t.val / 4) (t.val % 4) p q := by
  unfold stepAcc
  by_cases hA : condA (grid2.coords t)
  · have h0 : t.val % 4 = 0 := (hcondA t).mp hA
    have hL : ¬condL (grid2.coords t) := fun h => by have := (hcondL t).mp h; omega
    rw [dif_pos hA, dif_neg hL, sA_eq V c t hA hL, if_pos h0]
    refine (step_apply V c t (k2_pay1 (F := Ideal)) p q).trans ?_
    rw [pay1_apply p q]
  · have h0 : ¬t.val % 4 = 0 := fun h => hA ((hcondA t).mpr h)
    rw [dif_neg hA, if_neg h0]
    by_cases hL : condL (grid2.coords t)
    · rw [dif_pos hL, sC_eq V c t hA hL prev]
      exact step_apply V c t prev p q
    · rw [dif_neg hL, sB_eq V c t hA hL prev]
      exact step_apply V c t prev p q

theorem accAt_zero (c : Dev nD) (hn : 0 < cfg2.N) :
    accAt V c 0 hn = stepAcc V c ⟨0, hn⟩ (k2_pay1 (F := Ideal)) := rfl
theorem accAt_succ (c : Dev nD) (n : ℕ) (hn : n + 1 < cfg2.N) :
    accAt V c (n + 1) hn = stepAcc V c ⟨n + 1, hn⟩ (accAt V c n (Nat.lt_of_succ_lt hn)) := rfl

/-- After the point at position n (row block n / 4, step n % 4) the accumulator's entry (p, q) is the sum of the
    row block's step sums up to this step. -/
theorem accAt_apply (c : Dev nD) : ∀ (n : ℕ) (hn : n < cfg2.N) (p : Fin 1024) (q : Fin 256),
    accAt V c n hn (ix2 p q) = ∑ s ∈ Finset.range (n % 4 + 1), stepSum V c (n / 4) s p q := by
  intro n
  induction n with
  | zero =>
    intro hn p q
    rw [accAt_zero V c hn, stepAcc_apply V c ⟨0, hn⟩ _ p q]
    show (if 0 % 4 = 0 then (0 : EReal) else _) + stepSum V c (0 / 4) (0 % 4) p q = _
    rw [if_pos rfl, zero_add, Finset.sum_range_one]
  | succ n ih =>
    intro hn p q
    rw [accAt_succ V c n hn, stepAcc_apply V c ⟨n + 1, hn⟩ _ p q, ih (Nat.lt_of_succ_lt hn) p q]
    show (if (n + 1) % 4 = 0 then (0 : EReal) else _) + stepSum V c ((n + 1) / 4) ((n + 1) % 4) p q = _
    by_cases h : (n + 1) % 4 = 0
    · rw [if_pos h, h, zero_add, Finset.sum_range_one]
    · have e1 : n / 4 = (n + 1) / 4 := by omega
      have e2 : n % 4 + 1 = (n + 1) % 4 := by omega
      rw [if_neg h, e1, e2, Finset.sum_range_succ _ ((n + 1) % 4)]

/-- The four step sums of a row block make the full contraction: entry (1024 i + p, q) of the matrix product. -/
theorem sum_steps (c : Dev nD) (i : ℕ) (p : Fin 1024) (q : Fin 256) (hr : 1024 * i + p.val < 8192) :
    ∑ s ∈ Finset.range 4, stepSum V c i s p q
      = Cert.Spec.mm (a := 8192) (k := 8192) (b := 256) (lhs V c) (rhs V c) (ix2 ⟨1024 * i + p.val, hr⟩ q) := by
  unfold stepSum
  rw [sum_range_blocks 2048 (fun j => rd (lhs V c) (1024 * i + p.val) j * rd (rhs V c) j q.val) 4,
    Cert.Spec.mm_apply,
    ← Fin.sum_univ_eq_sum_range (fun j => rd (lhs V c) (1024 * i + p.val) j * rd (rhs V c) j q.val) (4 * 2048)]
  refine Finset.sum_congr rfl fun j _ => ?_
  rw [← rd_eq (lhs V c) ⟨1024 * i + p.val, hr⟩ j, ← rd_eq (rhs V c) j q]

/-- What the last step of a row block stores into the output block, at an entry. -/
theorem out_apply (c : Dev nD) (t : Fin cfg2.N) (h3 : t.val % 4 = 3) (p : Fin 1024) (q : Fin 256)
    (hr : 1024 * (t.val / 4) + p.val < 8192) :
    k2_pay2 (iblk V c 0 t) (iblk V c 1 t) (accBefore V c t.val t.isLt) (ix2 p q)
      = Cert.Spec.mm (a := 8192) (k := 8192) (b := 256) (lhs V c) (rhs V c) (ix2 ⟨1024 * (t.val / 4) + p.val, hr⟩ q) := by
  have hz : t.val ≠ 0 := by omega
  refine (step_apply V c t _ p q).trans ?_
  rw [accBefore_pos V c t.val t.isLt hz, accAt_apply V c (t.val - 1) _ p q, ← sum_steps V c (t.val / 4) p q hr]
  have e1 : (t.val - 1) / 4 = t.val / 4 := by omega
  have e2 : (t.val - 1) % 4 + 1 = 3 := by omega
  rw [e1, e2, h3, Finset.sum_range_succ _ 3]

/-- What the last step of row block t / 4 writes back is the block of rows 1024 (t / 4) … of the matrix product. -/
theorem flushed_eq (c : Dev nD) (t : Fin cfg2.N) (hf : (cfg2.win 2).flush t = true) :
    (dat (F := Ideal) V c).flushed 2 t
      = ((cfg2.win 2).blk t).view.read (Elt Ideal)
          (Cert.Spec.mm (a := 8192) (k := 8192) (b := 256) (lhs V c) (rhs V c) : S8192x256.Idx → EReal) := by
  have h3 : t.val % 4 = 3 := (flush2_2 t).mp hf
  have hL : condL (grid2.coords t) := (hcondL t).mpr h3
  have hA : ¬condA (grid2.coords t) := fun h => by have := (hcondA t).mp h; omega
  have hN : cfg2.N = 32 := N_2
  have ht : t.val < 32 := hN ▸ t.isLt
  obtain ⟨-, -, -, -, e0, e1⟩ := idx_facts t
  show (cfg2.win 2).cut (grid2.coords t) ((dat V c).after 2 t) = _
  rw [after_2 V c t]
  rw [show stepOut V c t (accBefore V c t.val t.isLt) = oC V c t hA hL (accBefore V c t.val t.isLt) from by
    unfold stepOut; rw [dif_neg hA, dif_pos hL]]
  rw [oC_eq V c t hA hL]
  funext y
  obtain ⟨p, q, rfl⟩ : ∃ (p : Fin 1024) (q : Fin 256), y = ix2 p q := ⟨y 0, y 1, eq_ix2 y⟩
  have hr : 1024 * (t.val / 4) + p.val < 8192 := by omega
  rw [View.read_apply]
  refine (out_apply V c t h3 p q hr).trans ?_
  refine congrArg (Cert.Spec.mm (a := 8192) (k := 8192) (b := 256) (lhs V c) (rhs V c)) (funext fun a => Fin.ext ?_)
  match a with
  | ⟨0, _⟩ =>
    show 1024 * (t.val / 4) + p.val = win2_2.index t (0 : Fin 2) * 1024 + 1 * p.val
    rw [e0]; omega
  | ⟨1, _⟩ =>
    show q.val = win2_2.index t (1 : Fin 2) * 256 + 1 * q.val
    rw [e1]; omega

/-- Every row of the output lies in the block its row block's last step writes back. -/
theorem cover (i : S8192x256.Idx) :
    ∃ t : Fin cfg2.N, (cfg2.win 2).flush t = true ∧ i ∈ ((cfg2.win 2).blk t).view.set := by
  have hN : cfg2.N = 32 := N_2
  have h0 : (i 0).val < 8192 := (i 0).isLt
  have h1 : (i 1).val < 256 := (i 1).isLt
  let t : Fin cfg2.N := ⟨4 * ((i 0).val / 1024) + 3, by rw [hN]; omega⟩
  have hv : t.val = 4 * ((i 0).val / 1024) + 3 := rfl
  obtain ⟨-, -, -, -, e0, e1⟩ := idx_facts t
  refine ⟨t, (flush2_2 t).mpr (by rw [hv]; omega), ?_⟩
  show i ∈ ((View.whole main_v2).slice (win2_2.rect t)).set
  rw [View.set_slice_whole, Rect.mem_set_unit]
  intro a
  match a with
  | ⟨0, _⟩ =>
    show win2_2.index t (0 : Fin 2) * 1024 ≤ (i 0).val ∧ (i 0).val < win2_2.index t (0 : Fin 2) * 1024 + 1024
    rw [e0, hv]; omega
  | ⟨1, _⟩ =>
    show win2_2.index t (1 : Fin 2) * 256 ≤ (i 1).val ∧ (i 1).val < win2_2.index t (1 : Fin 2) * 256 + 256
    rw [e1]; omega

/-- The region's output array ends holding the matrix product of its two operand arrays. -/
theorem final (c : Dev nD) :
    (dat (F := Ideal) V c).arrAt 2 cfg2.N
      = (Cert.Spec.mm (a := 8192) (k := 8192) (b := 256)
          (V c (Pipeline.arrRef spec2 0) : S8192x8192.Idx → EReal)
          (V c (Pipeline.arrRef spec2 1) : S8192x256.Idx → EReal) : S8192x256.Idx → EReal) :=
  (dat (F := Ideal) V c).arrAt_eq_of_cover 2 _ (fun t hf => flushed_eq V c t hf) cover

end AtIdeal

end Cert.KernelIdeal.R2

end
-- ==== Proof.R3Value.lean ====
/-
  Region 3 on extended reals: its output array ends holding the matrix product of its two operand arrays.

  The grid is row-block-major: point t works on row block t / 4 (1024 rows of the left operand) at contraction
  step t % 4 (2048 columns of the left operand against 2048 rows of the right one). Each case of the body is the
  body's arithmetic over the point's two blocks and the accumulator before it: the accumulator's entry plus the
  sum of the 2048 products of the step. A change of float format is the identity on extended reals and the
  product into the zero splat is the plain sum, so after step k of a row block the accumulator's entry (p, q) is
  the sum of the step sums 0 … k; step 0 starts from the zero fill. After step 3 the four runs of 2048 make the
  whole contracted axis of 8192, the entry is entry (1024 (t / 4) + p, q) of the matrix product, and that is what
  the step copies to the output block and writes back. The eight write-backs cover the 8192 rows.
  Sums of extended reals form a commutative monoid; no law that needs finiteness is used.
-/
import proofs.«126198_j83554293777022_1_alg».proof.Proof.R3Body
import proofs.«126198_j83554293777022_1_alg».proof.Proof.Spec
import proofs.«126198_j83554293777022_1_alg».proof.Proof.LibMatmulPlain
import proofs.«126198_j83554293777022_1_alg».proof.Proof.LibBlockSum
import Idealize.ShloMosaic.Lib.Pipeline.Value

set_option maxRecDepth 16384

noncomputable section

open scoped BigOperators

namespace Cert.KernelIdeal.R3

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)
open Cert.Lib.BlockSum

/-! ## What each case of the body leaves, as the body's arithmetic over the point's blocks -/

section Pieces
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The clearing step: the accumulator is filled with zeros, then the product of the two blocks is added. -/
theorem sA_eq (c : Dev nD) (t : Fin cfg3.N) (hA : condA (grid3.coords t)) (hL : ¬condL (grid3.coords t)) :
    sA V c t hA hL = k3_pay2 (iblk V c 0 t) (iblk V c 1 t) (k3_pay1 (F := F)) := by
  unfold sA
  rw [View.read_writes_eq_canon _ _ _ (coverA V c t hA hL)]
  unfold runA
  dsimp only
  sl_unfold_words
  rw [View.canon_cons_unit_zero hz]
  simp only [View.readAt_eq_ld, (hs_0 t).read_unread, (hs_1 t).read_unread, View.ld_unit_zero (S := S1024x2048) hz, View.ld_unit_zero (S := S2048x256) hz, View.ld_unit_zero (S := S1024x256) hz]
  rw [View.readCov_unit_zero (S := S1024x256) _ hz]

/-- A middle step adds the product of the two blocks to the accumulator. -/
theorem sB_eq (c : Dev nD) (t : Fin cfg3.N) (hA : ¬condA (grid3.coords t)) (hL : ¬condL (grid3.coords t)) (xs : Vec F S1024x256 .f32) :
    sB V c t hA hL xs = k3_pay2 (iblk V c 0 t) (iblk V c 1 t) xs := by
  unfold sB
  rw [View.read_writes_eq_canon _ _ _ (coverB V c t hA hL xs)]
  unfold runB
  dsimp only
  sl_unfold_words
  rw [View.canon_unit_zero hz]
  simp only [View.readAt_eq_ld, (hs_0 t).read_unread, (hs_1 t).read_unread, (Memref.isWhole_whole cc3_scratch0).read_unread, View.ld_unit_zero (S := S1024x2048) hz, View.ld_unit_zero (S := S2048x256) hz, View.ld_unit_zero (S := S1024x256) hz]

/-- The last step does the same to the accumulator … -/
theorem sC_eq (c : Dev nD) (t : Fin cfg3.N) (hA : ¬condA (grid3.coords t)) (hL : condL (grid3.coords t)) (xs : Vec F S1024x256 .f32) :
    sC V c t hA hL xs = k3_pay2 (iblk V c 0 t) (iblk V c 1 t) xs := by
  unfold sC
  rw [View.read_writes_eq_canon _ _ _ (coverCs V c t hA hL xs)]
  unfold runC
  dsimp only
  sl_unfold_words
  rw [View.canon_unit_zero hz]
  simp only [View.readAt_eq_ld, (hs_0 t).read_unread, (hs_1 t).read_unread, (Memref.isWhole_whole cc3_scratch0).read_unread, View.ld_unit_zero (S := S1024x2048) hz, View.ld_unit_zero (S := S2048x256) hz, View.ld_unit_zero (S := S1024x256) hz]

/-- … and copies the accumulator's new contents to the output block. -/
theorem oC_eq (c : Dev nD) (t : Fin cfg3.N) (hA : ¬condA (grid3.coords t)) (hL : condL (grid3.coords t)) (xs : Vec F S1024x256 .f32) :
    oC V c t hA hL xs = k3_pay2 (iblk V c 0 t) (iblk V c 1 t) xs := by
  unfold oC
  rw [View.read_writes_eq_canon _ _ _ (coverCo V c t hA hL xs)]
  unfold runC
  dsimp only
  sl_unfold_words
  rw [View.canon_unit_zero hz]
  simp only [View.readAt_eq_ld, (hs_0 t).read_unread, (hs_1 t).read_unread, (Memref.isWhole_whole cc3_scratch0).read_unread, View.ld_unit_zero (S := S1024x2048) hz, View.ld_unit_zero (S := S2048x256) hz, View.ld_unit_zero (S := S1024x256) hz]
  rw [View.readCov_unit_zero (S := S1024x256) _ hz]

end Pieces

/-! ## On extended reals -/

section AtIdeal
variable (V : (c : Dev nD) → (b : Ref sig .tc) → Buf (Elt Ideal) ((c : Thread nD τ).loc b))

/-- The zero fill at an entry. -/
theorem pay1_apply (p : Fin 1024) (q : Fin 256) : (k3_pay1 (F := Ideal)) (ix2 p q) = 0 := by
  unfold k3_pay1
  rw [shapeCast_self]
  exact Ideal.ofBits_zero_f32

/-- One step's arithmetic at an entry: the accumulator's entry plus the sum, over the step's 2048 contracted
    positions, of the products of the two blocks' entries (the changes of float format are the identity). -/
theorem pay2_apply (v3 : Vec Ideal S1024x2048 .f32) (v5 : Vec Ideal S2048x256 .f32) (v8 : Vec Ideal S1024x256 .f32)
    (p : Fin 1024) (q : Fin 256) :
    k3_pay2 v3 v5 v8 (ix2 p q) = v8 (ix2 p q) + ∑ j : Fin 2048, v3 (ix2 p j) * v5 (ix2 j q) := by
  unfold k3_pay2
  rw [shapeCast_self, shapeCast_self]
  refine congrArg (v8 (ix2 p q) + ·) ?_
  exact MatmulPlain.matmul_zero_apply (A := 1024) (K := 2048) (B := 256) dot_S1024x2048_S2048x256_S1024x256_1_0_0_1_n_n rfl rfl rfl rfl rfl rfl none
    (truncf .bf16 v3 bitsLt_bf16_f32) (truncf .bf16 v5 bitsLt_bf16_f32) p q

/-- The printed index maps over the grid: point t is row block t / 4 and contraction step t % 4. -/
theorem idx_facts : ∀ t : Fin cfg3.N, win3_0.index t (0 : Fin 2) = t.val / 4 ∧ win3_0.index t (1 : Fin 2) = t.val % 4
    ∧ win3_1.index t (0 : Fin 2) = t.val % 4 ∧ win3_1.index t (1 : Fin 2) = 0
    ∧ win3_2.index t (0 : Fin 2) = t.val / 4 ∧ win3_2.index t (1 : Fin 2) = 0 :=
  (by decide +kernel : ∀ t : Fin grid3.N, _)

/-- The left operand's block at point t: rows 1024 (t / 4) …, columns 2048 (t % 4) … of the array. -/
theorem iblk0_apply (c : Dev nD) (t : Fin cfg3.N) (p : Fin 1024) (j : Fin 2048) :
    (iblk V c 0 t : Vec Ideal S1024x2048 .f32) (ix2 p j)
      = rd (V c (Pipeline.arrRef spec3 0) : S8192x8192.Idx → EReal) (1024 * (t.val / 4) + p.val) (2048 * (t.val % 4) + j.val) := by
  obtain ⟨e0, e1, -⟩ := idx_facts t
  unfold iblk
  rw [View.read_apply]
  show (V c (Pipeline.arrRef spec3 0) : S8192x8192.Idx → EReal) _ = _
  refine eq_rd _ _ _ _ ?_ ?_
  · show win3_0.index t (0 : Fin 2) * 1024 + 1 * p.val = _
    rw [e0]; omega
  · show win3_0.index t (1 : Fin 2) * 2048 + 1 * j.val = _
    rw [e1]; omega

/-- The right operand's block at point t: rows 2048 (t % 4) … of the array, all 256 columns. -/
theorem iblk1_apply (c : Dev nD) (t : Fin cfg3.N) (j : Fin 2048) (q : Fin 256) :
    (iblk V c 1 t : Vec Ideal S2048x256 .f32) (ix2 j q)
      = rd (V c (Pipeline.arrRef spec3 1) : S8192x256.Idx → EReal) (2048 * (t.val % 4) + j.val) q.val := by
  obtain ⟨-, -, e0, e1, -⟩ := idx_facts t
  unfold iblk
  rw [View.read_apply]
  show (V c (Pipeline.arrRef spec3 1) : S8192x256.Idx → EReal) _ = _
  refine eq_rd _ _ _ _ ?_ ?_
  · show win3_1.index t (0 : Fin 2) * 2048 + 1 * j.val = _
    rw [e0]; omega
  · show win3_1.index t (1 : Fin 2) * 256 + 1 * q.val = _
    rw [e1]; omega

/-- The two operand arrays as the region finds them. -/
abbrev lhs (c : Dev nD) : S8192x8192.Idx → EReal := V c (Pipeline.arrRef spec3 0)
abbrev rhs (c : Dev nD) : S8192x256.Idx → EReal := V c (Pipeline.arrRef spec3 1)

/-- Step s of row block i at entry (p, q) of the block: the products over the step's 2048 contracted positions. -/
def stepSum (c : Dev nD) (i s : ℕ) (p : Fin 1024) (q : Fin 256) : EReal :=
  ∑ j ∈ Finset.range 2048, rd (lhs V c) (1024 * i + p.val) (2048 * s + j) * rd (rhs V c) (2048 * s + j) q.val

/-- One step's arithmetic over the point's two blocks adds that step's sum to the accumulator's entry. -/
theorem step_apply (c : Dev nD) (t : Fin cfg3.N) (xs : Vec Ideal S1024x256 .f32) (p : Fin 1024) (q : Fin 256) :
    k3_pay2 (iblk V c 0 t) (iblk V c 1 t) xs (ix2 p q) = xs (ix2 p q) + stepSum V c (t.val / 4) (t.val % 4) p q := by
  refine (pay2_apply (iblk V c 0 t) (iblk V c 1 t) xs p q).trans ?_
  refine congrArg (xs (ix2 p q) + ·) ?_
  unfold stepSum
  rw [← Fin.sum_univ_eq_sum_range (fun j => rd (lhs V c) (1024 * (t.val / 4) + p.val) (2048 * (t.val % 4) + j) * rd (rhs V c) (2048 * (t.val % 4) + j) q.val) 2048]
  refine Finset.sum_congr rfl fun j _ => ?_
  rw [iblk0_apply V c t p j, iblk1_apply V c t j q]

/-- One point's effect on the accumulator at an entry: step 0 of a row block starts from zero, a later step from
    the accumulator before it; either adds the point's step sum. -/
theorem stepAcc_apply (c : Dev nD) (t : Fin cfg3.N) (prev : Vec Ideal S1024x256 .f32) (p : Fin 1024) (q : Fin 256) :
    stepAcc V c t prev (ix2 p q)
      = (if t.val % 4 = 0 then 0 else prev (ix2 p q)) + stepSum V c (t.val / 4) (t.val % 4) p q := by
  unfold stepAcc
  by_cases hA : condA (grid3.coords t)
  · have h0 : t.val % 4 = 0 := (hcondA t).mp hA
    have hL : ¬condL (grid3.coords t) := fun h => by have := (hcondL t).mp h; omega
    rw [dif_pos hA, dif_neg hL, sA_eq V c t hA hL, if_pos h0]
    refine (step_apply V c t (k3_pay1 (F := Ideal)) p q).trans ?_
    rw [pay1_apply p q]
  · have h0 : ¬t.val % 4 = 0 := fun h => hA ((hcondA t).mpr h)
    rw [dif_neg hA, if_neg h0]
    by_cases hL : condL (grid3.coords t)
    · rw [dif_pos hL, sC_eq V c t hA hL prev]
      exact step_apply V c t prev p q
    · rw [dif_neg hL, sB_eq V c t hA hL prev]
      exact step_apply V c t prev p q

theorem accAt_zero (c : Dev nD) (hn : 0 < cfg3.N) :
    accAt V c 0 hn = stepAcc V c ⟨0, hn⟩ (k3_pay1 (F := Ideal)) := rfl
theorem accAt_succ (c : Dev nD) (n : ℕ) (hn : n + 1 < cfg3.N) :
    accAt V c (n + 1) hn = stepAcc V c ⟨n + 1, hn⟩ (accAt V c n (Nat.lt_of_succ_lt hn)) := rfl

/-- After the point at position n (row block n / 4, step n % 4) the accumulator's entry (p, q) is the sum of the
    row block's step sums up to this step. -/
theorem accAt_apply (c : Dev nD) : ∀ (n : ℕ) (hn : n < cfg3.N) (p : Fin 1024) (q : Fin 256),
    accAt V c n hn (ix2 p q) = ∑ s ∈ Finset.range (n % 4 + 1), stepSum V c (n / 4) s p q := by
  intro n
  induction n with
  | zero =>
    intro hn p q
    rw [accAt_zero V c hn, stepAcc_apply V c ⟨0, hn⟩ _ p q]
    show (if 0 % 4 = 0 then (0 : EReal) else _) + stepSum V c (0 / 4) (0 % 4) p q = _
    rw [if_pos rfl, zero_add, Finset.sum_range_one]
  | succ n ih =>
    intro hn p q
    rw [accAt_succ V c n hn, stepAcc_apply V c ⟨n + 1, hn⟩ _ p q, ih (Nat.lt_of_succ_lt hn) p q]
    show (if (n + 1) % 4 = 0 then (0 : EReal) else _) + stepSum V c ((n + 1) / 4) ((n + 1) % 4) p q = _
    by_cases h : (n + 1) % 4 = 0
    · rw [if_pos h, h, zero_add, Finset.sum_range_one]
    · have e1 : n / 4 = (n + 1) / 4 := by omega
      have e2 : n % 4 + 1 = (n + 1) % 4 := by omega
      rw [if_neg h, e1, e2, Finset.sum_range_succ _ ((n + 1) % 4)]

/-- The four step sums of a row block make the full contraction: entry (1024 i + p, q) of the matrix product. -/
theorem sum_steps (c : Dev nD) (i : ℕ) (p : Fin 1024) (q : Fin 256) (hr : 1024 * i + p.val < 8192) :
    ∑ s ∈ Finset.range 4, stepSum V c i s p q
      = Cert.Spec.mm (a := 8192) (k := 8192) (b := 256) (lhs V c) (rhs V c) (ix2 ⟨1024 * i + p.val, hr⟩ q) := by
  unfold stepSum
  rw [sum_range_blocks 2048 (fun j => rd (lhs V c) (1024 * i + p.val) j * rd (rhs V c) j q.val) 4,
    Cert.Spec.mm_apply,
    ← Fin.sum_univ_eq_sum_range (fun j => rd (lhs V c) (1024 * i + p.val) j * rd (rhs V c) j q.val) (4 * 2048)]
  refine Finset.sum_congr rfl fun j _ => ?_
  rw [← rd_eq (lhs V c) ⟨1024 * i + p.val, hr⟩ j, ← rd_eq (rhs V c) j q]

/-- What the last step of a row block stores into the output block, at an entry. -/
theorem out_apply (c : Dev nD) (t : Fin cfg3.N) (h3 : t.val % 4 = 3) (p : Fin 1024) (q : Fin 256)
    (hr : 1024 * (t.val / 4) + p.val < 8192) :
    k3_pay2 (iblk V c 0 t) (iblk V c 1 t) (accBefore V c t.val t.isLt) (ix2 p q)
      = Cert.Spec.mm (a := 8192) (k := 8192) (b := 256) (lhs V c) (rhs V c) (ix2 ⟨1024 * (t.val / 4) + p.val, hr⟩ q) := by
  have hz : t.val ≠ 0 := by omega
  refine (step_apply V c t _ p q).trans ?_
  rw [accBefore_pos V c t.val t.isLt hz, accAt_apply V c (t.val - 1) _ p q, ← sum_steps V c (t.val / 4) p q hr]
  have e1 : (t.val - 1) / 4 = t.val / 4 := by omega
  have e2 : (t.val - 1) % 4 + 1 = 3 := by omega
  rw [e1, e2, h3, Finset.sum_range_succ _ 3]

/-- What the last step of row block t / 4 writes back is the block of rows 1024 (t / 4) … of the matrix product. -/
theorem flushed_eq (c : Dev nD) (t : Fin cfg3.N) (hf : (cfg3.win 2).flush t = true) :
    (dat (F := Ideal) V c).flushed 2 t
      = ((cfg3.win 2).blk t).view.read (Elt Ideal)
          (Cert.Spec.mm (a := 8192) (k := 8192) (b := 256) (lhs V c) (rhs V c) : S8192x256.Idx → EReal) := by
  have h3 : t.val % 4 = 3 := (flush3_2 t).mp hf
  have hL : condL (grid3.coords t) := (hcondL t).mpr h3
  have hA : ¬condA (grid3.coords t) := fun h => by have := (hcondA t).mp h; omega
  have hN : cfg3.N = 32 := N_3
  have ht : t.val < 32 := hN ▸ t.isLt
  obtain ⟨-, -, -, -, e0, e1⟩ := idx_facts t
  show (cfg3.win 2).cut (grid3.coords t) ((dat V c).after 2 t) = _
  rw [after_2 V c t]
  rw [show stepOut V c t (accBefore V c t.val t.isLt) = oC V c t hA hL (accBefore V c t.val t.isLt) from by
    unfold stepOut; rw [dif_neg hA, dif_pos hL]]
  rw [oC_eq V c t hA hL]
  funext y
  obtain ⟨p, q, rfl⟩ : ∃ (p : Fin 1024) (q : Fin 256), y = ix2 p q := ⟨y 0, y 1, eq_ix2 y⟩
  have hr : 1024 * (t.val / 4) + p.val < 8192 := by omega
  rw [View.read_apply]
  refine (out_apply V c t h3 p q hr).trans ?_
  refine congrArg (Cert.Spec.mm (a := 8192) (k := 8192) (b := 256) (lhs V c) (rhs V c)) (funext fun a => Fin.ext ?_)
  match a with
  | ⟨0, _⟩ =>
    show 1024 * (t.val / 4) + p.val = win3_2.index t (0 : Fin 2) * 1024 + 1 * p.val
    rw [e0]; omega
  | ⟨1, _⟩ =>
    show q.val = win3_2.index t (1 : Fin 2) * 256 + 1 * q.val
    rw [e1]; omega

/-- Every row of the output lies in the block its row block's last step writes back. -/
theorem cover (i : S8192x256.Idx) :
    ∃ t : Fin cfg3.N, (cfg3.win 2).flush t = true ∧ i ∈ ((cfg3.win 2).blk t).view.set := by
  have hN : cfg3.N = 32 := N_3
  have h0 : (i 0).val < 8192 := (i 0).isLt
  have h1 : (i 1).val < 256 := (i 1).isLt
  let t : Fin cfg3.N := ⟨4 * ((i 0).val / 1024) + 3, by rw [hN]; omega⟩
  have hv : t.val = 4 * ((i 0).val / 1024) + 3 := rfl
  obtain ⟨-, -, -, -, e0, e1⟩ := idx_facts t
  refine ⟨t, (flush3_2 t).mpr (by rw [hv]; omega), ?_⟩
  show i ∈ ((View.whole main_v3).slice (win3_2.rect t)).set
  rw [View.set_slice_whole, Rect.mem_set_unit]
  intro a
  match a with
  | ⟨0, _⟩ =>
    show win3_2.index t (0 : Fin 2) * 1024 ≤ (i 0).val ∧ (i 0).val < win3_2.index t (0 : Fin 2) * 1024 + 1024
    rw [e0, hv]; omega
  | ⟨1, _⟩ =>
    show win3_2.index t (1 : Fin 2) * 256 ≤ (i 1).val ∧ (i 1).val < win3_2.index t (1 : Fin 2) * 256 + 256
    rw [e1]; omega

/-- The region's output array ends holding the matrix product of its two operand arrays. -/
theorem final (c : Dev nD) :
    (dat (F := Ideal) V c).arrAt 2 cfg3.N
      = (Cert.Spec.mm (a := 8192) (k := 8192) (b := 256)
          (V c (Pipeline.arrRef spec3 0) : S8192x8192.Idx → EReal)
          (V c (Pipeline.arrRef spec3 1) : S8192x256.Idx → EReal) : S8192x256.Idx → EReal) :=
  (dat (F := Ideal) V c).arrAt_eq_of_cover 2 _ (fun t hf => flushed_eq V c t hf) cover

end AtIdeal

end Cert.KernelIdeal.R3

end
-- ==== Proof.R4Value.lean ====
/-
  Region 4 on extended reals: its output array ends holding the matrix product of its two operand arrays.

  The grid has one contraction step: point t works on rows 2048 t … of the left operand against the whole right
  operand. The body fills the accumulator with zeros, adds to it the product of the point's two blocks, and copies
  the accumulator to the output block. A change of float format is the identity on extended reals and the product
  into the zero splat is the plain sum, so entry (p, q) of the output block is ∑ j, left (2048 t + p, j) · right (j, q):
  entry (2048 t + p, q) of the matrix product. The four write-backs cover the 8192 rows.
-/
import proofs.«126198_j83554293777022_1_alg».proof.Proof.R4Body
import proofs.«126198_j83554293777022_1_alg».proof.Proof.Spec
import proofs.«126198_j83554293777022_1_alg».proof.Proof.LibMatmulPlain
import Idealize.ShloMosaic.Lib.Pipeline.Value

set_option maxRecDepth 16384

noncomputable section

open scoped BigOperators

namespace Cert.KernelIdeal.R4

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

/-! ## What the body leaves in the output block, as its arithmetic over the point's blocks -/

section Pieces
variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The accumulator is filled with zeros, the product of the two blocks is added to it, and the sum
    goes to the output block. -/
theorem oD_eq (c : Dev nD) (t : Fin cfg4.N) :
    oD V c t = k4_pay2 (iblk V c 0 t) (iblk V c 1 t) (k4_pay1 (F := F)) := by
  unfold oD
  rw [View.read_writes_eq_canon _ _ _ (coverDo V c t)]
  unfold runD
  dsimp only
  sl_unfold_words
  rw [View.canon_unit_zero hz]
  rw [View.readCov_cons_toLoadRect]
  simp only [View.readAt_eq_ld, (hs_0 t).read_unread, (hs_1 t).read_unread, View.ld_unit_zero (S := S2048x256) hz, View.ld_unit_zero (S := S256x256) hz]
  rw [View.readCov_unit_zero (S := S2048x256) _ hz]

end Pieces

/-! ## On extended reals -/

section AtIdeal
variable (V : (c : Dev nD) → (b : Ref sig .tc) → Buf (Elt Ideal) ((c : Thread nD τ).loc b))

/-- The zero fill at an entry. -/
theorem pay1_apply (p : Fin 2048) (q : Fin 256) : (k4_pay1 (F := Ideal)) (ix2 p q) = 0 := by
  unfold k4_pay1
  rw [shapeCast_self]
  exact Ideal.ofBits_zero_f32

/-- The step's arithmetic at an entry: the accumulator's entry plus the sum of the 256 products of the two blocks'
    entries (the changes of float format are the identity). -/
theorem pay2_apply (v3 : Vec Ideal S2048x256 .f32) (v5 : Vec Ideal S256x256 .f32) (v7 : Vec Ideal S2048x256 .f32)
    (p : Fin 2048) (q : Fin 256) :
    k4_pay2 v3 v5 v7 (ix2 p q) = v7 (ix2 p q) + ∑ j : Fin 256, v3 (ix2 p j) * v5 (ix2 j q) := by
  unfold k4_pay2
  rw [shapeCast_self]
  refine congrArg (v7 (ix2 p q) + ·) ?_
  exact MatmulPlain.matmul_zero_apply (A := 2048) (K := 256) (B := 256) dot_S2048x256_S256x256_S2048x256_1_0_0_1_n_n rfl rfl rfl rfl rfl rfl none
    (truncf .bf16 v3 bitsLt_bf16_f32) (truncf .bf16 v5 bitsLt_bf16_f32) p q

/-- The printed index maps over the grid: point t is row block t; the right operand has one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The two operand arrays as the region finds them. -/
abbrev lhs (c : Dev nD) : S8192x256.Idx → EReal := V c (Pipeline.arrRef spec4 0)
abbrev rhs (c : Dev nD) : S256x256.Idx → EReal := V c (Pipeline.arrRef spec4 1)

/-- The left operand's block at point t: rows 2048 t … of the array, all 256 columns. -/
theorem iblk0_apply (c : Dev nD) (t : Fin cfg4.N) (p : Fin 2048) (j : Fin 256) (hr : 2048 * t.val + p.val < 8192) :
    (iblk V c 0 t : Vec Ideal S2048x256 .f32) (ix2 p j) = lhs V c (ix2 ⟨2048 * t.val + p.val, hr⟩ j) := by
  obtain ⟨e0, e1, -⟩ := idx_facts t
  unfold iblk
  rw [View.read_apply]
  show lhs V c _ = _
  refine congrArg (lhs V c) (funext fun a => Fin.ext ?_)
  match a with
  | ⟨0, _⟩ =>
    show win4_0.index t (0 : Fin 2) * 2048 + 1 * p.val = 2048 * t.val + p.val
    rw [e0]; omega
  | ⟨1, _⟩ =>
    show win4_0.index t (1 : Fin 2) * 256 + 1 * j.val = j.val
    rw [e1]; omega

/-- The right operand's one block is the array. -/
theorem iblk1_apply (c : Dev nD) (t : Fin cfg4.N) (j : Fin 256) (q : Fin 256) :
    (iblk V c 1 t : Vec Ideal S256x256 .f32) (ix2 j q) = rhs V c (ix2 j q) := by
  obtain ⟨-, -, e0, e1, -⟩ := idx_facts t
  unfold iblk
  rw [View.read_apply]
  show rhs V c _ = _
  refine congrArg (rhs V c) (funext fun a => Fin.ext ?_)
  match a with
  | ⟨0, _⟩ =>
    show win4_1.index t (0 : Fin 2) * 256 + 1 * j.val = j.val
    rw [e0]; omega
  | ⟨1, _⟩ =>
    show win4_1.index t (1 : Fin 2) * 256 + 1 * q.val = q.val
    rw [e1]; omega

/-- The region's result as one function of the two operand arrays. -/
abbrev result (c : Dev nD) : S8192x256.Idx → EReal :=
  Cert.Spec.mm (a := 8192) (k := 256) (b := 256) (lhs V c) (rhs V c)

/-- What point t stores into the output block, at an entry. -/
theorem out_apply (c : Dev nD) (t : Fin cfg4.N) (p : Fin 2048) (q : Fin 256) (hr : 2048 * t.val + p.val < 8192) :
    k4_pay2 (iblk V c 0 t) (iblk V c 1 t) (k4_pay1 (F := Ideal)) (ix2 p q)
      = result V c (ix2 ⟨2048 * t.val + p.val, hr⟩ q) := by
  unfold result
  rw [Cert.Spec.mm_apply]
  refine (pay2_apply (iblk V c 0 t) (iblk V c 1 t) _ p q).trans ?_
  rw [pay1_apply p q, zero_add]
  refine Finset.sum_congr rfl fun j _ => ?_
  rw [iblk0_apply V c t p j hr, iblk1_apply V c t j q]

/-- What point t writes back is the block of rows 2048 t … of the result. -/
theorem flushed_eq (c : Dev nD) (t : Fin cfg4.N) (hf : (cfg4.win 2).flush t = true) :
    (dat (F := Ideal) V c).flushed 2 t = ((cfg4.win 2).blk t).view.read (Elt Ideal) (result V c) := by
  have hN : cfg4.N = 4 := N_4
  have ht : t.val < 4 := hN ▸ t.isLt
  obtain ⟨-, -, -, -, e0, e1⟩ := idx_facts t
  show (cfg4.win 2).cut (grid4.coords t) ((dat V c).after 2 t) = _
  rw [after_2 V c t, oD_eq V c t]
  funext y
  obtain ⟨p, q, rfl⟩ : ∃ (p : Fin 2048) (q : Fin 256), y = ix2 p q := ⟨y 0, y 1, eq_ix2 y⟩
  have hr : 2048 * t.val + p.val < 8192 := by omega
  rw [View.read_apply]
  refine (out_apply V c t p q hr).trans ?_
  refine congrArg (result V c) (funext fun a => Fin.ext ?_)
  match a with
  | ⟨0, _⟩ =>
    show 2048 * t.val + p.val = win4_2.index t (0 : Fin 2) * 2048 + 1 * p.val
    rw [e0]; omega
  | ⟨1, _⟩ =>
    show q.val = win4_2.index t (1 : Fin 2) * 256 + 1 * q.val
    rw [e1]; omega

/-- Every row of the output lies in the block its row block's point writes back. -/
theorem cover (i : S8192x256.Idx) :
    ∃ t : Fin cfg4.N, (cfg4.win 2).flush t = true ∧ i ∈ ((cfg4.win 2).blk t).view.set := by
  have hN : cfg4.N = 4 := N_4
  have h0 : (i 0).val < 8192 := (i 0).isLt
  have h1 : (i 1).val < 256 := (i 1).isLt
  let t : Fin cfg4.N := ⟨(i 0).val / 2048, by rw [hN]; omega⟩
  have hv : t.val = (i 0).val / 2048 := rfl
  obtain ⟨-, -, -, -, e0, e1⟩ := idx_facts t
  refine ⟨t, flush4_2 t, ?_⟩
  show i ∈ ((View.whole main_v36).slice (win4_2.rect t)).set
  rw [View.set_slice_whole, Rect.mem_set_unit]
  intro a
  match a with
  | ⟨0, _⟩ =>
    show win4_2.index t (0 : Fin 2) * 2048 ≤ (i 0).val ∧ (i 0).val < win4_2.index t (0 : Fin 2) * 2048 + 2048
    rw [e0, hv]; omega
  | ⟨1, _⟩ =>
    show win4_2.index t (1 : Fin 2) * 256 ≤ (i 1).val ∧ (i 1).val < win4_2.index t (1 : Fin 2) * 256 + 256
    rw [e1]; omega

/-- The region's output array ends holding the matrix product of its two operand arrays. -/
theorem final (c : Dev nD) :
    (dat (F := Ideal) V c).arrAt 2 cfg4.N
      = (Cert.Spec.mm (a := 8192) (k := 256) (b := 256)
          (V c (Pipeline.arrRef spec4 0) : S8192x256.Idx → EReal)
          (V c (Pipeline.arrRef spec4 1) : S256x256.Idx → EReal) : S8192x256.Idx → EReal) :=
  (dat (F := Ideal) V c).arrAt_eq_of_cover 2 _ (fun t hf => flushed_eq V c t hf) cover

end AtIdeal

end Cert.KernelIdeal.R4

end
-- ==== Proof.KValue.lean ====
/-
  The idealized kernel's result, index by index: the shared aggregation-and-combination applied to the high-pass
  branch  d_inv · (lap · (d_inv · relu0 (x · W_high)))  and to  x · W_conv.
  It is the last stretch of host operations read back, with the five regions' outputs put in.
-/
import proofs.«126198_j83554293777022_1_alg».proof.Proof.KCompose
import proofs.«126198_j83554293777022_1_alg».proof.Proof.KTail
import proofs.«126198_j83554293777022_1_alg».proof.Proof.R0Value
import proofs.«126198_j83554293777022_1_alg».proof.Proof.R1Value
import proofs.«126198_j83554293777022_1_alg».proof.Proof.R2Value
import proofs.«126198_j83554293777022_1_alg».proof.Proof.R3Value
import proofs.«126198_j83554293777022_1_alg».proof.Proof.R4Value

noncomputable section

namespace Cert.KernelIdeal.Asm

open Cert.KernelIdeal Cert.KernelIdeal.Gen
open Idealize.ShloMosaic Idealize.ShloMosaic.TcCoe Idealize.SL.Sem
open Cert.Spec

theorem value (m : (ℓ : Loc nD τ sig) → Buf (Elt Ideal) ℓ) (ρ : Dev nD → PrngReg) (c : Dev nD) :
    W9 (F := Ideal) m ρ c (Proc.devRef .tc main_v61)
      = Cert.RefSpec.tail
          (mm (a := 8192) (k := 8192) (b := 256) (m ((c.tc : Thread nD τ).loc main_arg3)) (mm (a := 8192) (k := 8192) (b := 256) (m ((c.tc : Thread nD τ).loc main_arg2)) (mm (a := 8192) (k := 8192) (b := 256) (m ((c.tc : Thread nD τ).loc main_arg3)) (relu0 (a := 8192) (b := 256) (mm (a := 8192) (k := 256) (b := 256) (m ((c.tc : Thread nD τ).loc main_arg0)) (m ((c.tc : Thread nD τ).loc main_arg4)))))))
          (mm (a := 8192) (k := 256) (b := 256) (m ((c.tc : Thread nD τ).loc main_arg0)) (m ((c.tc : Thread nD τ).loc main_arg5)))
          (m ((c.tc : Thread nD τ).loc main_arg1)) (m ((c.tc : Thread nD τ).loc main_arg6)) (m ((c.tc : Thread nD τ).loc main_arg7)) (m ((c.tc : Thread nD τ).loc main_arg8)) := by
  rw [tail_read m ρ c, out3 m ρ R0.final R1.final R2.final R3.final c, out4 m ρ R4.final c]

end Cert.KernelIdeal.Asm

end
-- ==== Proof.RefFrame.lean ====
/-
  The reference program runs and leaves its arguments unchanged.

  The reference is a straight line of host operations: every weakly fair execution performs them in order and ends,
  nothing faults, and no operation writes an argument array. This is the run of the operation list, keeping only what
  it says about the arguments.
-/
import proofs.«126198_j83554293777022_1_alg».proof.Defs
import proofs.«126198_j83554293777022_1_alg».proof.Proof.Gen.Pre_finite_inputs
import proofs.«126198_j83554293777022_1_alg».proof.Proof.RefRun

noncomputable section

namespace Cert.RefFrame

open Idealize.ShloMosaic Idealize.SL.Sem

/-- Every weakly fair execution of the reference terminates without a fault, its nine arguments unchanged. -/
theorem frame : Cert.frame_ReferenceIdeal (hReferenceIdeal := Cert.ReferenceIdeal.Gen.facts)
    (hPre_finite_inputs := Cert.Pre_finite_inputs.Gen.facts) :=
  fun m g _ => (θ_run _ _ _).mono (fun _ h c => (h c).2) (Cert.ReferenceIdeal.ValueP.run (F := Ideal) m g)

end Cert.RefFrame

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.MatAssoc.lean ====
/-
  Re-associating a chain of matrix products on extended reals whose entries are real numbers.

  For matrices A [a, b], B [b, c], C [c, e] and v [e, d],   ((A · B) · C) · v  =  A · (B · (C · v)).
  On the extended reals a factor distributes over a sum only away from the infinities (∞ + (−∞) is −∞ there, so
  x · (y + z) and x · y + x · z can differ), and re-associating a product of matrices is distributivity applied
  entry by entry. The law is therefore stated for entries that are images of real numbers, and proved in ℝ:
  both sides are the triple sum over (k, l, m) of  A (p, k) · B (k, l) · C (l, m) · v (m, q).
-/
import proofs.«126198_j83554293777022_1_alg».proof.Proof.Spec
import proofs.«126198_j83554293777022_1_alg».proof.Proof.LibRealValued

noncomputable section

open scoped BigOperators
open Cert.RealValued

namespace Cert.MatAssoc

/-- In ℝ, over finite index types: ∑ m, (∑ l, (∑ k, a k · B k l) · C l m) · v m = ∑ k, a k · ∑ l, B k l · ∑ m, C l m · v m. -/
theorem real_chain {κ ι μ : Type} [Fintype κ] [Fintype ι] [Fintype μ]
    (a : κ → ℝ) (B : κ → ι → ℝ) (C : ι → μ → ℝ) (v : μ → ℝ) :
    ∑ m, (∑ l, (∑ k, a k * B k l) * C l m) * v m = ∑ k, a k * ∑ l, B k l * ∑ m, C l m * v m := by
  simp only [Finset.sum_mul, Finset.mul_sum]
  rw [Finset.sum_congr rfl fun m _ => Finset.sum_comm, Finset.sum_comm]
  refine Finset.sum_congr rfl fun k _ => ?_
  rw [Finset.sum_comm]
  exact Finset.sum_congr rfl fun l _ => Finset.sum_congr rfl fun m _ => by ring

/-- The same on extended reals whose values are all real numbers. -/
theorem ereal_chain {κ ι μ : Type} [Fintype κ] [Fintype ι] [Fintype μ]
    (a : κ → EReal) (B : κ → ι → EReal) (C : ι → μ → EReal) (v : μ → EReal)
    (ha : ∀ k, IsReal (a k)) (hB : ∀ k l, IsReal (B k l)) (hC : ∀ l m, IsReal (C l m)) (hv : ∀ m, IsReal (v m)) :
    ∑ m, (∑ l, (∑ k, a k * B k l) * C l m) * v m = ∑ k, a k * ∑ l, B k l * ∑ m, C l m * v m := by
  choose a' ea using ha
  choose B' eB using hB
  choose C' eC using hC
  choose v' ev using hv
  simp only [ea, eB, eC, ev, ← EReal.coe_mul, ← coe_sum]
  exact congrArg _ (real_chain a' B' C' v')

open Idealize.ShloMosaic Idealize.ShloMosaic.ValueIdx Cert.Spec

/-- ((A · B) · C) · v = A · (B · (C · v)) for matrices of real numbers. -/
theorem mm_chain {a b c e d : Nat}
    (A : FVec Ideal ⟨2, ![a, b]⟩ .f32) (B : FVec Ideal ⟨2, ![b, c]⟩ .f32) (C : FVec Ideal ⟨2, ![c, e]⟩ .f32)
    (v : FVec Ideal ⟨2, ![e, d]⟩ .f32)
    (hA : ∀ i, IsReal (A i)) (hB : ∀ i, IsReal (B i)) (hC : ∀ i, IsReal (C i)) (hv : ∀ i, IsReal (v i)) :
    mm (mm (mm A B) C) v = mm A (mm B (mm C v)) := by
  funext i
  obtain ⟨p, q, rfl⟩ : ∃ (p : Fin a) (q : Fin d), i = ix2 p q := ⟨i 0, i 1, eq_ix2 i⟩
  simp only [mm_apply]
  exact ereal_chain (fun k => A (ix2 p k)) (fun k l => B (ix2 k l)) (fun l m => C (ix2 l m)) (fun m => v (ix2 m q))
    (fun _ => hA _) (fun _ _ => hB _) (fun _ _ => hC _) (fun _ => hv _)

/-- A matrix product of matrices of real numbers is a matrix of real numbers. -/
theorem isReal_mm {a k b : Nat} (l : FVec Ideal ⟨2, ![a, k]⟩ .f32) (r : FVec Ideal ⟨2, ![k, b]⟩ .f32)
    (hl : ∀ i, IsReal (l i)) (hr : ∀ i, IsReal (r i)) (i : (⟨2, ![a, b]⟩ : Shape).Idx) : IsReal (mm l r i) :=
  isReal_sum _ _ fun _ _ => (hl _).mul (hr _)

/-- The rectifier of a real number is a real number. -/
theorem isReal_relu0 {a b : Nat} (v : FVec Ideal ⟨2, ![a, b]⟩ .f32) (hv : ∀ i, IsReal (v i))
    (i : (⟨2, ![a, b]⟩ : Shape).Idx) : IsReal (relu0 v i) := by
  obtain ⟨r, hr⟩ := hv i
  refine ⟨max r 0, ?_⟩
  rw [relu0_apply, hr, ← EReal.coe_zero]
  exact (EReal.coe_strictMono.monotone.map_max).symm

end Cert.MatAssoc

end
-- ==== Proof.LibDotPlain.lean ====
/-
  A plain matrix product on the host read at an entry. For dimension numbers that contract the left operand's axis 1
  with the right operand's axis 0 and have no batch axis, the host's product of an [A, K] and a [K, B] array has, at
  `(p, q)`, the value `∑ k, lhs (p, k) * rhs (k, q)` on the extended reals; for any sizes A, K, B and any two float
  formats of the operands. (The same sum as a matrix unit's product into a zero accumulator: on the extended reals the two
  are one function.)
-/
import Idealize.ShloMosaic.PureOps.Ideal.Laws
import Idealize.ShloMosaic.Lib.ValueIdx

noncomputable section

open scoped BigOperators
open Idealize.ShloMosaic Idealize.ShloMosaic.ValueIdx

namespace DotPlain

/-- The host's matrix product at entry `(p, q)`. -/
theorem dotGeneral_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    Host.dotGeneral d prec lhs rhs (ix2 p q) = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.dotGeneral_apply D prec .single lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end DotPlain

end
-- ==== Proof.LibFiniteInputs.lean ====
/-
  Finite inputs are real numbers.  A precondition of the form  all (|x| < +∞)  evaluates, at the extended reals, the
  conjunction over all entries of an array  x  of  max x (-x) < ⊤ : the binary32 word 0x7F800000 denotes ⊤, and
  max x (-x) < ⊤  excludes  x = ⊤  and  x = ⊥ .  So when the conjunction (a reduction by "and" into a scalar, from the
  constant true) comes out 1, every entry of  x  is the image of a real number.  Stated for an array of any shape.
-/
import Idealize.ShloMosaic.Lib.ReduceAll
import Idealize.ShloMosaic.Lib.IdealHost
import Idealize.ShloMosaic.Lib.ValueIdx
import proofs.«126198_j83554293777022_1_alg».proof.Proof.LibRealValued

noncomputable section

namespace Cert.Lib.FiniteInputs

open Idealize.ShloMosaic Idealize.ShloMosaic.ValueIdx Cert.RealValued

/-- A rank-0 array has one index. -/
instance subsingleton_scalar_idx : Subsingleton (⟨0, ![]⟩ : Shape).Idx := ⟨fun a b => funext fun d => d.elim0⟩

/-- The f32 word 0x7F800000 denotes +∞. -/
theorem inf_word : Ideal.ofBits .f32 0x7F800000#32 = (⊤ : EReal) := by simp [Ideal.ofBits, Ideal.ieee]

/-- An extended real whose absolute value max x (-x) is below ⊤ is neither infinity: it is a real number. -/
theorem isReal_of_abs_lt_top (x : EReal) (h : max x (-x) < ⊤) : IsReal x := by
  rw [max_lt_iff] at h
  induction x using EReal.rec with
  | bot => exact absurd h.2 (by simp)
  | coe r => exact ⟨r, rfl⟩
  | top => exact absurd h.1 (by simp)

/-- On one value: the comparison |x| < +∞ came out 1, so x is a real number. -/
theorem isReal_of_cmp (x : Ideal .f32)
    (h : FloatOps.cmpf .olt (FloatOps.hostAbsf x) (Ideal.ofBits .f32 0x7F800000#32) = 1#1) : IsReal x := by
  rw [inf_word] at h
  apply isReal_of_abs_lt_top
  by_contra hn
  have : FloatOps.cmpf .olt (FloatOps.hostAbsf x) (⊤ : EReal) = 0#1 := by
    show Ideal.cmp .olt (max (x : EReal) (-(x : EReal))) ⊤ = 0#1
    unfold Ideal.cmp
    simp [hn]
  rw [this] at h
  exact absurd h (by decide)

/-- The conjunction over all entries of |x| < +∞ (a reduction by "and" into a scalar) came out 1: every entry
    of x is a real number. -/
theorem all_lt_inf {s : Shape} {axes : List (Fin s.rank)} (x : FVec Ideal s .f32)
    (hb : (⟨0, ![]⟩ : Shape).BroadcastsInDim s (![] : Fin 0 → Fin s.rank)) (hr : s.ReducesTo axes (⟨0, ![]⟩ : Shape)) (hu : 0 < (⟨0, ![]⟩ : Shape).numel) (j : (⟨0, ![]⟩ : Shape).Idx)
    (e : Host.reduce IntOp.andi (cmpf .olt (Host.absf x) (broadcastInDim s ![] hb (constant (F := Ideal) (⟨0, ![]⟩ : Shape) .f32 0x7F800000#32)))
          (constantI (⟨0, ![]⟩ : Shape) 1 1#1) hr hu j = 1#1) (i : s.Idx) : IsReal (x i) := by
  have hi := Host.reduce_andi_all _ _ hr hu j e i
  rw [cmpf_apply, broadcastInDim_scalar_apply, constant_apply] at hi
  exact isReal_of_cmp (x i) hi

end Cert.Lib.FiniteInputs

end
-- ==== Proof.FiniteArgs.lean ====
/-
  The precondition says that every float argument of the layer is an array of real numbers.

  The precondition evaluates, on the nine arguments, the conjunction over the eight float arrays
  x, lap, d_inv, W_high, W_conv, b, aL, aH  of  all (|entry| < +∞)  (the edge list is an integer array and is not
  constrained). When it comes out 1, each conjunct is 1, and an array all of whose entries have  |entry| < +∞  on the
  extended reals has no infinite entry: every entry is the image of a real number. The statement is about the
  precondition as a function of nine arrays, so it serves whichever program's memory the arrays are read from.
-/
import proofs.«126198_j83554293777022_1_alg».proof.Pre_finite_inputs
import proofs.«126198_j83554293777022_1_alg».proof.Proof.LibFiniteInputs

noncomputable section

namespace Cert.FiniteArgs

open Idealize.ShloMosaic Idealize.ShloMosaic.ValueIdx Cert.RealValued Cert.Lib.FiniteInputs Cert.Pre_finite_inputs

/-- Every entry of each of the eight float arguments is a real number. -/
structure RealArgs (x : FVec Ideal S8192x256 .f32) (lap dinv : FVec Ideal S8192x8192 .f32)
    (Wh Wc : FVec Ideal S256x256 .f32) (b : FVec Ideal S256 .f32) (aL aH : FVec Ideal S1 .f32) : Prop where
  x : ∀ i, IsReal (x i)
  lap : ∀ i, IsReal (lap i)
  dinv : ∀ i, IsReal (dinv i)
  Wh : ∀ i, IsReal (Wh i)
  Wc : ∀ i, IsReal (Wc i)
  b : ∀ i, IsReal (b i)
  aL : ∀ i, IsReal (aL i)
  aH : ∀ i, IsReal (aH i)

/-- A conjunction of two one-bit words at an index. -/
theorem andi_at {s : Shape} (u v : IVec s 1) (i : s.Idx) : andi u v i = IntOp.andi (u i) (v i) := rfl

variable [Cert.Pre_finite_inputs.Facts]
open Cert.Pre_finite_inputs.Facts

/-- The precondition came out 1: all eight float arguments are arrays of real numbers. -/
theorem realArgs_of_pre (x : FVec Ideal S8192x256 .f32) (e : IVec S2x262144 32) (lap dinv : FVec Ideal S8192x8192 .f32)
    (Wh Wc : FVec Ideal S256x256 .f32) (b : FVec Ideal S256 .f32) (aL aH : FVec Ideal S1 .f32)
    (h : Cert.Pre_finite_inputs.fn (F := Ideal) x e lap dinv Wh Wc b aL aH = fun _ => 1#1) :
    RealArgs x lap dinv Wh Wc b aL aH := by
  have h0 := congrFun h ix0
  dsimp only [Cert.Pre_finite_inputs.fn, Cert.Pre_finite_inputs.fn_part1, Cert.Pre_finite_inputs.fn_part2] at h0
  simp only [andi_at, IntOp.andi_eq_one] at h0
  obtain ⟨⟨⟨⟨⟨⟨⟨hx, hlap⟩, hdinv⟩, hWh⟩, hWc⟩, hb⟩, haL⟩, haH⟩ := h0
  exact ⟨all_lt_inf x _ _ _ _ hx, all_lt_inf lap _ _ _ _ hlap, all_lt_inf dinv _ _ _ _ hdinv, all_lt_inf Wh _ _ _ _ hWh,
    all_lt_inf Wc _ _ _ _ hWc, all_lt_inf b _ _ _ _ hb, all_lt_inf aL _ _ _ _ haL, all_lt_inf aH _ _ _ _ haH⟩

end Cert.FiniteArgs

end
-- ==== Proof.RefValue.lean ====
/-
  The reference program's result, as mathematics.

  The reference computes  Hh = ((d_inv · lap) · d_inv) · relu (x · W_high)  and  xw = x · W_conv  with the host's plain
  matrix product, and then the shared host operations  tail Hh xw e b aL aH.  On the extended reals each host product
  is the plain sum  mm,  the rectifier is  relu0,  and, the arguments being arrays of real numbers, the chain of
  products re-associates:  ((d_inv · lap) · d_inv) · v  =  d_inv · (lap · (d_inv · v)).
-/
import proofs.«126198_j83554293777022_1_alg».proof.Proof.RefRun
import proofs.«126198_j83554293777022_1_alg».proof.Proof.RefTail
import proofs.«126198_j83554293777022_1_alg».proof.Proof.Spec
import proofs.«126198_j83554293777022_1_alg».proof.Proof.MatAssoc
import proofs.«126198_j83554293777022_1_alg».proof.Proof.LibDotPlain
import proofs.«126198_j83554293777022_1_alg».proof.Proof.FiniteArgs
import Idealize.ShloMosaic.Lib.IdealHost

noncomputable section

namespace Cert.RefValue

open Cert.ReferenceIdeal Cert.ReferenceIdeal.Gen Idealize.ShloMosaic Idealize.ShloMosaic.TcCoe Idealize.SL.Sem
open Idealize.ShloMosaic.ValueIdx Cert.Spec Cert.RefSpec Cert.MatAssoc Cert.FiniteArgs

/-- The host's product of an [8192, 8192] and an [8192, 8192] array is the plain sum. -/
theorem dot_nn (l r : FVec Ideal S8192x8192 .f32) :
    Host.dotGeneral dot_S8192x8192_S8192x8192_S8192x8192_1_0_0_1_n_n none l r = mm l r := by
  funext i
  obtain ⟨p, q, rfl⟩ : ∃ (p : Fin 8192) (q : Fin 8192), i = ix2 p q := ⟨i 0, i 1, eq_ix2 i⟩
  exact DotPlain.dotGeneral_apply _ rfl rfl rfl rfl rfl rfl none l r p q

/-- The host's product of an [8192, 8192] and an [8192, 256] array is the plain sum. -/
theorem dot_nd (l : FVec Ideal S8192x8192 .f32) (r : FVec Ideal S8192x256 .f32) :
    Host.dotGeneral dot_S8192x8192_S8192x256_S8192x256_1_0_0_1_n_n none l r = mm l r := by
  funext i
  obtain ⟨p, q, rfl⟩ : ∃ (p : Fin 8192) (q : Fin 256), i = ix2 p q := ⟨i 0, i 1, eq_ix2 i⟩
  exact DotPlain.dotGeneral_apply _ rfl rfl rfl rfl rfl rfl none l r p q

/-- The host's product of an [8192, 256] and a [256, 256] array is the plain sum. -/
theorem dot_dd (l : FVec Ideal S8192x256 .f32) (r : FVec Ideal S256x256 .f32) :
    Host.dotGeneral dot_S8192x256_S256x256_S8192x256_1_0_0_1_n_n none l r = mm l r := by
  funext i
  obtain ⟨p, q, rfl⟩ : ∃ (p : Fin 8192) (q : Fin 256), i = ix2 p q := ⟨i 0, i 1, eq_ix2 i⟩
  exact DotPlain.dotGeneral_apply _ rfl rfl rfl rfl rfl rfl none l r p q

/-- The maximum with an array of zeros is the rectifier. -/
theorem max_zero (v : FVec Ideal S8192x256 .f32) :
    maximumf v (broadcastInDim S8192x256 ![] bcast_S_S8192x256 (constant (F := Ideal) S_ .f32 0x00000000#32)) = relu0 v := by
  funext i
  rw [maximumf_apply, broadcastInDim_scalar_apply, constant_apply, Ideal.ofBits_zero_f32, relu0_apply]

/-- The reference's result is the shared host operations applied to its own matrix products. -/
theorem res_eq_tail (m : (ℓ : Loc nD τ sig) → Buf (Elt Ideal) ℓ) (c : Dev nD) :
    ValueP.res_main_v61 (F := Ideal) m c
      = tail
          (Host.dotGeneral (φ₁ := .f32) (φ₂ := .f32) dot_S8192x8192_S8192x256_S8192x256_1_0_0_1_n_n none
            (Host.dotGeneral (φ₁ := .f32) (φ₂ := .f32) dot_S8192x8192_S8192x8192_S8192x8192_1_0_0_1_n_n none
              (Host.dotGeneral (φ₁ := .f32) (φ₂ := .f32) dot_S8192x8192_S8192x8192_S8192x8192_1_0_0_1_n_n none
                (m ((c.tc : Thread nD τ).loc main_arg3) : FVec Ideal S8192x8192 .f32)
                (m ((c.tc : Thread nD τ).loc main_arg2) : FVec Ideal S8192x8192 .f32))
              (m ((c.tc : Thread nD τ).loc main_arg3) : FVec Ideal S8192x8192 .f32))
            (maximumf
              (Host.dotGeneral (φ₁ := .f32) (φ₂ := .f32) dot_S8192x256_S256x256_S8192x256_1_0_0_1_n_n none
                (m ((c.tc : Thread nD τ).loc main_arg0) : FVec Ideal S8192x256 .f32)
                (m ((c.tc : Thread nD τ).loc main_arg4) : FVec Ideal S256x256 .f32))
              (broadcastInDim S8192x256 ![] bcast_S_S8192x256 (constant (F := Ideal) S_ .f32 0x00000000#32))))
          (Host.dotGeneral (φ₁ := .f32) (φ₂ := .f32) dot_S8192x256_S256x256_S8192x256_1_0_0_1_n_n none
            (m ((c.tc : Thread nD τ).loc main_arg0) : FVec Ideal S8192x256 .f32)
            (m ((c.tc : Thread nD τ).loc main_arg5) : FVec Ideal S256x256 .f32))
          (m ((c.tc : Thread nD τ).loc main_arg1) : IVec S2x262144 32)
          (m ((c.tc : Thread nD τ).loc main_arg6) : FVec Ideal S256 .f32)
          (m ((c.tc : Thread nD τ).loc main_arg7) : FVec Ideal S1 .f32)
          (m ((c.tc : Thread nD τ).loc main_arg8) : FVec Ideal S1 .f32) := by
  unfold ValueP.res_main_v61
  rfl

/-- The reference's result on arrays of real numbers:
    tail (d_inv · (lap · (d_inv · relu0 (x · W_high)))) (x · W_conv) e b aL aH. -/
theorem ref_value (m : (ℓ : Loc nD τ sig) → Buf (Elt Ideal) ℓ) (c : Dev nD)
    (hr : RealArgs (m ((c.tc : Thread nD τ).loc main_arg0) : FVec Ideal S8192x256 .f32)
      (m ((c.tc : Thread nD τ).loc main_arg2) : FVec Ideal S8192x8192 .f32)
      (m ((c.tc : Thread nD τ).loc main_arg3) : FVec Ideal S8192x8192 .f32)
      (m ((c.tc : Thread nD τ).loc main_arg4) : FVec Ideal S256x256 .f32)
      (m ((c.tc : Thread nD τ).loc main_arg5) : FVec Ideal S256x256 .f32)
      (m ((c.tc : Thread nD τ).loc main_arg6) : FVec Ideal S256 .f32)
      (m ((c.tc : Thread nD τ).loc main_arg7) : FVec Ideal S1 .f32)
      (m ((c.tc : Thread nD τ).loc main_arg8) : FVec Ideal S1 .f32)) :
    ValueP.res_main_v61 (F := Ideal) m c
      = tail
          (mm (m ((c.tc : Thread nD τ).loc main_arg3) : FVec Ideal S8192x8192 .f32)
            (mm (m ((c.tc : Thread nD τ).loc main_arg2) : FVec Ideal S8192x8192 .f32)
              (mm (m ((c.tc : Thread nD τ).loc main_arg3) : FVec Ideal S8192x8192 .f32)
                (relu0 (mm (m ((c.tc : Thread nD τ).loc main_arg0) : FVec Ideal S8192x256 .f32)
                  (m ((c.tc : Thread nD τ).loc main_arg4) : FVec Ideal S256x256 .f32))))))
          (mm (m ((c.tc : Thread nD τ).loc main_arg0) : FVec Ideal S8192x256 .f32)
            (m ((c.tc : Thread nD τ).loc main_arg5) : FVec Ideal S256x256 .f32))
          (m ((c.tc : Thread nD τ).loc main_arg1) : IVec S2x262144 32)
          (m ((c.tc : Thread nD τ).loc main_arg6) : FVec Ideal S256 .f32)
          (m ((c.tc : Thread nD τ).loc main_arg7) : FVec Ideal S1 .f32)
          (m ((c.tc : Thread nD τ).loc main_arg8) : FVec Ideal S1 .f32) := by
  rw [res_eq_tail, dot_nn, dot_nn, dot_dd, dot_dd, dot_nd, max_zero,
    mm_chain _ _ _ _ hr.dinv hr.lap hr.dinv (isReal_relu0 _ (isReal_mm _ _ hr.x hr.Wh))]

/-- The same, with the reference's arguments named: if the reference's memory holds the arrays  x, e, lap, d_inv, W_high,
    W_conv, b, aL, aH  (say, another program's arguments, with which it agrees) and the float ones are arrays of real
    numbers, its result is  tail (d_inv · (lap · (d_inv · relu0 (x · W_high)))) (x · W_conv) e b aL aH. -/
theorem ref_value_of_eq (m : (ℓ : Loc nD τ sig) → Buf (Elt Ideal) ℓ) (c : Dev nD)
    (x : FVec Ideal S8192x256 .f32) (e : IVec S2x262144 32) (lap dinv : FVec Ideal S8192x8192 .f32)
    (Wh Wc : FVec Ideal S256x256 .f32) (b : FVec Ideal S256 .f32) (aL aH : FVec Ideal S1 .f32)
    (h0 : m ((c.tc : Thread nD τ).loc main_arg0) = x) (h1 : m ((c.tc : Thread nD τ).loc main_arg1) = e)
    (h2 : m ((c.tc : Thread nD τ).loc main_arg2) = lap) (h3 : m ((c.tc : Thread nD τ).loc main_arg3) = dinv)
    (h4 : m ((c.tc : Thread nD τ).loc main_arg4) = Wh) (h5 : m ((c.tc : Thread nD τ).loc main_arg5) = Wc)
    (h6 : m ((c.tc : Thread nD τ).loc main_arg6) = b) (h7 : m ((c.tc : Thread nD τ).loc main_arg7) = aL)
    (h8 : m ((c.tc : Thread nD τ).loc main_arg8) = aH) (hr : RealArgs x lap dinv Wh Wc b aL aH) :
    ValueP.res_main_v61 (F := Ideal) m c
      = tail (mm dinv (mm lap (mm dinv (relu0 (mm x Wh))))) (mm x Wc) e b aL aH := by
  subst h0 h1 h2 h3 h4 h5 h6 h7 h8
  exact ref_value m c hr

end Cert.RefValue

end
-- ==== Proof.lean ====
/-
  The certificate of a graph layer with a high-pass and a low-pass branch.

  The kernel applies the high-pass operator right to left,  d_inv · (lap · (d_inv · relu (x · W_high))),  as four
  blocked matrix products (the three large ones accumulated over four steps of the contracted axis); the reference
  forms  ((d_inv · lap) · d_inv) · relu (x · W_high).  On extended reals a matrix product is a finite sum of products,
  and re-associating three products needs distributivity, which holds when every entry is a real number: this is
  where the precondition (every float input finite) is used. The low-pass branch (degree normalisation, gather,
  scale, scatter-add, bias, rectifier) is the same chain of host operations on both sides, applied to x · W_conv,
  and the result is aL · low + aH · high.

  The three frames: each kernel program's run is assembled from its five regions' body obligations and the host
  stretches between them; the reference's is its run with the result dropped. The idealization rewrote nothing.
-/
import proofs.«126198_j83554293777022_1_alg».proof.Defs
import proofs.«126198_j83554293777022_1_alg».proof.Proof.Gen.Kernel
import proofs.«126198_j83554293777022_1_alg».proof.Proof.Gen.KernelIdeal
import proofs.«126198_j83554293777022_1_alg».proof.Proof.Gen.ReferenceIdeal
import proofs.«126198_j83554293777022_1_alg».proof.Proof.Gen.Pre_finite_inputs
import proofs.«126198_j83554293777022_1_alg».proof.Proof.BKFrame
import proofs.«126198_j83554293777022_1_alg».proof.Proof.KFrame
import proofs.«126198_j83554293777022_1_alg».proof.Proof.KValue
import proofs.«126198_j83554293777022_1_alg».proof.Proof.RefFrame
import proofs.«126198_j83554293777022_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Asm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Asm.frame (F := Ideal) m ρ

/-- Both idealized programs, from memories agreeing on the arguments, end with the shared aggregation applied to one
    high-pass branch: the kernel's by reading its run, the reference's by re-associating its matrix products, which
    the finiteness of the inputs allows. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Asm.W9 (F := Ideal) m ρ c (Proc.devRef .tc Cert.KernelIdeal.main_v61), ?_, ?_⟩
  · exact Cert.KernelIdeal.Asm.run_value (F := Ideal) m ρ
  · refine (θ_run Cert.ReferenceIdeal.defs _ _).mono (fun _ h c => ⟨(h c).1.trans ?_, (h c).2⟩)
      (Cert.ReferenceIdeal.ValueP.run (F := Ideal) m' ρ')
    show _ = Cert.KernelIdeal.Asm.W9 (F := Ideal) m ρ c (Proc.devRef .tc Cert.KernelIdeal.main_v61)
    rw [Cert.KernelIdeal.Asm.value m ρ c]
    exact Cert.RefValue.ref_value_of_eq m' c _ _ _ _ _ _ _ _ _
      (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2
      (Cert.FiniteArgs.realArgs_of_pre _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_k, frame_ki, Cert.RefFrame.frame, trivial, algebraic⟩

end Cert.Proof

end
